-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x3 : Shape := ⟨2, ![100000, 3]⟩
abbrev S100000x5 : Shape := ⟨2, ![100000, 5]⟩
abbrev S2x3200000 : Shape := ⟨2, ![2, 3200000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S100000x5 : S_.BroadcastsInDim S100000x5 (![] : Fin 0 → Fin S100000x5.rank)
  reducesTo_S100000x5_S_d0_1 : S100000x5.ReducesTo [0, 1] S_

variable [Facts]

def fn_part3 {F : FTy → Type} [FloatOps F] (main_arg11 : FVec F S100000x5 .f32) (main_v48 : IVec S_ 1) (main_v49 : FVec F S100000x3 .f32) (main_v50 : FVec F S100000x3 .f32) : IVec S_ 1 :=
  let main_v51 : IVec S100000x3 1 := cmpf .olt main_v49 main_v50
  let main_c_19 : IVec S_ 1 := constantI S_ 1 1#1
  let main_v52 : IVec S_ 1 := (fun x v => Host.reduce IntOp.andi x v reducesTo_S100000x3_S_d0_1 h_S_) main_v51 main_c_19
  let main_v53 : IVec S_ 1 := andi main_v48 main_v52
  let main_v54 : FVec F S100000x5 .f32 := Host.absf main_arg11
  let main_cst_20 : FVec F S_ .f32 := constant S_ .f32 0x7F800000#32
  let main_v55 : FVec F S100000x5 .f32 := broadcastInDim S100000x5 ![] bcast_S_S100000x5 main_cst_20
  let main_v56 : IVec S100000x5 1 := cmpf .olt main_v54 main_v55
  let main_c_21 : IVec S_ 1 := constantI S_ 1 1#1
  let main_v57 : IVec S_ 1 := (fun x v => Host.reduce IntOp.andi x v reducesTo_S100000x5_S_d0_1 h_S_) main_v56 main_c_21
  let main_v58 : IVec S_ 1 := andi main_v53 main_v57
  main_v58

def fn_part2 {F : FTy → Type} [FloatOps F] (main_arg7 : FVec F S100000 .f32) (main_arg8 : FVec F S100000x3 .f32) (main_arg9 : FVec F S100000 .f32) (main_arg10 : FVec F S100000x3 .f32) (main_arg11 : FVec F S100000x5 .f32) (main_v33 : IVec S_ 1) : IVec S_ 1 :=
  let main_v34 : FVec F S100000 .f32 := Host.absf main_arg7
  let main_cst_12 : FVec F S_ .f32 := constant S_ .f32 0x7F800000#32
  let main_v35 : FVec F S100000 .f32 := broadcastInDim S100000 ![] bcast_S_S100000 main_cst_12
  let main_v36 : IVec S100000 1 := cmpf .olt main_v34 main_v35
  let main_c_13 : IVec S_ 1 := constantI S_ 1 1#1
  let main_v37 : IVec S_ 1 := (fun x v => Host.reduce IntOp.andi x v reducesTo_S100000_S_d0 h_S_) main_v36 main_c_13
  let main_v38 : IVec S_ 1 := andi main_v33 main_v37
  let main_v39 : FVec F S100000x3 .f32 := Host.absf main_arg8
  let main_cst_14 : FVec F S_ .f32 := constant S_ .f32 0x7F800000#32
  let main_v40 : FVec F S100000x3 .f32 := broadcastInDim S100000x3 ![] bcast_S_S100000x3 main_cst_14
  let main_v41 : IVec S100000x3 1 := cmpf .olt main_v39 main_v40
  let main_c_15 : IVec S_ 1 := constantI S_ 1 1#1
  let main_v42 : IVec S_ 1 := (fun x v => Host.reduce IntOp.andi x v reducesTo_S100000x3_S_d0_1 h_S_) main_v41 main_c_15
  let main_v43 : IVec S_ 1 := andi main_v38 main_v42
  let main_v44 : FVec F S100000 .f32 := Host.absf main_arg9
  let main_cst_16 : FVec F S_ .f32 := constant S_ .f32 0x7F800000#32
  let main_v45 : FVec F S100000 .f32 := broadcastInDim S100000 ![] bcast_S_S100000 main_cst_16
  let main_v46 : IVec S100000 1 := cmpf .olt main_v44 main_v45
  let main_c_17 : IVec S_ 1 := constantI S_ 1 1#1
  let main_v47 : IVec S_ 1 := (fun x v => Host.reduce IntOp.andi x v reducesTo_S100000_S_d0 h_S_) main_v46 main_c_17
  let main_v48 : IVec S_ 1 := andi main_v43 main_v47
  let main_v49 : FVec F S100000x3 .f32 := Host.absf main_arg10
  let main_cst_18 : FVec F S_ .f32 := constant S_ .f32 0x7F800000#32
  let main_v50 : FVec F S100000x3 .f32 := broadcastInDim S100000x3 ![] bcast_S_S100000x3 main_cst_18
  fn_part3 (F := F) main_arg11 main_v48 main_v49 main_v50

def fn_part1 {F : FTy → Type} [FloatOps F] (main_arg4 : FVec F S100000 .f32) (main_arg5 : FVec F S100000 .f32) (main_arg6 : FVec F S100000 .f32) (main_arg7 : FVec F S100000 .f32) (main_arg8 : FVec F S100000x3 .f32) (main_arg9 : FVec F S100000 .f32) (main_arg10 : FVec F S100000x3 .f32) (main_arg11 : FVec F S100000x5 .f32) (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg5
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg6
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000 .f32) (main_arg1 : FVec F S100000 .f32) (main_arg2 : FVec F S100000 .f32) (main_arg3 : FVec F S100000x3 .f32) (main_arg4 : FVec F S100000 .f32) (main_arg5 : FVec F S100000 .f32) (main_arg6 : FVec F S100000 .f32) (main_arg7 : FVec F S100000 .f32) (main_arg8 : FVec F S100000x3 .f32) (main_arg9 : FVec F S100000 .f32) (main_arg10 : FVec F S100000x3 .f32) (main_arg11 : FVec F S100000x5 .f32) (main_arg12 : IVec S2x3200000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_arg4 main_arg5 main_arg6 main_arg7 main_arg8 main_arg9 main_arg10 main_arg11 main_v13 main_v16
-- ==== Kernel.lean ====
abbrev S100000 : Shape := ⟨1, ![100000]⟩
abbrev S100000x3 : Shape := ⟨2, ![100000, 3]⟩
abbrev S100000x5 : Shape := ⟨2, ![100000, 5]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3x100000 : Shape := ⟨2, ![3, 100000]⟩
abbrev S1x100000 : Shape := ⟨2, ![1, 100000]⟩
abbrev S3200000x1 : Shape := ⟨2, ![3200000, 1]⟩
abbrev S3x3200000 : Shape := ⟨2, ![3, 3200000]⟩
abbrev S3x32000 : Shape := ⟨2, ![3, 32000]⟩
abbrev S1x32000 : Shape := ⟨2, ![1, 32000]⟩
abbrev S3200000x3 : Shape := ⟨2, ![3200000, 3]⟩
abbrev S100000x1 : Shape := ⟨2, ![100000, 1]⟩

abbrev nBuf : Space → Nat
  | .hbm => 233
  | .vmem => 20
  | .smem => 0
  | _ => 0

abbrev hbmTy0_0 (i : Nat) : BufTy := match i % 128 with
  | 0 => ⟨S100000, .f32⟩
  | 1 => ⟨S100000, .f32⟩
  | 2 => ⟨S100000, .f32⟩
  | 3 => ⟨S100000x3, .f32⟩
  | 4 => ⟨S100000, .f32⟩
  | 5 => ⟨S100000, .f32⟩
  | 6 => ⟨S100000, .f32⟩
  | 7 => ⟨S100000, .f32⟩
  | 8 => ⟨S100000x3, .f32⟩
  | 9 => ⟨S100000, .f32⟩
  | 10 => ⟨S100000x3, .f32⟩
  | 11 => ⟨S100000x5, .f32⟩
  | 12 => ⟨S2x3200000, .i32⟩
  | 13 => ⟨S1x3200000, .i32⟩
  | 14 => ⟨S3200000, .i32⟩
  | 15 => ⟨S1x3200000, .i32⟩
  | 16 => ⟨S3200000, .i32⟩
  | 17 => ⟨S100000, .f32⟩
  | 18 => ⟨S100000, .f32⟩
  | 19 => ⟨S_, .f32⟩
  | 20 => ⟨S100000, .f32⟩
  | 21 => ⟨S100000, .f32⟩
  | 22 => ⟨S100000, .f32⟩
  | 23 => ⟨S100000, .f32⟩
  | 24 => ⟨S_, .f32⟩
  | 25 => ⟨S_, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000, .f32⟩
  | 34 => ⟨S100000, .f32⟩
  | 35 => ⟨S_, .f32⟩
  | 36 => ⟨S_, .f32⟩
  | 37 => ⟨S_, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000, .f32⟩
  | 46 => ⟨S100000, .f32⟩
  | 47 => ⟨S_, .f32⟩
  | 48 => ⟨S_, .f32⟩
  | 49 => ⟨S_, .f32⟩
  | 50 => ⟨S_, .f32⟩
  | 51 => ⟨S_, .f32⟩
  | 52 => ⟨S100000x3, .f32⟩
  | 53 => ⟨S100000x3, .f32⟩
  | 54 => ⟨S_, .f32⟩
  | 55 => ⟨S100000x3, .f32⟩
  | 56 => ⟨S100000x3, .f32⟩
  | 57 => ⟨S100000x3, .f32⟩
  | 58 => ⟨S100000x3, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S3x100000, .f32⟩
  | 67 => ⟨S3x100000, .f32⟩
  | 68 => ⟨S1x100000, .f32⟩
  | 69 => ⟨S1x100000, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3x3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3x3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3x3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3x3200000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S1x3200000, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S1x3200000, .f32⟩
  | 124 => ⟨S_, .i32⟩
  | 125 => ⟨S3200000, .i32⟩
  | 126 => ⟨S3200000, .i1⟩
  | 127 => ⟨S_, .i32⟩
  | _ => ⟨S100000, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S1x3200000, .f32⟩
  | 5 => ⟨S_, .i32⟩
  | 6 => ⟨S3200000, .i32⟩
  | 7 => ⟨S3200000, .i1⟩
  | 8 => ⟨S_, .i32⟩
  | 9 => ⟨S3200000, .i32⟩
  | 10 => ⟨S3200000, .i32⟩
  | 11 => ⟨S3200000, .i32⟩
  | 12 => ⟨S3200000x1, .i32⟩
  | 13 => ⟨S1x3200000, .f32⟩
  | 14 => ⟨S1x3200000, .f32⟩
  | 15 => ⟨S3x3200000, .f32⟩
  | 16 => ⟨S3200000, .f32⟩
  | 17 => ⟨S3200000x3, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S3200000x1, .i32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S100000x3, .f32⟩
  | 40 => ⟨S3200000x1, .i32⟩
  | 41 => ⟨S100000x3, .f32⟩
  | 42 => ⟨S_, .f32⟩
  | 43 => ⟨S100000x3, .f32⟩
  | 44 => ⟨S3200000x1, .i32⟩
  | 45 => ⟨S100000x3, .f32⟩
  | 46 => ⟨S100000x3, .f32⟩
  | 47 => ⟨S100000x1, .f32⟩
  | 48 => ⟨S_, .f32⟩
  | 49 => ⟨S100000x1, .f32⟩
  | 50 => ⟨S100000x1, .f32⟩
  | 51 => ⟨S100000x3, .f32⟩
  | 52 => ⟨S100000x3, .f32⟩
  | 53 => ⟨S100000x3, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S100000x1, .f32⟩
  | 61 => ⟨S100000, .f32⟩
  | 62 => ⟨S_, .f32⟩
  | 63 => ⟨S100000, .f32⟩
  | 64 => ⟨S100000, .i1⟩
  | 65 => ⟨S100000, .f32⟩
  | 66 => ⟨S_, .f32⟩
  | 67 => ⟨S_, .f32⟩
  | 68 => ⟨S100000x1, .f32⟩
  | 69 => ⟨S100000x3, .f32⟩
  | 70 => ⟨S100000x3, .f32⟩
  | 71 => ⟨S100000x3, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | .local _ .vmem, ⟨0, _⟩ => ⟨S3x32000, .f32⟩
  | .local _ .vmem, ⟨1, _⟩ => ⟨S3x32000, .f32⟩
  | .local _ .vmem, ⟨2, _⟩ => ⟨S3x32000, .f32⟩
  | .local _ .vmem, ⟨3, _⟩ => ⟨S3x32000, .f32⟩
  | .local _ .vmem, ⟨4, _⟩ => ⟨S1x32000, .f32⟩
  | .local _ .vmem, ⟨5, _⟩ => ⟨S1x32000, .f32⟩
  | .local _ .vmem, ⟨6, _⟩ => ⟨S1x32000, .f32⟩
  | .local _ .vmem, ⟨7, _⟩ => ⟨S1x32000, .f32⟩
  | .local _ .vmem, ⟨8, _⟩ => ⟨S3x32000, .f32⟩
  | .local _ .vmem, ⟨9, _⟩ => ⟨S3x32000, .f32⟩
  | .local _ .vmem, ⟨10, _⟩ => ⟨S3x32000, .f32⟩
  | .local _ .vmem, ⟨11, _⟩ => ⟨S3x32000, .f32⟩
  | .local _ .vmem, ⟨12, _⟩ => ⟨S1x32000, .f32⟩
  | .local _ .vmem, ⟨13, _⟩ => ⟨S1x32000, .f32⟩
  | .local _ .vmem, ⟨14, _⟩ => ⟨S1x32000, .f32⟩
  | .local _ .vmem, ⟨15, _⟩ => ⟨S1x32000, .f32⟩
  | .local _ .vmem, ⟨16, _⟩ => ⟨S1x32000, .f32⟩
  | .local _ .vmem, ⟨17, _⟩ => ⟨S1x32000, .f32⟩
  | .local _ .vmem, ⟨18, _⟩ => ⟨S3x32000, .f32⟩
  | .local _ .vmem, ⟨19, _⟩ => ⟨S3x32000, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_c_20 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_c_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_c_24 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_25 : Ref sig .tc := ⟨.hbm, 133, rfl⟩
abbrev main_v93 : Ref sig .tc := ⟨.hbm, 134, rfl⟩
abbrev main_v94 : Ref sig .tc := ⟨.hbm, 135, rfl⟩
abbrev main_c_26 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100_0 : Ref sig .tc := ⟨.hbm, 142, rfl⟩
abbrev main_v100_1 : Ref sig .tc := ⟨.hbm, 143, rfl⟩
abbrev main_v101 : Ref sig .tc := ⟨.hbm, 144, rfl⟩
abbrev main_v102 : Ref sig .tc := ⟨.hbm, 145, rfl⟩
abbrev main_cst_27 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_28 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_29 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_30 : Ref sig .tc := ⟨.hbm, 160, rfl⟩
abbrev main_v114 : Ref sig .tc := ⟨.hbm, 161, rfl⟩
abbrev main_cst_31 : Ref sig .tc := ⟨.hbm, 162, rfl⟩
abbrev main_v115 : Ref sig .tc := ⟨.hbm, 163, rfl⟩
abbrev main_cst_32 : Ref sig .tc := ⟨.hbm, 164, rfl⟩
abbrev main_v116 : Ref sig .tc := ⟨.hbm, 165, rfl⟩
abbrev main_cst_33 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_34 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_35 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_36 : Ref sig .tc := ⟨.hbm, 182, rfl⟩
abbrev main_v130 : Ref sig .tc := ⟨.hbm, 183, rfl⟩
abbrev main_cst_37 : Ref sig .tc := ⟨.hbm, 184, rfl⟩
abbrev main_v131 : Ref sig .tc := ⟨.hbm, 185, rfl⟩
abbrev main_cst_38 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_39 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_40 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_41 : Ref sig .tc := ⟨.hbm, 200, rfl⟩
abbrev main_v143 : Ref sig .tc := ⟨.hbm, 201, rfl⟩
abbrev main_cst_42 : Ref sig .tc := ⟨.hbm, 202, rfl⟩
abbrev main_v144 : Ref sig .tc := ⟨.hbm, 203, rfl⟩
abbrev main_cst_43 : Ref sig .tc := ⟨.hbm, 204, rfl⟩
abbrev main_v145 : Ref sig .tc := ⟨.hbm, 205, rfl⟩
abbrev main_cst_44 : Ref sig .tc := ⟨.hbm, 206, rfl⟩
abbrev main_v146 : Ref sig .tc := ⟨.hbm, 207, rfl⟩
abbrev main_v147 : Ref sig .tc := ⟨.hbm, 208, rfl⟩
abbrev main_cst_45 : Ref sig .tc := ⟨.hbm, 209, rfl⟩
abbrev main_call0_v0 : Ref sig .tc := ⟨.hbm, 210, rfl⟩
abbrev main_v148 : Ref sig .tc := ⟨.hbm, 211, rfl⟩
abbrev main_cst_46 : Ref sig .tc := ⟨.hbm, 212, rfl⟩
abbrev main_v149 : Ref sig .tc := ⟨.hbm, 213, rfl⟩
abbrev main_cst_47 : Ref sig .tc := ⟨.hbm, 214, rfl⟩
abbrev main_v150 : Ref sig .tc := ⟨.hbm, 215, rfl⟩
abbrev main_cst_48 : Ref sig .tc := ⟨.hbm, 216, rfl⟩
abbrev main_v151 : Ref sig .tc := ⟨.hbm, 217, rfl⟩
abbrev main_v152 : Ref sig .tc := ⟨.hbm, 218, rfl⟩
abbrev main_cst_49 : Ref sig .tc := ⟨.hbm, 219, rfl⟩
abbrev main_v153 : Ref sig .tc := ⟨.hbm, 220, rfl⟩
abbrev main_v154 : Ref sig .tc := ⟨.hbm, 221, rfl⟩
abbrev main_cst_50 : Ref sig .tc := ⟨.hbm, 222, rfl⟩
abbrev main_cst_51 : Ref sig .tc := ⟨.hbm, 223, rfl⟩
abbrev main_v155 : Ref sig .tc := ⟨.hbm, 224, rfl⟩
abbrev main_v156 : Ref sig .tc := ⟨.hbm, 225, rfl⟩
abbrev main_cst_52 : Ref sig .tc := ⟨.hbm, 226, rfl⟩
abbrev main_v157 : Ref sig .tc := ⟨.hbm, 227, rfl⟩
abbrev main_v158 : Ref sig .tc := ⟨.hbm, 228, rfl⟩
abbrev main_cst_53 : Ref sig .tc := ⟨.hbm, 229, rfl⟩
abbrev main_cst_54 : Ref sig .tc := ⟨.hbm, 230, rfl⟩
abbrev main_v159 : Ref sig .tc := ⟨.hbm, 231, rfl⟩
abbrev main_v160 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x32000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  transposes_S100000x3_S3x100000_1_0 : S100000x3.Transposes [1, 0] S3x100000
  shapeCasts_S100000_S1x100000 : S100000.ShapeCasts S1x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  slices_S3x32000_o0_0_S1x32000 : S3x32000.Slices ![0, 0] S1x32000
  slices_S3x32000_o1_0_S1x32000 : S3x32000.Slices ![1, 0] S1x32000
  slices_S3x32000_o2_0_S1x32000 : S3x32000.Slices ![2, 0] S1x32000
  inb_S3x32000_S1x32000_0_0 : ∀ a, (![0, 0] : Fin 2 → Nat) a + S1x32000.size a ≤ S3x32000.size a
  inb_S3x32000_S1x32000_1_0 : ∀ a, (![1, 0] : Fin 2 → Nat) a + S1x32000.size a ≤ S3x32000.size a
  inb_S3x32000_S1x32000_2_0 : ∀ a, (![2, 0] : Fin 2 → Nat) a + S1x32000.size a ≤ S3x32000.size a
  transposes_S3x3200000_S3200000x3_1_0 : S3x3200000.Transposes [1, 0] S3200000x3
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  slices_S100000x5_S100000x1_0_0 : S100000x5.Slices ![0, 0] S100000x1
  shapeCasts_S100000x1_S100000 : S100000x1.ShapeCasts S100000
  gather_S3x100000_S3200000x1_S3x3200000_0_1_n_n_1_1_31_wf : GatherDims.WF S3x100000 S3200000x1 S3x3200000 [0] [1] [] [1] [] 1 ![3, 1]
  gather_S1x100000_S3200000x1_S1x3200000_0_1_n_n_1_1_11_wf : GatherDims.WF S1x100000 S3200000x1 S1x3200000 [0] [1] [] [1] [] 1 ![1, 1]
  scatter_S100000_S3200000x1_S3200000_n_0_0_1_wf : ScatterDims.WF S100000 S3200000x1 S3200000 [] [0] [0] 1
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x3200000.size a
  hwx0_0 : ∀ i : grid0.Coords, EltTy.bits .f32 = 32 ∨ (Rect.block (s := S3x3200000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32000.size a ≤ S3x3200000.size a
  hwx0_1 : ∀ i : grid0.Coords, EltTy.bits .f32 = 32 ∨ (Rect.block (s := S3x3200000) S3x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x3200000.size a
  hwx0_2 : ∀ i : grid0.Coords, EltTy.bits .f32 = 32 ∨ (Rect.block (s := S1x3200000) S1x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32000.size a ≤ S1x3200000.size a
  hwx0_3 : ∀ i : grid0.Coords, EltTy.bits .f32 = 32 ∨ (Rect.block (s := S1x3200000) S1x32000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x32000.size a ≤ S3x3200000.size a
  hwx0_4 : ∀ i : grid0.Coords, EltTy.bits .f32 = 32 ∨ (Rect.block (s := S3x3200000) S3x32000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x32000.size a ≤ S3x3200000.size a
  hwx0_5 : ∀ i : grid0.Coords, EltTy.bits .f32 = 32 ∨ (Rect.block (s := S3x3200000) S3x32000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32000.size a ≤ S1x3200000.size a
  hwx0_6 : ∀ i : grid0.Coords, EltTy.bits .f32 = 32 ∨ (Rect.block (s := S1x3200000) S1x32000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32000.size a ≤ S1x3200000.size a
  hwx0_7 : ∀ i : grid0.Coords, EltTy.bits .f32 = 32 ∨ (Rect.block (s := S1x3200000) S1x32000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32000.size a ≤ S1x3200000.size a
  hwx0_8 : ∀ i : grid0.Coords, EltTy.bits .f32 = 32 ∨ (Rect.block (s := S1x3200000) S1x32000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x32000.size a ≤ S3x3200000.size a
  hwx0_9 : ∀ i : grid0.Coords, EltTy.bits .f32 = 32 ∨ (Rect.block (s := S3x3200000) S3x32000.size (cc0_transform_9 i) (hinb0_9 i)).WholeWords (EltTy.packing .f32)

variable [Facts₀]

def gather_S3x100000_S3200000x1_S3x3200000_0_1_n_n_1_1_31 : GatherDims S3x100000 S3200000x1 S3x3200000 where
  offsetDims := [0]
  collapsedSliceDims := [1]
  operandBatchingDims := []
  startIndicesBatchingDims := []
  startIndexMap := [1]
  indexVectorDim := 1
  sliceSizes := ![3, 1]
  wf := gather_S3x100000_S3200000x1_S3x3200000_0_1_n_n_1_1_31_wf
def gather_S1x100000_S3200000x1_S1x3200000_0_1_n_n_1_1_11 : GatherDims S1x100000 S3200000x1 S1x3200000 where
  offsetDims := [0]
  collapsedSliceDims := [1]
  operandBatchingDims := []
  startIndicesBatchingDims := []
  startIndexMap := [1]
  indexVectorDim := 1
  sliceSizes := ![1, 1]
  wf := gather_S1x100000_S3200000x1_S1x3200000_0_1_n_n_1_1_11_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v50) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S3x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v85) S1x32000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v64) S3x32000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v71) S3x32000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v92) S1x32000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v99) S1x32000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v100_0) S1x32000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v100_1) S3x32000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000 : Shape := ⟨1, ![100000]⟩
abbrev S100000x3 : Shape := ⟨2, ![100000, 3]⟩
abbrev S100000x5 : Shape := ⟨2, ![100000, 5]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S100000x1 : Shape := ⟨2, ![100000, 1]⟩

abbrev nBuf : Space → Nat
  | .hbm => 270
  | .vmem => 0
  | .smem => 0
  | _ => 0

abbrev hbmTy0_0 (i : Nat) : BufTy := match i % 128 with
  | 0 => ⟨S100000, .f32⟩
  | 1 => ⟨S100000, .f32⟩
  | 2 => ⟨S100000, .f32⟩
  | 3 => ⟨S100000x3, .f32⟩
  | 4 => ⟨S100000, .f32⟩
  | 5 => ⟨S100000, .f32⟩
  | 6 => ⟨S100000, .f32⟩
  | 7 => ⟨S100000, .f32⟩
  | 8 => ⟨S100000x3, .f32⟩
  | 9 => ⟨S100000, .f32⟩
  | 10 => ⟨S100000x3, .f32⟩
  | 11 => ⟨S100000x5, .f32⟩
  | 12 => ⟨S2x3200000, .i32⟩
  | 13 => ⟨S1x3200000, .i32⟩
  | 14 => ⟨S3200000, .i32⟩
  | 15 => ⟨S1x3200000, .i32⟩
  | 16 => ⟨S3200000, .i32⟩
  | 17 => ⟨S100000, .f32⟩
  | 18 => ⟨S100000, .f32⟩
  | 19 => ⟨S_, .f32⟩
  | 20 => ⟨S100000, .f32⟩
  | 21 => ⟨S100000, .f32⟩
  | 22 => ⟨S100000, .f32⟩
  | 23 => ⟨S100000, .f32⟩
  | 24 => ⟨S_, .f32⟩
  | 25 => ⟨S_, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000, .f32⟩
  | 34 => ⟨S100000, .f32⟩
  | 35 => ⟨S_, .f32⟩
  | 36 => ⟨S_, .f32⟩
  | 37 => ⟨S_, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000, .f32⟩
  | 46 => ⟨S100000, .f32⟩
  | 47 => ⟨S_, .f32⟩
  | 48 => ⟨S_, .f32⟩
  | 49 => ⟨S_, .f32⟩
  | 50 => ⟨S_, .f32⟩
  | 51 => ⟨S_, .f32⟩
  | 52 => ⟨S100000x3, .f32⟩
  | 53 => ⟨S100000x3, .f32⟩
  | 54 => ⟨S_, .f32⟩
  | 55 => ⟨S100000x3, .f32⟩
  | 56 => ⟨S100000x3, .f32⟩
  | 57 => ⟨S100000x3, .f32⟩
  | 58 => ⟨S100000x3, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S3200000x3, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x3, .f32⟩
  | 84 => ⟨S3200000x3, .f32⟩
  | 85 => ⟨S3200000x3, .f32⟩
  | 86 => ⟨S_, .f32⟩
  | 87 => ⟨S3200000, .f32⟩
  | 88 => ⟨S3200000x1, .f32⟩
  | 89 => ⟨S3200000x1, .f32⟩
  | 90 => ⟨S_, .f32⟩
  | 91 => ⟨S3200000x1, .f32⟩
  | 92 => ⟨S3200000x1, .f32⟩
  | 93 => ⟨S3200000x3, .f32⟩
  | 94 => ⟨S3200000x3, .f32⟩
  | 95 => ⟨S3200000, .f32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x3, .f32⟩
  | 124 => ⟨S_, .i32⟩
  | 125 => ⟨S3200000, .i32⟩
  | 126 => ⟨S3200000, .i1⟩
  | 127 => ⟨S_, .i32⟩
  | _ => ⟨S100000, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x3, .f32⟩
  | 5 => ⟨S3200000x3, .f32⟩
  | 6 => ⟨S_, .f32⟩
  | 7 => ⟨S3200000x3, .f32⟩
  | 8 => ⟨S3200000x3, .f32⟩
  | 9 => ⟨S3200000x3, .f32⟩
  | 10 => ⟨S_, .f32⟩
  | 11 => ⟨S3200000, .f32⟩
  | 12 => ⟨S_, .f32⟩
  | 13 => ⟨S3200000, .f32⟩
  | 14 => ⟨S3200000, .f32⟩
  | 15 => ⟨S3200000, .f32⟩
  | 16 => ⟨S3200000, .f32⟩
  | 17 => ⟨S_, .f32⟩
  | 18 => ⟨S3200000, .f32⟩
  | 19 => ⟨S3200000, .f32⟩
  | 20 => ⟨S3200000, .f32⟩
  | 21 => ⟨S3200000, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S3200000x1, .i32⟩
  | 30 => ⟨S100000, .f32⟩
  | 31 => ⟨S100000, .f32⟩
  | 32 => ⟨S_, .f32⟩
  | 33 => ⟨S100000, .f32⟩
  | 34 => ⟨S100000, .f32⟩
  | 35 => ⟨S100000, .f32⟩
  | 36 => ⟨S100000, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000, .f32⟩
  | 61 => ⟨S3200000, .f32⟩
  | 62 => ⟨S_, .f32⟩
  | 63 => ⟨S3200000, .f32⟩
  | 64 => ⟨S3200000, .f32⟩
  | 65 => ⟨S3200000x1, .f32⟩
  | 66 => ⟨S3200000x3, .f32⟩
  | 67 => ⟨S3200000x3, .f32⟩
  | 68 => ⟨S3200000x1, .f32⟩
  | 69 => ⟨S3200000x3, .f32⟩
  | 70 => ⟨S3200000x3, .f32⟩
  | 71 => ⟨S3200000x1, .f32⟩
  | 72 => ⟨S3200000x3, .f32⟩
  | 73 => ⟨S3200000x3, .f32⟩
  | 74 => ⟨S3200000x3, .f32⟩
  | 75 => ⟨S_, .f32⟩
  | 76 => ⟨S100000x3, .f32⟩
  | 77 => ⟨S3200000x1, .i32⟩
  | 78 => ⟨S100000x3, .f32⟩
  | 79 => ⟨S_, .f32⟩
  | 80 => ⟨S100000x3, .f32⟩
  | 81 => ⟨S3200000x1, .i32⟩
  | 82 => ⟨S100000x3, .f32⟩
  | 83 => ⟨S100000x3, .f32⟩
  | 84 => ⟨S100000x1, .f32⟩
  | 85 => ⟨S_, .f32⟩
  | 86 => ⟨S100000x1, .f32⟩
  | 87 => ⟨S100000x1, .f32⟩
  | 88 => ⟨S100000x3, .f32⟩
  | 89 => ⟨S100000x3, .f32⟩
  | 90 => ⟨S100000x3, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S100000x1, .f32⟩
  | 98 => ⟨S100000, .f32⟩
  | 99 => ⟨S_, .f32⟩
  | 100 => ⟨S100000, .f32⟩
  | 101 => ⟨S100000, .i1⟩
  | 102 => ⟨S100000, .f32⟩
  | 103 => ⟨S_, .f32⟩
  | 104 => ⟨S_, .f32⟩
  | 105 => ⟨S100000x1, .f32⟩
  | 106 => ⟨S100000x3, .f32⟩
  | 107 => ⟨S100000x3, .f32⟩
  | 108 => ⟨S100000x3, .f32⟩
  | 109 => ⟨S_, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S100000, .f32⟩

abbrev hbmTy (i : Nat) : BufTy := match i / 128 with
  | 0 => hbmTy0_0 i
  | 1 => hbmTy0_1 i
  | 2 => hbmTy0_2 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_c : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_c_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_v0 : Ref sig .tc := ⟨.hbm, 85, rfl⟩
abbrev main_call0_cst : Ref sig .tc := ⟨.hbm, 86, rfl⟩
abbrev main_call0_v1 : Ref sig .tc := ⟨.hbm, 87, rfl⟩
abbrev main_call0_v2 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_16 : Ref sig .tc := ⟨.hbm, 97, rfl⟩
abbrev main_v62 : Ref sig .tc := ⟨.hbm, 98, rfl⟩
abbrev main_v63 : Ref sig .tc := ⟨.hbm, 99, rfl⟩
abbrev main_c_17 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_18 : Ref sig .tc := ⟨.hbm, 106, rfl⟩
abbrev main_v69 : Ref sig .tc := ⟨.hbm, 107, rfl⟩
abbrev main_v70 : Ref sig .tc := ⟨.hbm, 108, rfl⟩
abbrev main_c_19 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_20 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_22 : Ref sig .tc := ⟨.hbm, 124, rfl⟩
abbrev main_v83 : Ref sig .tc := ⟨.hbm, 125, rfl⟩
abbrev main_v84 : Ref sig .tc := ⟨.hbm, 126, rfl⟩
abbrev main_c_23 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_24 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_25 : Ref sig .tc := ⟨.hbm, 138, rfl⟩
abbrev main_v94 : Ref sig .tc := ⟨.hbm, 139, rfl⟩
abbrev main_cst_26 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_27 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_28 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_29 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_30 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_31 : Ref sig .tc := ⟨.hbm, 165, rfl⟩
abbrev main_v115 : Ref sig .tc := ⟨.hbm, 166, rfl⟩
abbrev main_cst_32 : Ref sig .tc := ⟨.hbm, 167, rfl⟩
abbrev main_v116 : Ref sig .tc := ⟨.hbm, 168, rfl⟩
abbrev main_cst_33 : Ref sig .tc := ⟨.hbm, 169, rfl⟩
abbrev main_v117 : Ref sig .tc := ⟨.hbm, 170, rfl⟩
abbrev main_c_34 : Ref sig .tc := ⟨.hbm, 171, rfl⟩
abbrev main_v118 : Ref sig .tc := ⟨.hbm, 172, rfl⟩
abbrev main_v119 : Ref sig .tc := ⟨.hbm, 173, rfl⟩
abbrev main_c_35 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_36 : Ref sig .tc := ⟨.hbm, 180, rfl⟩
abbrev main_v125 : Ref sig .tc := ⟨.hbm, 181, rfl⟩
abbrev main_v126 : Ref sig .tc := ⟨.hbm, 182, rfl⟩
abbrev main_c_37 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_38 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_39 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_40 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_41 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_42 : Ref sig .tc := ⟨.hbm, 219, rfl⟩
abbrev main_v158 : Ref sig .tc := ⟨.hbm, 220, rfl⟩
abbrev main_cst_43 : Ref sig .tc := ⟨.hbm, 221, rfl⟩
abbrev main_v159 : Ref sig .tc := ⟨.hbm, 222, rfl⟩
abbrev main_cst_44 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_cst_45 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_46 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_cst_47 : Ref sig .tc := ⟨.hbm, 237, rfl⟩
abbrev main_v171 : Ref sig .tc := ⟨.hbm, 238, rfl⟩
abbrev main_cst_48 : Ref sig .tc := ⟨.hbm, 239, rfl⟩
abbrev main_v172 : Ref sig .tc := ⟨.hbm, 240, rfl⟩
abbrev main_cst_49 : Ref sig .tc := ⟨.hbm, 241, rfl⟩
abbrev main_v173 : Ref sig .tc := ⟨.hbm, 242, rfl⟩
abbrev main_cst_50 : Ref sig .tc := ⟨.hbm, 243, rfl⟩
abbrev main_v174 : Ref sig .tc := ⟨.hbm, 244, rfl⟩
abbrev main_v175 : Ref sig .tc := ⟨.hbm, 245, rfl⟩
abbrev main_cst_51 : Ref sig .tc := ⟨.hbm, 246, rfl⟩
abbrev main_call1_v0 : Ref sig .tc := ⟨.hbm, 247, rfl⟩
abbrev main_v176 : Ref sig .tc := ⟨.hbm, 248, rfl⟩
abbrev main_cst_52 : Ref sig .tc := ⟨.hbm, 249, rfl⟩
abbrev main_v177 : Ref sig .tc := ⟨.hbm, 250, rfl⟩
abbrev main_cst_53 : Ref sig .tc := ⟨.hbm, 251, rfl⟩
abbrev main_v178 : Ref sig .tc := ⟨.hbm, 252, rfl⟩
abbrev main_cst_54 : Ref sig .tc := ⟨.hbm, 253, rfl⟩
abbrev main_v179 : Ref sig .tc := ⟨.hbm, 254, rfl⟩
abbrev main_v180 : Ref sig .tc := ⟨.hbm, 255, rfl⟩
abbrev main_cst_55 : Ref sig .tc := ⟨.hbm, 256, rfl⟩
abbrev main_v181 : Ref sig .tc := ⟨.hbm, 257, rfl⟩
abbrev main_v182 : Ref sig .tc := ⟨.hbm, 258, rfl⟩
abbrev main_cst_56 : Ref sig .tc := ⟨.hbm, 259, rfl⟩
abbrev main_cst_57 : Ref sig .tc := ⟨.hbm, 260, rfl⟩
abbrev main_v183 : Ref sig .tc := ⟨.hbm, 261, rfl⟩
abbrev main_v184 : Ref sig .tc := ⟨.hbm, 262, rfl⟩
abbrev main_cst_58 : Ref sig .tc := ⟨.hbm, 263, rfl⟩
abbrev main_v185 : Ref sig .tc := ⟨.hbm, 264, rfl⟩
abbrev main_v186 : Ref sig .tc := ⟨.hbm, 265, rfl⟩
abbrev main_cst_59 : Ref sig .tc := ⟨.hbm, 266, rfl⟩
abbrev main_cst_60 : Ref sig .tc := ⟨.hbm, 267, rfl⟩
abbrev main_v187 : Ref sig .tc := ⟨.hbm, 268, rfl⟩
abbrev main_v188 : Ref sig .tc := ⟨.hbm, 269, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  shapeCasts_S3200000x1_S3200000 : S3200000x1.ShapeCasts S3200000
  bcast_S_S3200000x3 : S_.BroadcastsInDim S3200000x3 (![] : Fin 0 → Fin S3200000x3.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  slices_S100000x5_S100000x1_0_0 : S100000x5.Slices ![0, 0] S100000x1
  shapeCasts_S100000x1_S100000 : S100000x1.ShapeCasts S100000
  gather_S100000x3_S3200000x1_S3200000x3_1_0_n_n_0_1_13_wf : GatherDims.WF S100000x3 S3200000x1 S3200000x3 [1] [0] [] [0] [] 1 ![1, 3]
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.FrameKData.lean ====
import proofs.«131631_j10934986735710_1_alg».proof.Proof.Gen.Kernel.Launch
import proofs.«131631_j10934986735710_1_alg».proof.Proof.Gen.Kernel.Skeleton
import proofs.«131631_j10934986735710_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the pipeline is entered, and the windows' blocks -/

/-- The buffer contents of core `c` at the pipeline's entry: the launch memory carried through the host
    operations that precede the pipeline. -/
abbrev V0 (c : Dev nD) : Valuation τ sig (Elt F) := StableHlo.after (List.flatten [hostOps0]) (fun b => m (c, b))
/-- The same contents, read at a TensorCore reference. -/
abbrev V (c : Dev nD) (b : Ref sig .tc) : Buf (Elt F) ((c : Thread nD τ).loc b) := V0 m c (Proc.devRef .tc b)

/-- The block of window `w` at grid point `t`: the window's array at the pipeline's entry, read through the
    block's view. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- All of a 1×32000 buffer. -/
abbrev all1 : Rect S1x32000 := Rect.unit (s := S1x32000) ![0, 0] S1x32000.size inb_S1x32000_S1x32000_0_0
/-- All of a 3×32000 buffer. -/
abbrev all3 : Rect S3x32000 := Rect.unit (s := S3x32000) ![0, 0] S3x32000.size inb_S3x32000_S3x32000_0_0
/-- Row 0 of a 3×32000 buffer. -/
abbrev row0 : Rect S3x32000 := Rect.unit (s := S3x32000) ![0, 0] S1x32000.size inb_S3x32000_S1x32000_0_0
/-- Row 1 of a 3×32000 buffer. -/
abbrev row1 : Rect S3x32000 := Rect.unit (s := S3x32000) ![1, 0] S1x32000.size inb_S3x32000_S1x32000_1_0
/-- Row 2 of a 3×32000 buffer. -/
abbrev row2 : Rect S3x32000 := Rect.unit (s := S3x32000) ![2, 0] S1x32000.size inb_S3x32000_S1x32000_2_0

/-! ## What the body computes, as functions of the input blocks

`xW` is the block of input window `W` (windows 0, 1, 4, 5 have three rows; windows 2, 3, 6, 7 one). -/

/-- The row stored into output window 8, from the blocks of input windows 0 to 5. -/
def fluxMass (x0 x1 : Vec F S3x32000 .f32) (x2 x3 : Vec F S1x32000 .f32) (x4 x5 : Vec F S3x32000 .f32) : FVec F S1x32000 .f32 :=
  k0_pay27 (k0_pay4 x5) (k0_pay5 x2) (k0_pay6 x3) (k0_pay13 x0 x1) (k0_pay14 x0 x1) (k0_pay15 x0 x1) (k0_pay16 x0 x1)
    (k0_pay17 x4) (k0_pay18 x4) (k0_pay19 x4) (k0_pay20 x5) (k0_pay21 x5)

/-- The row stored into row 0 of output window 9, from the blocks of the eight input windows. -/
def fluxRow0 (x0 x1 : Vec F S3x32000 .f32) (x2 x3 : Vec F S1x32000 .f32) (x4 x5 : Vec F S3x32000 .f32) (x6 x7 : Vec F S1x32000 .f32) : FVec F S1x32000 .f32 :=
  k0_pay29 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)
/-- The row stored into row 1 of output window 9. -/
def fluxRow1 (x0 x1 : Vec F S3x32000 .f32) (x2 x3 : Vec F S1x32000 .f32) (x4 x5 : Vec F S3x32000 .f32) (x6 x7 : Vec F S1x32000 .f32) : FVec F S1x32000 .f32 :=
  k0_pay30 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)
/-- The row stored into row 2 of output window 9. -/
def fluxRow2 (x0 x1 : Vec F S3x32000 .f32) (x2 x3 : Vec F S1x32000 .f32) (x4 x5 : Vec F S3x32000 .f32) (x6 x7 : Vec F S1x32000 .f32) : FVec F S1x32000 .f32 :=
  k0_pay31 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)

/-- The staging buffer of output window 8 after the body: one store, of the whole buffer. -/
def out0_8 (x0 x1 : Vec F S3x32000 .f32) (x2 x3 : Vec F S1x32000 .f32) (x4 x5 : Vec F S3x32000 .f32) : Vec F S1x32000 .f32 :=
  View.canon [⟨all1, fluxMass x0 x1 x2 x3 x4 x5⟩]

/-- The staging buffer of output window 9 after the body: three stores, one per row, the last one first. -/
def out0_9 (x0 x1 : Vec F S3x32000 .f32) (x2 x3 : Vec F S1x32000 .f32) (x4 x5 : Vec F S3x32000 .f32) (x6 x7 : Vec F S1x32000 .f32) : Vec F S3x32000 .f32 :=
  View.canon [⟨row2, fluxRow2 x0 x1 x2 x3 x4 x5 x6 x7⟩, ⟨row1, fluxRow1 x0 x1 x2 x3 x4 x5 x6 x7⟩, ⟨row0, fluxRow0 x0 x1 x2 x3 x4 x5 x6 x7⟩]

/-! ## The pipeline's proof data -/

/-- On core `c`: each window's array is its contents at the pipeline's entry; after the body at point `t` an input's
    staging buffer still holds its block, output 8's holds `out0_8` and output 9's `out0_9` of the input blocks at
    `t`; the invariant is the rest of the core's scoped state, untouched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the entry contents (projection only: the fold over the host operations stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

end Cert.Kernel.Hand

end
-- ==== Proof.FrameKHost.lean ====
import proofs.«131631_j10934986735710_1_alg».proof.Proof.Gen.Kernel.Launch
import proofs.«131631_j10934986735710_1_alg».proof.Proof.Gen.Kernel.Skeleton
import proofs.«131631_j10934986735710_1_alg».proof.Proof.Gen.Kernel.Points
import proofs.«131631_j10934986735710_1_alg».proof.Proof.FrameKData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## The buffers the host operations write

Each operation writes one buffer, its result. `wrJ` lists the results of stretch `J` in order. -/

/-- The results of `hostOps0`. -/
abbrev wr0 : List (Ref sig .tc) := [
    main_v0, main_v1, main_v2, main_v3, main_v4, main_v5, main_cst, main_v6, main_v7, main_v8,
    main_v9, main_cst_0, main_v10, main_cst_1, main_v11, main_v12, main_v13, main_cst_2, main_v14, main_v15,
    main_v16, main_v17, main_cst_3, main_v18, main_cst_4, main_v19, main_v20, main_v21, main_v22, main_cst_5,
    main_v23, main_v24, main_v25, main_v26, main_cst_6, main_v27, main_cst_7, main_v28, main_v29, main_v30,
    main_v31, main_cst_8, main_v32, main_v33, main_v34, main_v35, main_cst_9, main_v36, main_cst_10, main_v37,
    main_v38, main_cst_11, main_v39, main_v40, main_v41, main_v42, main_v43, main_c, main_v44, main_v45,
    main_c_12, main_v46, main_v47, main_v48, main_v49, main_v50, main_c_13, main_v51, main_v52, main_c_14,
    main_v53, main_v54, main_v55, main_v56, main_v57, main_c_15, main_v58, main_v59, main_c_16, main_v60,
    main_v61, main_v62, main_v63, main_v64, main_c_17, main_v65, main_v66, main_c_18, main_v67, main_v68,
    main_v69, main_v70, main_v71, main_c_19, main_v72, main_v73, main_c_20, main_v74, main_v75, main_v76,
    main_v77, main_v78, main_c_21, main_v79, main_v80, main_c_22, main_v81, main_v82, main_v83, main_v84,
    main_v85, main_c_23, main_v86, main_v87, main_c_24, main_v88, main_v89, main_v90, main_v91, main_v92,
    main_c_25, main_v93, main_v94, main_c_26, main_v95, main_v96, main_v97, main_v98, main_v99 ]
/-- The results of `hostOps1`. -/
abbrev wr1 : List (Ref sig .tc) := [
    main_v101, main_v102, main_cst_27, main_v103, main_v104, main_v105, main_cst_28, main_v106, main_v107, main_v108,
    main_v109, main_cst_29, main_v110, main_v111, main_v112, main_v113, main_cst_30, main_v114, main_cst_31, main_v115,
    main_cst_32, main_v116, main_cst_33, main_v117, main_v118, main_v119, main_cst_34, main_v120, main_v121, main_v122,
    main_v123, main_v124, main_cst_35, main_v125, main_v126, main_v127, main_v128, main_v129, main_cst_36, main_v130,
    main_cst_37, main_v131, main_cst_38, main_v132, main_v133, main_v134, main_cst_39, main_v135, main_v136, main_v137,
    main_cst_40, main_v138, main_v139, main_v140, main_v141, main_v142, main_cst_41, main_v143, main_cst_42, main_v144,
    main_cst_43, main_v145, main_cst_44, main_v146, main_v147, main_cst_45 ]
/-- The results of `hostOps1_1`. -/
abbrev wr1_1 : List (Ref sig .tc) := [
    main_call0_v0, main_v148 ]
/-- The results of `hostOps1_2`. -/
abbrev wr1_2 : List (Ref sig .tc) := [
    main_cst_46, main_v149, main_cst_47, main_v150, main_cst_48, main_v151, main_v152, main_cst_49, main_v153, main_v154,
    main_cst_50, main_cst_51, main_v155, main_v156, main_cst_52, main_v157, main_v158, main_cst_53, main_cst_54, main_v159,
    main_v160 ]

set_option maxHeartbeats 4000000 in
/-- Every operation of `hostOps0` writes only a buffer listed in `wr0`. -/
theorem hostOps0_wr : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1` writes only a buffer listed in `wr1`. -/
theorem hostOps1_wr : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1_1` writes only a buffer listed in `wr1_1`. -/
theorem hostOps1_1_wr : (hostOps1_1 : List (HloOp τ sig (Elt F))).Forall fun op => op.writes ⊆ (wr1_1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1_2` writes only a buffer listed in `wr1_2`. -/
theorem hostOps1_2_wr : (hostOps1_2 : List (HloOp τ sig (Elt F))).Forall fun op => op.writes ⊆ (wr1_2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference outside a list holding everything a stretch writes is written by none of its operations. -/
theorem not_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-! ## The program around its pipeline -/

/-- The program is the host operations `hostOps0`, the pipeline, then the three later stretches: run from the launch
    memory it reaches the pipeline with the buffers at `V` and continues with the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (show List.Forall _ hostOps0 from hostOps0_sub)
    (show List.Forall _ hostOps0 from hostOps0_fresh) main_chain

/-! ## The stretches after the pipeline -/

/-- They touch only the pipeline's arrays and the buffers that bypass it: every buffer of theirs is an unscoped
    TensorCore reference, and nothing is prefetched. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No array of the pipeline is the result of a later operation. -/
theorem arr_not_wr : ∀ w : Fin 10, Pipeline.arrRef spec0 w ∉ wr1 ∧ Pipeline.arrRef spec0 w ∉ wr1_1 ∧ Pipeline.arrRef spec0 w ∉ wr1_2 := by decide

/-- So they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact not_writes_of hostOps1_wr (arr_not_wr w).1 op hop
  · exact not_writes_of hostOps1_1_wr (arr_not_wr w).2.1 op hop
  · exact not_writes_of hostOps1_2_wr (arr_not_wr w).2.2 op hop

/-! ## Buffers no host operation writes -/

/-- A buffer that is no result of `hostOps0` reaches the pipeline as launched. -/
theorem V_of (c : Dev nD) (r : Ref sig .tc) (h : r ∉ wr0) : V m c r = m ((c : Thread nD τ).loc r) :=
  StableHlo.after_of_forall_not_mem (b := Proc.devRef .tc r) _ _ (by
    intro op hop
    rw [List.flatten_cons, List.flatten_nil, List.append_nil] at hop
    exact not_writes_of hostOps0_wr h op hop)

/-- A buffer that is no result of any host operation and no array of the pipeline ends as launched. -/
theorem W_of (dats : (p : Fin _) → (c : Dev nD) → Dat τ (Elt F) Unit ℕ (UR sig nD τ) ℕ (cfgs p) c) (c : Dev nD) (r : Ref sig .tc)
    (h0 : r ∉ wr0) (h1 : r ∉ wr1) (h2 : r ∉ wr1_1) (h3 : r ∉ wr1_2) (ha : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (by
      intro op hop
      obtain ⟨l, hl, hop⟩ := List.mem_flatten.mp hop
      simp only [List.mem_cons, List.mem_nil_iff, or_false] at hl
      rcases hl with rfl | rfl | rfl
      · exact not_writes_of hostOps1_wr h1 op hop
      · exact not_writes_of hostOps1_1_wr h2 op hop
      · exact not_writes_of hostOps1_2_wr h3 op hop),
    Pipeline.withArrays_of_ne _ c (V0 m c) _ r ha]
  exact V_of m c r h0

/-! ## The program's arguments: written by no host operation, staged by no window -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) :=
  W_of m dats c main_arg0 (by decide) (by decide) (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) :=
  W_of m dats c main_arg1 (by decide) (by decide) (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) :=
  W_of m dats c main_arg2 (by decide) (by decide) (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) :=
  W_of m dats c main_arg3 (by decide) (by decide) (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) :=
  W_of m dats c main_arg4 (by decide) (by decide) (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) :=
  W_of m dats c main_arg5 (by decide) (by decide) (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) :=
  W_of m dats c main_arg6 (by decide) (by decide) (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) :=
  W_of m dats c main_arg7 (by decide) (by decide) (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) :=
  W_of m dats c main_arg8 (by decide) (by decide) (by decide) (by decide) (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) :=
  W_of m dats c main_arg9 (by decide) (by decide) (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) :=
  W_of m dats c main_arg10 (by decide) (by decide) (by decide) (by decide) (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) :=
  W_of m dats c main_arg11 (by decide) (by decide) (by decide) (by decide) (by decide)
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg12 = m ((c : Thread nD τ).loc main_arg12) :=
  W_of m dats c main_arg12 (by decide) (by decide) (by decide) (by decide) (by decide)

end Cert.Kernel.Hand

end
-- ==== Proof.FrameKBody.lean ====
import proofs.«131631_j10934986735710_1_alg».proof.Proof.Gen.Kernel.Launch
import proofs.«131631_j10934986735710_1_alg».proof.Proof.Gen.Kernel.Skeleton
import proofs.«131631_j10934986735710_1_alg».proof.Proof.Gen.Kernel.Points
import proofs.«131631_j10934986735710_1_alg».proof.Proof.FrameKData
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Loads of a whole buffer -/

/-- A load through the rectangle that is all of a 3×32000 buffer reads the buffer's contents. -/
theorem readAt_all3 {sg : RefSig} {κ : Kind} {sp : Space} (v : View sg κ sp S3x32000 .f32) (f : v.ty.Contents (Elt F)) :
    v.readAt (Elt F) all3.toLoadRect f = v.read (Elt F) f :=
  View.ld_unit_zero (by funext a; fin_cases a <;> rfl) inb_S3x32000_S3x32000_0_0 (v.read (Elt F) f)

/-- The same for a 1×32000 buffer. -/
theorem readAt_all1 {sg : RefSig} {κ : Kind} {sp : Space} (v : View sg κ sp S1x32000 .f32) (f : v.ty.Contents (Elt F)) :
    v.readAt (Elt F) all1.toLoadRect f = v.read (Elt F) f :=
  View.ld_unit_zero (by funext a; fin_cases a <;> rfl) inb_S1x32000_S1x32000_0_0 (v.read (Elt F) f)

/-! ## The stores cover the output buffers -/

/-- The one store into output window 8's buffer covers it. -/
theorem cover0_8 (p0 : Vec F S1x32000 .f32) (y : S1x32000.Idx) :
    ∃ pc ∈ ([⟨all1, p0⟩] : List (View.Piece (Elt F) S1x32000 .f32)), y ∈ pc.1.set :=
  View.cover_of_tiled [⟨all1, p0⟩] S1x32000.size (by rfl) y

/-- The three row stores into output window 9's buffer tile it. -/
theorem cover0_9 (p0 p1 p2 : Vec F S1x32000 .f32) (y : S3x32000.Idx) :
    ∃ pc ∈ ([⟨row2, p2⟩, ⟨row1, p1⟩, ⟨row0, p0⟩] : List (View.Piece (Elt F) S3x32000 .f32)), y ∈ pc.1.set :=
  View.cover_of_tiled [⟨row2, p2⟩, ⟨row1, p1⟩, ⟨row0, p0⟩] S1x32000.size (by rfl) y

/-! ## The body's triple -/

set_option maxHeartbeats 4000000 in
/-- The body on whole staging memrefs, the eight inputs' at contents `x0 … x7` and the two outputs' at anything, runs
    to the continuation with the inputs' as they were, output 8's at `out0_8` and output 9's at `out0_9` of them. -/
theorem sound_kernel (c : Dev nD) (E : Set ℕ) (i : grid0.Coords) (arg1 : Memref sig .tc .vmem S3x32000 .f32) (harg1 : arg1.IsWhole) (arg2 : Memref sig .tc .vmem S3x32000 .f32) (harg2 : arg2.IsWhole) (arg3 : Memref sig .tc .vmem S1x32000 .f32) (harg3 : arg3.IsWhole) (arg4 : Memref sig .tc .vmem S1x32000 .f32) (harg4 : arg4.IsWhole) (arg5 : Memref sig .tc .vmem S3x32000 .f32) (harg5 : arg5.IsWhole) (arg6 : Memref sig .tc .vmem S3x32000 .f32) (harg6 : arg6.IsWhole) (arg7 : Memref sig .tc .vmem S1x32000 .f32) (harg7 : arg7.IsWhole) (arg8 : Memref sig .tc .vmem S1x32000 .f32) (harg8 : arg8.IsWhole) (arg9 : Memref sig .tc .vmem S1x32000 .f32) (harg9 : arg9.IsWhole) (arg10 : Memref sig .tc .vmem S3x32000 .f32) (harg10 : arg10.IsWhole)
    (x0 x1 : Vec F S3x32000 .f32) (x2 x3 : Vec F S1x32000 .f32) (x4 x5 : Vec F S3x32000 .f32) (x6 x7 : Vec F S1x32000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5) ∗ owns (c : Thread nD τ) arg10 fullShare (out0_9 x0 x1 x2 x3 x4 x5 x6 x7)) -∗ K ⟨⟩))
      ⊢ wp frame (wpE (defs₀ (F := F)) Variants.none c none) E (cc0__edge_flux_kernel i arg1 harg1 arg2 harg2 arg3 harg3 arg4 harg4 arg5 harg5 arg6 harg6 arg7 harg7 arg8 harg8 arg9 harg9 arg10 harg10) K := by
  simp only [cc0__edge_flux_kernel_eq_skeleton]; unfold cc0__edge_flux_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover0_8 _)]
    simp only []
    rw [readAt_all3 arg1.view f0, readAt_all3 arg2.view f1, readAt_all1 arg3.view f2, readAt_all1 arg4.view f3, readAt_all3 arg5.view f4, readAt_all3 arg6.view f5]
    unfold out0_8 fluxMass
    rfl
  iexists _; isplitr
  swap; · iexact H9
  ipureintro
  rw [View.read_writes_eq_canon _ _ _ (cover0_9 _ _ _)]
  simp only []
  rw [readAt_all3 arg1.view f0, readAt_all3 arg2.view f1, readAt_all1 arg3.view f2, readAt_all1 arg4.view f3, readAt_all3 arg5.view f4, readAt_all3 arg6.view f5, readAt_all1 arg7.view f6, readAt_all1 arg8.view f7]
  unfold out0_9 fluxRow0 fluxRow1 fluxRow2
  rfl

/-! ## The proof data's staging buffers before the body -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the body is called with at point `t`: the invariant, the core's dues, and each window's current staging
    memref at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same with each memref at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' memrefs hold their blocks, so the body's triple applies; the invariant and the
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.lean ====
import proofs.«131631_j10934986735710_1_alg».proof.Proof.Gen.Kernel.Launch
import proofs.«131631_j10934986735710_1_alg».proof.Proof.Gen.Kernel.Skeleton
import proofs.«131631_j10934986735710_1_alg».proof.Proof.Gen.Kernel.Points
import proofs.«131631_j10934986735710_1_alg».proof.Proof.FrameKData
import proofs.«131631_j10934986735710_1_alg».proof.Proof.FrameKHost
import proofs.«131631_j10934986735710_1_alg».proof.Proof.FrameKBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters, for any values, every weakly fair execution of the program on the TensorCores
    terminates, and in every final state each array of the pipeline is what the pipeline library computes from the
    proof data, and every other unscoped buffer is as the later stretches leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim's post from a frame run: each argument is an unscoped buffer that no window stages, so the run's
    post gives it as the later stretches leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-- The frame: the program runs to the end and leaves its thirteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.Kernel.Hand

end
-- ==== Proof.FrameKIData.lean ====
import proofs.«131631_j10934986735710_1_alg».proof.Proof.Gen.KernelIdeal.Launch
import proofs.«131631_j10934986735710_1_alg».proof.Proof.Gen.KernelIdeal.Skeleton
import proofs.«131631_j10934986735710_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the pipeline is entered, and the windows' blocks -/

/-- The buffer contents of core `c` at the pipeline's entry: the launch memory carried through the host
    operations that precede the pipeline. -/
abbrev V0 (c : Dev nD) : Valuation τ sig (Elt F) := StableHlo.after (List.flatten [hostOps0]) (fun b => m (c, b))
/-- The same contents, read at a TensorCore reference. -/
abbrev V (c : Dev nD) (b : Ref sig .tc) : Buf (Elt F) ((c : Thread nD τ).loc b) := V0 m c (Proc.devRef .tc b)

/-- The block of window `w` at grid point `t`: the window's array at the pipeline's entry, read through the
    block's view. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- All of a 1×32000 buffer. -/
abbrev all1 : Rect S1x32000 := Rect.unit (s := S1x32000) ![0, 0] S1x32000.size inb_S1x32000_S1x32000_0_0
/-- All of a 3×32000 buffer. -/
abbrev all3 : Rect S3x32000 := Rect.unit (s := S3x32000) ![0, 0] S3x32000.size inb_S3x32000_S3x32000_0_0
/-- Row 0 of a 3×32000 buffer. -/
abbrev row0 : Rect S3x32000 := Rect.unit (s := S3x32000) ![0, 0] S1x32000.size inb_S3x32000_S1x32000_0_0
/-- Row 1 of a 3×32000 buffer. -/
abbrev row1 : Rect S3x32000 := Rect.unit (s := S3x32000) ![1, 0] S1x32000.size inb_S3x32000_S1x32000_1_0
/-- Row 2 of a 3×32000 buffer. -/
abbrev row2 : Rect S3x32000 := Rect.unit (s := S3x32000) ![2, 0] S1x32000.size inb_S3x32000_S1x32000_2_0

/-! ## What the body computes, as functions of the input blocks

`xW` is the block of input window `W` (windows 0, 1, 4, 5 have three rows; windows 2, 3, 6, 7 one). -/

/-- The row stored into output window 8, from the blocks of input windows 0 to 5. -/
def fluxMass (x0 x1 : Vec F S3x32000 .f32) (x2 x3 : Vec F S1x32000 .f32) (x4 x5 : Vec F S3x32000 .f32) : FVec F S1x32000 .f32 :=
  k0_pay27 (k0_pay4 x5) (k0_pay5 x2) (k0_pay6 x3) (k0_pay13 x0 x1) (k0_pay14 x0 x1) (k0_pay15 x0 x1) (k0_pay16 x0 x1)
    (k0_pay17 x4) (k0_pay18 x4) (k0_pay19 x4) (k0_pay20 x5) (k0_pay21 x5)

/-- The row stored into row 0 of output window 9, from the blocks of the eight input windows. -/
def fluxRow0 (x0 x1 : Vec F S3x32000 .f32) (x2 x3 : Vec F S1x32000 .f32) (x4 x5 : Vec F S3x32000 .f32) (x6 x7 : Vec F S1x32000 .f32) : FVec F S1x32000 .f32 :=
  k0_pay29 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)
/-- The row stored into row 1 of output window 9. -/
def fluxRow1 (x0 x1 : Vec F S3x32000 .f32) (x2 x3 : Vec F S1x32000 .f32) (x4 x5 : Vec F S3x32000 .f32) (x6 x7 : Vec F S1x32000 .f32) : FVec F S1x32000 .f32 :=
  k0_pay30 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)
/-- The row stored into row 2 of output window 9. -/
def fluxRow2 (x0 x1 : Vec F S3x32000 .f32) (x2 x3 : Vec F S1x32000 .f32) (x4 x5 : Vec F S3x32000 .f32) (x6 x7 : Vec F S1x32000 .f32) : FVec F S1x32000 .f32 :=
  k0_pay31 (k0_pay4 x5) (k0_pay5 x2) (k0_pay6 x3) (k0_pay7 x6) (k0_pay8 x7) (k0_pay13 x0 x1) (k0_pay14 x0 x1) (k0_pay15 x0 x1) (k0_pay17 x4) (k0_pay18 x4) (k0_pay19 x4) (k0_pay20 x5) (k0_pay21 x5)

/-- The staging buffer of output window 8 after the body: one store, of the whole buffer. -/
def out0_8 (x0 x1 : Vec F S3x32000 .f32) (x2 x3 : Vec F S1x32000 .f32) (x4 x5 : Vec F S3x32000 .f32) : Vec F S1x32000 .f32 :=
  View.canon [⟨all1, fluxMass x0 x1 x2 x3 x4 x5⟩]

/-- The staging buffer of output window 9 after the body: three stores, one per row, the last one first. -/
def out0_9 (x0 x1 : Vec F S3x32000 .f32) (x2 x3 : Vec F S1x32000 .f32) (x4 x5 : Vec F S3x32000 .f32) (x6 x7 : Vec F S1x32000 .f32) : Vec F S3x32000 .f32 :=
  View.canon [⟨row2, fluxRow2 x0 x1 x2 x3 x4 x5 x6 x7⟩, ⟨row1, fluxRow1 x0 x1 x2 x3 x4 x5 x6 x7⟩, ⟨row0, fluxRow0 x0 x1 x2 x3 x4 x5 x6 x7⟩]

/-! ## The pipeline's proof data -/

/-- On core `c`: each window's array is its contents at the pipeline's entry; after the body at point `t` an input's
    staging buffer still holds its block, output 8's holds `out0_8` and output 9's `out0_9` of the input blocks at
    `t`; the invariant is the rest of the core's scoped state, untouched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the entry contents (projection only: the fold over the host operations stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]

end Cert.KernelIdeal.Hand

end
-- ==== Proof.FrameKIHost.lean ====
import proofs.«131631_j10934986735710_1_alg».proof.Proof.Gen.KernelIdeal.Launch
import proofs.«131631_j10934986735710_1_alg».proof.Proof.Gen.KernelIdeal.Skeleton
import proofs.«131631_j10934986735710_1_alg».proof.Proof.Gen.KernelIdeal.Points
import proofs.«131631_j10934986735710_1_alg».proof.Proof.FrameKIData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-! ## The buffers the host operations write

Each operation writes one buffer, its result. `wrJ` lists the results of stretch `J` in order. -/

/-- The results of `hostOps0`. -/
abbrev wr0 : List (Ref sig .tc) := [
    main_v0, main_v1, main_v2, main_v3, main_v4, main_v5, main_cst, main_v6, main_v7, main_v8,
    main_v9, main_cst_0, main_v10, main_cst_1, main_v11, main_v12, main_v13, main_cst_2, main_v14, main_v15,
    main_v16, main_v17, main_cst_3, main_v18, main_cst_4, main_v19, main_v20, main_v21, main_v22, main_cst_5,
    main_v23, main_v24, main_v25, main_v26, main_cst_6, main_v27, main_cst_7, main_v28, main_v29, main_v30,
    main_v31, main_cst_8, main_v32, main_v33, main_v34, main_v35, main_cst_9, main_v36, main_cst_10, main_v37,
    main_v38, main_cst_11, main_v39, main_v40, main_v41, main_v42, main_v43, main_c, main_v44, main_v45,
    main_c_12, main_v46, main_v47, main_v48, main_v49, main_v50, main_c_13, main_v51, main_v52, main_c_14,
    main_v53, main_v54, main_v55, main_v56, main_v57, main_c_15, main_v58, main_v59, main_c_16, main_v60,
    main_v61, main_v62, main_v63, main_v64, main_c_17, main_v65, main_v66, main_c_18, main_v67, main_v68,
    main_v69, main_v70, main_v71, main_c_19, main_v72, main_v73, main_c_20, main_v74, main_v75, main_v76,
    main_v77, main_v78, main_c_21, main_v79, main_v80, main_c_22, main_v81, main_v82, main_v83, main_v84,
    main_v85, main_c_23, main_v86, main_v87, main_c_24, main_v88, main_v89, main_v90, main_v91, main_v92,
    main_c_25, main_v93, main_v94, main_c_26, main_v95, main_v96, main_v97, main_v98, main_v99 ]
/-- The results of `hostOps1`. -/
abbrev wr1 : List (Ref sig .tc) := [
    main_v101, main_v102, main_cst_27, main_v103, main_v104, main_v105, main_cst_28, main_v106, main_v107, main_v108,
    main_v109, main_cst_29, main_v110, main_v111, main_v112, main_v113, main_cst_30, main_v114, main_cst_31, main_v115,
    main_cst_32, main_v116, main_cst_33, main_v117, main_v118, main_v119, main_cst_34, main_v120, main_v121, main_v122,
    main_v123, main_v124, main_cst_35, main_v125, main_v126, main_v127, main_v128, main_v129, main_cst_36, main_v130,
    main_cst_37, main_v131, main_cst_38, main_v132, main_v133, main_v134, main_cst_39, main_v135, main_v136, main_v137,
    main_cst_40, main_v138, main_v139, main_v140, main_v141, main_v142, main_cst_41, main_v143, main_cst_42, main_v144,
    main_cst_43, main_v145, main_cst_44, main_v146, main_v147, main_cst_45 ]
/-- The results of `hostOps1_1`. -/
abbrev wr1_1 : List (Ref sig .tc) := [
    main_call0_v0, main_v148 ]
/-- The results of `hostOps1_2`. -/
abbrev wr1_2 : List (Ref sig .tc) := [
    main_cst_46, main_v149, main_cst_47, main_v150, main_cst_48, main_v151, main_v152, main_cst_49, main_v153, main_v154,
    main_cst_50, main_cst_51, main_v155, main_v156, main_cst_52, main_v157, main_v158, main_cst_53, main_cst_54, main_v159,
    main_v160 ]

set_option maxHeartbeats 4000000 in
/-- Every operation of `hostOps0` writes only a buffer listed in `wr0`. -/
theorem hostOps0_wr : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1` writes only a buffer listed in `wr1`. -/
theorem hostOps1_wr : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1_1` writes only a buffer listed in `wr1_1`. -/
theorem hostOps1_1_wr : (hostOps1_1 : List (HloOp τ sig (Elt F))).Forall fun op => op.writes ⊆ (wr1_1.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
set_option maxHeartbeats 4000000 in
/-- Every operation of `hostOps1_2` writes only a buffer listed in `wr1_2`. -/
theorem hostOps1_2_wr : (hostOps1_2 : List (HloOp τ sig (Elt F))).Forall fun op => op.writes ⊆ (wr1_2.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- A reference outside a list holding everything a stretch writes is written by none of its operations. -/
theorem not_writes_of {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-! ## The program around its pipeline -/

/-- The program is the host operations `hostOps0`, the pipeline, then the three later stretches: run from the launch
    memory it reaches the pipeline with the buffers at `V` and continues with the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (show List.Forall _ hostOps0 from hostOps0_sub)
    (show List.Forall _ hostOps0 from hostOps0_fresh) main_chain

/-! ## The stretches after the pipeline -/

/-- They touch only the pipeline's arrays and the buffers that bypass it: every buffer of theirs is an unscoped
    TensorCore reference, and nothing is prefetched. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No array of the pipeline is the result of a later operation. -/
theorem arr_not_wr : ∀ w : Fin 10, Pipeline.arrRef spec0 w ∉ wr1 ∧ Pipeline.arrRef spec0 w ∉ wr1_1 ∧ Pipeline.arrRef spec0 w ∉ wr1_2 := by decide

/-- So they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact not_writes_of hostOps1_wr (arr_not_wr w).1 op hop
  · exact not_writes_of hostOps1_1_wr (arr_not_wr w).2.1 op hop
  · exact not_writes_of hostOps1_2_wr (arr_not_wr w).2.2 op hop

/-! ## Buffers no host operation writes -/

/-- A buffer that is no result of `hostOps0` reaches the pipeline as launched. -/
theorem V_of (c : Dev nD) (r : Ref sig .tc) (h : r ∉ wr0) : V m c r = m ((c : Thread nD τ).loc r) :=
  StableHlo.after_of_forall_not_mem (b := Proc.devRef .tc r) _ _ (by
    intro op hop
    rw [List.flatten_cons, List.flatten_nil, List.append_nil] at hop
    exact not_writes_of hostOps0_wr h op hop)

/-- A buffer that is no result of any host operation and no array of the pipeline ends as launched. -/
theorem W_of (dats : (p : Fin _) → (c : Dev nD) → Dat τ (Elt F) Unit ℕ (UR sig nD τ) ℕ (cfgs p) c) (c : Dev nD) (r : Ref sig .tc)
    (h0 : r ∉ wr0) (h1 : r ∉ wr1) (h2 : r ∉ wr1_1) (h3 : r ∉ wr1_2) (ha : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (by
      intro op hop
      obtain ⟨l, hl, hop⟩ := List.mem_flatten.mp hop
      simp only [List.mem_cons, List.mem_nil_iff, or_false] at hl
      rcases hl with rfl | rfl | rfl
      · exact not_writes_of hostOps1_wr h1 op hop
      · exact not_writes_of hostOps1_1_wr h2 op hop
      · exact not_writes_of hostOps1_2_wr h3 op hop),
    Pipeline.withArrays_of_ne _ c (V0 m c) _ r ha]
  exact V_of m c r h0

/-! ## The program's arguments: written by no host operation, staged by no window -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) :=
  W_of m dats c main_arg0 (by decide) (by decide) (by decide) (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) :=
  W_of m dats c main_arg1 (by decide) (by decide) (by decide) (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) :=
  W_of m dats c main_arg2 (by decide) (by decide) (by decide) (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) :=
  W_of m dats c main_arg3 (by decide) (by decide) (by decide) (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) :=
  W_of m dats c main_arg4 (by decide) (by decide) (by decide) (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) :=
  W_of m dats c main_arg5 (by decide) (by decide) (by decide) (by decide) (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) :=
  W_of m dats c main_arg6 (by decide) (by decide) (by decide) (by decide) (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) :=
  W_of m dats c main_arg7 (by decide) (by decide) (by decide) (by decide) (by decide)
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) :=
  W_of m dats c main_arg8 (by decide) (by decide) (by decide) (by decide) (by decide)
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) :=
  W_of m dats c main_arg9 (by decide) (by decide) (by decide) (by decide) (by decide)
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) :=
  W_of m dats c main_arg10 (by decide) (by decide) (by decide) (by decide) (by decide)
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) :=
  W_of m dats c main_arg11 (by decide) (by decide) (by decide) (by decide) (by decide)
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg12 = m ((c : Thread nD τ).loc main_arg12) :=
  W_of m dats c main_arg12 (by decide) (by decide) (by decide) (by decide) (by decide)

end Cert.KernelIdeal.Hand

end
-- ==== Proof.FrameKIBody.lean ====
import proofs.«131631_j10934986735710_1_alg».proof.Proof.Gen.KernelIdeal.Launch
import proofs.«131631_j10934986735710_1_alg».proof.Proof.Gen.KernelIdeal.Skeleton
import proofs.«131631_j10934986735710_1_alg».proof.Proof.Gen.KernelIdeal.Points
import proofs.«131631_j10934986735710_1_alg».proof.Proof.FrameKIData
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's staging buffer holds its block -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Loads of a whole buffer -/

/-- A load through the rectangle that is all of a 3×32000 buffer reads the buffer's contents. -/
theorem readAt_all3 {sg : RefSig} {κ : Kind} {sp : Space} (v : View sg κ sp S3x32000 .f32) (f : v.ty.Contents (Elt F)) :
    v.readAt (Elt F) all3.toLoadRect f = v.read (Elt F) f :=
  View.ld_unit_zero (by funext a; fin_cases a <;> rfl) inb_S3x32000_S3x32000_0_0 (v.read (Elt F) f)

/-- The same for a 1×32000 buffer. -/
theorem readAt_all1 {sg : RefSig} {κ : Kind} {sp : Space} (v : View sg κ sp S1x32000 .f32) (f : v.ty.Contents (Elt F)) :
    v.readAt (Elt F) all1.toLoadRect f = v.read (Elt F) f :=
  View.ld_unit_zero (by funext a; fin_cases a <;> rfl) inb_S1x32000_S1x32000_0_0 (v.read (Elt F) f)

/-! ## The stores cover the output buffers -/

/-- The one store into output window 8's buffer covers it. -/
theorem cover0_8 (p0 : Vec F S1x32000 .f32) (y : S1x32000.Idx) :
    ∃ pc ∈ ([⟨all1, p0⟩] : List (View.Piece (Elt F) S1x32000 .f32)), y ∈ pc.1.set :=
  View.cover_of_tiled [⟨all1, p0⟩] S1x32000.size (by rfl) y

/-- The three row stores into output window 9's buffer tile it. -/
theorem cover0_9 (p0 p1 p2 : Vec F S1x32000 .f32) (y : S3x32000.Idx) :
    ∃ pc ∈ ([⟨row2, p2⟩, ⟨row1, p1⟩, ⟨row0, p0⟩] : List (View.Piece (Elt F) S3x32000 .f32)), y ∈ pc.1.set :=
  View.cover_of_tiled [⟨row2, p2⟩, ⟨row1, p1⟩, ⟨row0, p0⟩] S1x32000.size (by rfl) y

/-! ## The body's triple -/

set_option maxHeartbeats 4000000 in
/-- The body on whole staging memrefs, the eight inputs' at contents `x0 … x7` and the two outputs' at anything, runs
    to the continuation with the inputs' as they were, output 8's at `out0_8` and output 9's at `out0_9` of them. -/
theorem sound_kernel (c : Dev nD) (E : Set ℕ) (i : grid0.Coords) (arg1 : Memref sig .tc .vmem S3x32000 .f32) (harg1 : arg1.IsWhole) (arg2 : Memref sig .tc .vmem S3x32000 .f32) (harg2 : arg2.IsWhole) (arg3 : Memref sig .tc .vmem S1x32000 .f32) (harg3 : arg3.IsWhole) (arg4 : Memref sig .tc .vmem S1x32000 .f32) (harg4 : arg4.IsWhole) (arg5 : Memref sig .tc .vmem S3x32000 .f32) (harg5 : arg5.IsWhole) (arg6 : Memref sig .tc .vmem S3x32000 .f32) (harg6 : arg6.IsWhole) (arg7 : Memref sig .tc .vmem S1x32000 .f32) (harg7 : arg7.IsWhole) (arg8 : Memref sig .tc .vmem S1x32000 .f32) (harg8 : arg8.IsWhole) (arg9 : Memref sig .tc .vmem S1x32000 .f32) (harg9 : arg9.IsWhole) (arg10 : Memref sig .tc .vmem S3x32000 .f32) (harg10 : arg10.IsWhole)
    (x0 x1 : Vec F S3x32000 .f32) (x2 x3 : Vec F S1x32000 .f32) (x4 x5 : Vec F S3x32000 .f32) (x6 x7 : Vec F S1x32000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5) ∗ owns (c : Thread nD τ) arg10 fullShare (out0_9 x0 x1 x2 x3 x4 x5 x6 x7)) -∗ K ⟨⟩))
      ⊢ wp frame (wpE (defs₀ (F := F)) Variants.none c none) E (cc0__edge_flux_kernel i arg1 harg1 arg2 harg2 arg3 harg3 arg4 harg4 arg5 harg5 arg6 harg6 arg7 harg7 arg8 harg8 arg9 harg9 arg10 harg10) K := by
  simp only [cc0__edge_flux_kernel_eq_skeleton]; unfold cc0__edge_flux_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover0_8 _)]
    simp only []
    rw [readAt_all3 arg1.view f0, readAt_all3 arg2.view f1, readAt_all1 arg3.view f2, readAt_all1 arg4.view f3, readAt_all3 arg5.view f4, readAt_all3 arg6.view f5]
    unfold out0_8 fluxMass
    rfl
  iexists _; isplitr
  swap; · iexact H9
  ipureintro
  rw [View.read_writes_eq_canon _ _ _ (cover0_9 _ _ _)]
  simp only []
  rw [readAt_all3 arg1.view f0, readAt_all3 arg2.view f1, readAt_all1 arg3.view f2, readAt_all1 arg4.view f3, readAt_all3 arg5.view f4, readAt_all3 arg6.view f5, readAt_all1 arg7.view f6, readAt_all1 arg8.view f7]
  unfold out0_9 fluxRow0 fluxRow1 fluxRow2
  rfl

/-! ## The proof data's staging buffers before the body -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation at a generic point -/

/-- What the body is called with at point `t`: the invariant, the core's dues, and each window's current staging
    memref at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns: the same with each memref at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' memrefs hold their blocks, so the body's triple applies; the invariant and the
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.lean ====
import proofs.«131631_j10934986735710_1_alg».proof.Proof.Gen.KernelIdeal.Launch
import proofs.«131631_j10934986735710_1_alg».proof.Proof.Gen.KernelIdeal.Skeleton
import proofs.«131631_j10934986735710_1_alg».proof.Proof.Gen.KernelIdeal.Points
import proofs.«131631_j10934986735710_1_alg».proof.Proof.FrameKIData
import proofs.«131631_j10934986735710_1_alg».proof.Proof.FrameKIHost
import proofs.«131631_j10934986735710_1_alg».proof.Proof.FrameKIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters, for any values, every weakly fair execution of the program on the TensorCores
    terminates, and in every final state each array of the pipeline is what the pipeline library computes from the
    proof data, and every other unscoped buffer is as the later stretches leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim's post from a frame run: each argument is an unscoped buffer that no window stages, so the run's
    post gives it as the later stretches leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-- The frame: the program runs to the end and leaves its thirteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.KernelIdeal.Hand

end
-- ==== Proof.EdgeSpec.lean ====
/-
  The per-edge quantities of the flux computation, as functions of the node tables and the edge list, on the
  extended reals.

  An edge `e` has a source and a destination node number, words of the edge list's rows 0 and 1. A node number
  denotes a row of a node table as an index into it does: a negative number counts from the end (`wrap`), and the
  result, read signed, is clamped into the table (`node`). With `s`, `d` the two rows of edge `e`:

    ev_k   = pos[d,k] − pos[s,k]                      (the edge vector, k = 0, 1, 2)
    len    = √((ev_0² + ev_1²) + ev_2²) + ε           (its length, kept away from zero by ε)
    eu_k   = ev_k / len,   area = len · len
    uf_k   = (U[s,k] + U[d,k]) · ½                    (the face velocity)
    un     = (uf_0·eu_0 + uf_1·eu_1) + uf_2·eu_2       (its normal component)
    rf     = ((2·ρ[s])·ρ[d]) / ((ρ[s] + ρ[d]) + ε)     (the harmonic face density)
    FM     = (rf · un) · area                          (the mass flux through the face)
    pf     = (p[s] + p[d]) · ½
    TF_k   = ((rf · uf_k) · un) + pf · eu_k            (the momentum flux, component k)

  Every sum and product is written with the grouping above; both programs compute these same expressions, one from
  the columns of the transposed tables and one from their rows, and each is proved equal to these.
-/
import Idealize.ShloMosaic.PureOps.Ideal
import Idealize.ShloMosaic.Lib.ValueIdx

noncomputable section

namespace Cert.EdgeSpec

open Idealize.ShloMosaic Idealize.ShloMosaic.ValueIdx

/-- A node number as an index from the front: a negative one counts from the end of the 100000 rows. -/
def wrap (v : BitVec 32) : BitVec 32 := Scalar.select (IntOp.cmpi .slt v 0#32) (IntOp.addi v 100000#32) v

/-- The table row a node number denotes: wrapped, read signed, clamped into `[0, 99999]`. -/
def node (v : BitVec 32) : Fin 100000 := ⟨min (wrap v).toInt.toNat 99999, Nat.lt_succ_of_le (Nat.min_le_right _ _)⟩

/-- ε, ½ and 2 as the programs spell them. -/
abbrev eps : EReal := Ideal.ofBits .f32 0x322BCC77#32
abbrev half : EReal := Ideal.ofBits .f32 0x3F000000#32
abbrev two : EReal := Ideal.ofBits .f32 0x40000000#32

section
variable (p : FVec Ideal ⟨1, ![100000]⟩ .f32) (U : FVec Ideal ⟨2, ![100000, 3]⟩ .f32) (rho : FVec Ideal ⟨1, ![100000]⟩ .f32)
  (pos : FVec Ideal ⟨2, ![100000, 3]⟩ .f32) (ei : IVec ⟨2, ![2, 3200000]⟩ 32)

/-- The source and destination rows of edge `e`. -/
def src (e : Fin 3200000) : Fin 100000 := node (ei (ix2 (0 : Fin 2) e))
def dst (e : Fin 3200000) : Fin 100000 := node (ei (ix2 (1 : Fin 2) e))

def ev (e : Fin 3200000) (k : Fin 3) : EReal := pos (ix2 (dst ei e) k) - pos (ix2 (src ei e) k)
def len (e : Fin 3200000) : EReal :=
  Ideal.sqrt ((ev pos ei e 0 * ev pos ei e 0 + ev pos ei e 1 * ev pos ei e 1) + ev pos ei e 2 * ev pos ei e 2) + eps
def eu (e : Fin 3200000) (k : Fin 3) : EReal := Ideal.div (ev pos ei e k) (len pos ei e)
def area (e : Fin 3200000) : EReal := len pos ei e * len pos ei e
def uf (e : Fin 3200000) (k : Fin 3) : EReal := (U (ix2 (src ei e) k) + U (ix2 (dst ei e) k)) * half
def un (e : Fin 3200000) : EReal :=
  (uf U ei e 0 * eu pos ei e 0 + uf U ei e 1 * eu pos ei e 1) + uf U ei e 2 * eu pos ei e 2
def rf (e : Fin 3200000) : EReal :=
  Ideal.div ((two * rho (ix1 (src ei e))) * rho (ix1 (dst ei e))) ((rho (ix1 (src ei e)) + rho (ix1 (dst ei e))) + eps)
def pf (e : Fin 3200000) : EReal := (p (ix1 (src ei e)) + p (ix1 (dst ei e))) * half

/-- The mass flux of edge `e`. -/
def FM (e : Fin 3200000) : EReal := (rf rho ei e * un U pos ei e) * area pos ei e
/-- Component `k` of the momentum flux of edge `e`. -/
def TF (e : Fin 3200000) (k : Fin 3) : EReal := (rf rho ei e * uf U ei e k) * un U pos ei e + pf p ei e * eu pos ei e k

end

end Cert.EdgeSpec

end
-- ==== Proof.EdgeForm.lean ====
/-
  The per-edge flux formulas as functions of the values an edge gathers: the two end points' positions `ps`, `pd`
  and velocities `us`, `ud` (three components each), densities `rs`, `rd` and pressures `qs`, `qd`. They are the
  formulas of the specification with the gathered values abstracted: the specification is these at the node tables'
  rows, and a block of the kernel computes these at its columns.
-/
import proofs.«131631_j10934986735710_1_alg».proof.Proof.EdgeSpec

noncomputable section

namespace Cert.EdgeForm

open Idealize.ShloMosaic Idealize.ShloMosaic.ValueIdx Cert.EdgeSpec

section
variable (ps pd : Fin 3 → EReal) (rs rd : EReal) (us ud : Fin 3 → EReal) (qs qd : EReal)

/-- The edge vector's component `k`. -/
def evv (k : Fin 3) : EReal := pd k - ps k
/-- Its length plus ε. -/
def lenv : EReal := Ideal.sqrt ((evv ps pd 0 * evv ps pd 0 + evv ps pd 1 * evv ps pd 1) + evv ps pd 2 * evv ps pd 2) + eps
/-- The unit edge vector's component `k`. -/
def euv (k : Fin 3) : EReal := Ideal.div (evv ps pd k) (lenv ps pd)
/-- The face velocity's component `k`. -/
def ufv (k : Fin 3) : EReal := (us k + ud k) * half
/-- Its normal component. -/
def unv : EReal := (ufv us ud 0 * euv ps pd 0 + ufv us ud 1 * euv ps pd 1) + ufv us ud 2 * euv ps pd 2
/-- The harmonic face density. -/
def rfv : EReal := Ideal.div ((two * rs) * rd) ((rs + rd) + eps)
/-- The face pressure. -/
def pfv : EReal := (qs + qd) * half
/-- The mass flux. -/
def fmOf : EReal := (rfv rs rd * unv ps pd us ud) * (lenv ps pd * lenv ps pd)
/-- The momentum flux's component `k`. -/
def tfOf (k : Fin 3) : EReal := (rfv rs rd * ufv us ud k) * unv ps pd us ud + pfv qs qd * euv ps pd k

end

section
variable (p : FVec Ideal ⟨1, ![100000]⟩ .f32) (U : FVec Ideal ⟨2, ![100000, 3]⟩ .f32) (rho : FVec Ideal ⟨1, ![100000]⟩ .f32)
  (pos : FVec Ideal ⟨2, ![100000, 3]⟩ .f32) (ei : IVec ⟨2, ![2, 3200000]⟩ 32)

/-- The specification's mass flux is the formula at the tables' rows. -/
theorem FM_eq (e : Fin 3200000) :
    FM U rho pos ei e = fmOf (fun k => pos (ix2 (src ei e) k)) (fun k => pos (ix2 (dst ei e) k))
      (rho (ix1 (src ei e))) (rho (ix1 (dst ei e))) (fun k => U (ix2 (src ei e) k)) (fun k => U (ix2 (dst ei e) k)) := rfl

/-- The specification's momentum flux is the formula at the tables' rows. -/
theorem TF_eq (e : Fin 3200000) (k : Fin 3) :
    TF p U rho pos ei e k = tfOf (fun k => pos (ix2 (src ei e) k)) (fun k => pos (ix2 (dst ei e) k))
      (rho (ix1 (src ei e))) (rho (ix1 (dst ei e))) (fun k => U (ix2 (src ei e) k)) (fun k => U (ix2 (dst ei e) k))
      (p (ix1 (src ei e))) (p (ix1 (dst ei e))) k := rfl

end

end Cert.EdgeForm

end
-- ==== Proof.KerPayload.lean ====
/-
  One column of a block of the kernel body, at the extended reals: the value the body stores at column `j` of the
  mass-flux block, and at column `j` of each of the three rows of the momentum-flux block, is the per-edge formula
  (`EdgeForm.fmOf`, `EdgeForm.tfOf`) of the values the eight input blocks hold in column `j`: the positions' and
  velocities' blocks give their three rows, the densities' and pressures' their one row. Every operation of the
  body is pointwise but the cuts of a three-row block into its rows and the casts of a block to its own shape.
-/
import proofs.«131631_j10934986735710_1_alg».proof.Proof.Gen.KernelIdeal.Skeleton
import proofs.«131631_j10934986735710_1_alg».proof.Proof.EdgeForm
import Idealize.ShloMosaic.Lib.ValueIdx
import Idealize.ShloMosaic.Lib.Pipeline.Value

noncomputable section

namespace Cert.KerPayload

open Idealize.ShloMosaic Idealize.ShloMosaic.ValueIdx Cert.KernelIdeal Cert.KernelIdeal.Gen Cert.EdgeSpec Cert.EdgeForm

/-- Row 0 of a three-row block, cut out as a one-row block, read at column `j`. -/
theorem row0_apply (x : FVec Ideal S3x32000 .f32) (h : S3x32000.Slices ![0, 0] S1x32000) (j : Fin 32000) :
    extractStridedSlice S1x32000 ![0, 0] x h (ix2 (0 : Fin 1) j) = x (ix2 (0 : Fin 3) j) :=
  extractStridedSlice_apply ![0, 0] x h _ _ (fun a => match a with
    | ⟨0, _⟩ => rfl
    | ⟨1, _⟩ => by show j.val = 0 + j.val; omega)

/-- Row 1 likewise. -/
theorem row1_apply (x : FVec Ideal S3x32000 .f32) (h : S3x32000.Slices ![1, 0] S1x32000) (j : Fin 32000) :
    extractStridedSlice S1x32000 ![1, 0] x h (ix2 (0 : Fin 1) j) = x (ix2 (1 : Fin 3) j) :=
  extractStridedSlice_apply ![1, 0] x h _ _ (fun a => match a with
    | ⟨0, _⟩ => rfl
    | ⟨1, _⟩ => by show j.val = 0 + j.val; omega)

/-- Row 2 likewise. -/
theorem row2_apply (x : FVec Ideal S3x32000 .f32) (h : S3x32000.Slices ![2, 0] S1x32000) (j : Fin 32000) :
    extractStridedSlice S1x32000 ![2, 0] x h (ix2 (0 : Fin 1) j) = x (ix2 (2 : Fin 3) j) :=
  extractStridedSlice_apply ![2, 0] x h _ _ (fun a => match a with
    | ⟨0, _⟩ => rfl
    | ⟨1, _⟩ => by show j.val = 0 + j.val; omega)

/-- A square root of a block, read at an index, is the square root of the entry. -/
theorem sqrt_at {s : Shape} {φ : FTy} (a : FVec Ideal s φ) (i : s.Idx) : sqrt a i = Ideal.sqrt (a i) := rfl

section
variable (x0 x1 : Vec Ideal S3x32000 .f32) (x2 x3 : Vec Ideal S1x32000 .f32) (x4 x5 : Vec Ideal S3x32000 .f32)
  (x6 x7 : Vec Ideal S1x32000 .f32) (j : Fin 32000)

/-- The edge vector's components, the length, the unit vector, the face velocity, the normal velocity, the face
    density and the face pressure of column `j`, as the body's intermediate values hold them. -/
theorem ev0_apply : k0_pay9 x0 x1 (ix2 (0 : Fin 1) j) = evv (fun k => x0 (ix2 k j)) (fun k => x1 (ix2 k j)) 0 := by
  unfold k0_pay9 k0_pay1 k0_pay2 evv
  simp only [shapeCast_self, subf_apply, row0_apply]
theorem ev1_apply : k0_pay10 x0 x1 (ix2 (0 : Fin 1) j) = evv (fun k => x0 (ix2 k j)) (fun k => x1 (ix2 k j)) 1 := by
  unfold k0_pay10 k0_pay1 k0_pay2 evv
  simp only [shapeCast_self, subf_apply, row1_apply]
theorem ev2_apply : k0_pay11 x0 x1 (ix2 (0 : Fin 1) j) = evv (fun k => x0 (ix2 k j)) (fun k => x1 (ix2 k j)) 2 := by
  unfold k0_pay11 k0_pay1 k0_pay2 evv
  simp only [shapeCast_self, subf_apply, row2_apply]

theorem len_apply : k0_pay12 x0 x1 (ix2 (0 : Fin 1) j) = lenv (fun k => x0 (ix2 k j)) (fun k => x1 (ix2 k j)) := by
  unfold k0_pay12 lenv
  simp only [addf_apply, mulf_apply, sqrt_at, broadcast_apply, ev0_apply, ev1_apply, ev2_apply]
  rfl

theorem eu0_apply : k0_pay13 x0 x1 (ix2 (0 : Fin 1) j) = euv (fun k => x0 (ix2 k j)) (fun k => x1 (ix2 k j)) 0 := by
  unfold k0_pay13 euv
  simp only [divf_apply, ev0_apply, len_apply]
theorem eu1_apply : k0_pay14 x0 x1 (ix2 (0 : Fin 1) j) = euv (fun k => x0 (ix2 k j)) (fun k => x1 (ix2 k j)) 1 := by
  unfold k0_pay14 euv
  simp only [divf_apply, ev1_apply, len_apply]
theorem eu2_apply : k0_pay15 x0 x1 (ix2 (0 : Fin 1) j) = euv (fun k => x0 (ix2 k j)) (fun k => x1 (ix2 k j)) 2 := by
  unfold k0_pay15 euv
  simp only [divf_apply, ev2_apply, len_apply]

theorem area_apply : k0_pay16 x0 x1 (ix2 (0 : Fin 1) j)
    = lenv (fun k => x0 (ix2 k j)) (fun k => x1 (ix2 k j)) * lenv (fun k => x0 (ix2 k j)) (fun k => x1 (ix2 k j)) := by
  unfold k0_pay16
  simp only [mulf_apply, len_apply]

theorem uf0_apply : k0_pay22 (k0_pay17 x4) (k0_pay20 x5) (ix2 (0 : Fin 1) j) = ufv (fun k => x4 (ix2 k j)) (fun k => x5 (ix2 k j)) 0 := by
  unfold k0_pay22 k0_pay17 k0_pay20 k0_pay3 k0_pay4 ufv
  simp only [shapeCast_self, addf_apply, mulf_apply, row0_apply]
  rfl
theorem uf1_apply : k0_pay23 (k0_pay18 x4) (k0_pay21 x5) (ix2 (0 : Fin 1) j) = ufv (fun k => x4 (ix2 k j)) (fun k => x5 (ix2 k j)) 1 := by
  unfold k0_pay23 k0_pay18 k0_pay21 k0_pay3 k0_pay4 ufv
  simp only [shapeCast_self, addf_apply, mulf_apply, row1_apply]
  rfl
theorem uf2_apply : k0_pay24 (k0_pay4 x5) (k0_pay19 x4) (ix2 (0 : Fin 1) j) = ufv (fun k => x4 (ix2 k j)) (fun k => x5 (ix2 k j)) 2 := by
  unfold k0_pay24 k0_pay19 k0_pay3 k0_pay4 ufv
  simp only [shapeCast_self, addf_apply, mulf_apply, row2_apply]
  rfl

theorem un_apply :
    k0_pay25 (k0_pay4 x5) (k0_pay13 x0 x1) (k0_pay14 x0 x1) (k0_pay15 x0 x1) (k0_pay17 x4) (k0_pay18 x4) (k0_pay19 x4) (k0_pay20 x5) (k0_pay21 x5) (ix2 (0 : Fin 1) j)
      = unv (fun k => x0 (ix2 k j)) (fun k => x1 (ix2 k j)) (fun k => x4 (ix2 k j)) (fun k => x5 (ix2 k j)) := by
  unfold k0_pay25 unv
  simp only [addf_apply, mulf_apply, uf0_apply, uf1_apply, uf2_apply, eu0_apply, eu1_apply, eu2_apply]

theorem rf_apply : k0_pay26 (k0_pay5 x2) (k0_pay6 x3) (ix2 (0 : Fin 1) j) = rfv (x2 (ix2 0 j)) (x3 (ix2 0 j)) := by
  unfold k0_pay26 k0_pay5 k0_pay6 rfv
  simp only [shapeCast_self, divf_apply, addf_apply, mulf_apply]
  rfl

theorem pf_apply : k0_pay28 (k0_pay7 x6) (k0_pay8 x7) (ix2 (0 : Fin 1) j) = pfv (x6 (ix2 0 j)) (x7 (ix2 0 j)) := by
  unfold k0_pay28 k0_pay7 k0_pay8 pfv
  simp only [shapeCast_self, addf_apply, mulf_apply]
  rfl

/-- THE MASS FLUX of column `j`. -/
theorem fm_apply :
    k0_pay27 (k0_pay4 x5) (k0_pay5 x2) (k0_pay6 x3) (k0_pay13 x0 x1) (k0_pay14 x0 x1) (k0_pay15 x0 x1) (k0_pay16 x0 x1)
        (k0_pay17 x4) (k0_pay18 x4) (k0_pay19 x4) (k0_pay20 x5) (k0_pay21 x5) (ix2 (0 : Fin 1) j)
      = fmOf (fun k => x0 (ix2 k j)) (fun k => x1 (ix2 k j)) (x2 (ix2 0 j)) (x3 (ix2 0 j)) (fun k => x4 (ix2 k j)) (fun k => x5 (ix2 k j)) := by
  unfold k0_pay27 fmOf
  simp only [mulf_apply, rf_apply, un_apply, area_apply]

/-- THE MOMENTUM FLUX of column `j`, components 0, 1, 2 (the three rows the body stores). -/
theorem tf0_apply :
    k0_pay29 (k0_pay4 x5) (k0_pay5 x2) (k0_pay6 x3) (k0_pay7 x6) (k0_pay8 x7) (k0_pay13 x0 x1) (k0_pay14 x0 x1) (k0_pay15 x0 x1)
        (k0_pay17 x4) (k0_pay18 x4) (k0_pay19 x4) (k0_pay20 x5) (k0_pay21 x5) (ix2 (0 : Fin 1) j)
      = tfOf (fun k => x0 (ix2 k j)) (fun k => x1 (ix2 k j)) (x2 (ix2 0 j)) (x3 (ix2 0 j)) (fun k => x4 (ix2 k j)) (fun k => x5 (ix2 k j))
          (x6 (ix2 0 j)) (x7 (ix2 0 j)) 0 := by
  unfold k0_pay29 tfOf
  simp only [addf_apply, mulf_apply, rf_apply, un_apply, uf0_apply, pf_apply, eu0_apply]
theorem tf1_apply :
    k0_pay30 (k0_pay4 x5) (k0_pay5 x2) (k0_pay6 x3) (k0_pay7 x6) (k0_pay8 x7) (k0_pay13 x0 x1) (k0_pay14 x0 x1) (k0_pay15 x0 x1)
        (k0_pay17 x4) (k0_pay18 x4) (k0_pay19 x4) (k0_pay20 x5) (k0_pay21 x5) (ix2 (0 : Fin 1) j)
      = tfOf (fun k => x0 (ix2 k j)) (fun k => x1 (ix2 k j)) (x2 (ix2 0 j)) (x3 (ix2 0 j)) (fun k => x4 (ix2 k j)) (fun k => x5 (ix2 k j))
          (x6 (ix2 0 j)) (x7 (ix2 0 j)) 1 := by
  unfold k0_pay30 tfOf
  simp only [addf_apply, mulf_apply, rf_apply, un_apply, uf1_apply, pf_apply, eu1_apply]
theorem tf2_apply :
    k0_pay31 (k0_pay4 x5) (k0_pay5 x2) (k0_pay6 x3) (k0_pay7 x6) (k0_pay8 x7) (k0_pay13 x0 x1) (k0_pay14 x0 x1) (k0_pay15 x0 x1)
        (k0_pay17 x4) (k0_pay18 x4) (k0_pay19 x4) (k0_pay20 x5) (k0_pay21 x5) (ix2 (0 : Fin 1) j)
      = tfOf (fun k => x0 (ix2 k j)) (fun k => x1 (ix2 k j)) (x2 (ix2 0 j)) (x3 (ix2 0 j)) (fun k => x4 (ix2 k j)) (fun k => x5 (ix2 k j))
          (x6 (ix2 0 j)) (x7 (ix2 0 j)) 2 := by
  unfold k0_pay31 tfOf
  simp only [addf_apply, mulf_apply, rf_apply, un_apply, uf2_apply, pf_apply, eu2_apply]

end

end Cert.KerPayload

end
-- ==== Proof.KerArrays.lean ====
/-
  The two arrays the pipeline writes, whole, at the extended reals. Every window's block at grid point `t` is columns
  `t·32000 … t·32000 + 31999` of its array (all rows), so point `t` writes back, for each of its 32000 columns, the
  per-edge formula of that column of the eight gathered arrays; the hundred points' blocks tile the 3200000 columns.
  Hence the mass-flux array `[1, 3200000]` holds at `(0, e)` the mass flux formula of column `e` of the gathered arrays
  (`final8`), and the momentum-flux array `[3, 3200000]` holds at `(k, e)` component `k` of the momentum flux formula
  (`final9`).
-/
import proofs.«131631_j10934986735710_1_alg».proof.Proof.FrameKIData
import proofs.«131631_j10934986735710_1_alg».proof.Proof.KerPayload
import Idealize.ShloMosaic.Lib.Pipeline.Value
import Idealize.ShloMosaic.Lib.ValueIdx
import Idealize.ShloMosaic.Lib.Writes

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx Cert.EdgeForm
open Idealize.ShloMosaic.Pipeline (Dat)

/-! ## Where a block sits -/

/-- The grid has a hundred points. -/
theorem tN (t : Fin cfg0.N) : t.val < 100 := Nat.lt_of_lt_of_eq t.isLt N_0

/-- Column `j` of the block at point `t` is column `t·32000 + j` of the array. -/
abbrev col (t : Fin cfg0.N) (j : Fin 32000) : Fin 3200000 :=
  ⟨t.val * 32000 + j.val, by have := tN t; have := j.isLt; omega⟩

/-- Every window's block index at point `t` is `(0, t)` (decided over the hundred points). -/
theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)

/-- So the block's index `(k, j)` is the array's index `(k, t·32000 + j)`. -/
theorem emb0 (t : Fin cfg0.N) (k : Fin 3) (j : Fin 32000) :
    ((cfg0.win 0).blk t).view.emb (ix2 k j) = ix2 k (col t j) := by
  obtain ⟨e0, e1⟩ := idx0 t
  funext a; apply Fin.ext
  match a with
  | ⟨0, _⟩ => show win0_0.index t (0 : Fin 2) * 3 + 1 * k.val = k.val; omega
  | ⟨1, _⟩ => show win0_0.index t (1 : Fin 2) * 32000 + 1 * j.val = t.val * 32000 + j.val; omega
theorem emb1 (t : Fin cfg0.N) (k : Fin 3) (j : Fin 32000) :
    ((cfg0.win 1).blk t).view.emb (ix2 k j) = ix2 k (col t j) := by
  obtain ⟨e0, e1⟩ := idx1 t
  funext a; apply Fin.ext
  match a with
  | ⟨0, _⟩ => show win0_1.index t (0 : Fin 2) * 3 + 1 * k.val = k.val; omega
  | ⟨1, _⟩ => show win0_1.index t (1 : Fin 2) * 32000 + 1 * j.val = t.val * 32000 + j.val; omega
theorem emb4 (t : Fin cfg0.N) (k : Fin 3) (j : Fin 32000) :
    ((cfg0.win 4).blk t).view.emb (ix2 k j) = ix2 k (col t j) := by
  obtain ⟨e0, e1⟩ := idx4 t
  funext a; apply Fin.ext
  match a with
  | ⟨0, _⟩ => show win0_4.index t (0 : Fin 2) * 3 + 1 * k.val = k.val; omega
  | ⟨1, _⟩ => show win0_4.index t (1 : Fin 2) * 32000 + 1 * j.val = t.val * 32000 + j.val; omega
theorem emb5 (t : Fin cfg0.N) (k : Fin 3) (j : Fin 32000) :
    ((cfg0.win 5).blk t).view.emb (ix2 k j) = ix2 k (col t j) := by
  obtain ⟨e0, e1⟩ := idx5 t
  funext a; apply Fin.ext
  match a with
  | ⟨0, _⟩ => show win0_5.index t (0 : Fin 2) * 3 + 1 * k.val = k.val; omega
  | ⟨1, _⟩ => show win0_5.index t (1 : Fin 2) * 32000 + 1 * j.val = t.val * 32000 + j.val; omega
theorem emb9 (t : Fin cfg0.N) (k : Fin 3) (j : Fin 32000) :
    ((cfg0.win 9).blk t).view.emb (ix2 k j) = ix2 k (col t j) := by
  obtain ⟨e0, e1⟩ := idx9 t
  funext a; apply Fin.ext
  match a with
  | ⟨0, _⟩ => show win0_9.index t (0 : Fin 2) * 3 + 1 * k.val = k.val; omega
  | ⟨1, _⟩ => show win0_9.index t (1 : Fin 2) * 32000 + 1 * j.val = t.val * 32000 + j.val; omega
theorem emb2 (t : Fin cfg0.N) (j : Fin 32000) :
    ((cfg0.win 2).blk t).view.emb (ix2 (0 : Fin 1) j) = ix2 (0 : Fin 1) (col t j) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 32000 + 1 * j.val = t.val * 32000 + j.val; omega
theorem emb3 (t : Fin cfg0.N) (j : Fin 32000) :
    ((cfg0.win 3).blk t).view.emb (ix2 (0 : Fin 1) j) = ix2 (0 : Fin 1) (col t j) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 32000 + 1 * j.val = t.val * 32000 + j.val; omega
theorem emb6 (t : Fin cfg0.N) (j : Fin 32000) :
    ((cfg0.win 6).blk t).view.emb (ix2 (0 : Fin 1) j) = ix2 (0 : Fin 1) (col t j) := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 32000 + 1 * j.val = t.val * 32000 + j.val; omega
theorem emb7 (t : Fin cfg0.N) (j : Fin 32000) :
    ((cfg0.win 7).blk t).view.emb (ix2 (0 : Fin 1) j) = ix2 (0 : Fin 1) (col t j) := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 32000 + 1 * j.val = t.val * 32000 + j.val; omega
theorem emb8 (t : Fin cfg0.N) (j : Fin 32000) :
    ((cfg0.win 8).blk t).view.emb (ix2 (0 : Fin 1) j) = ix2 (0 : Fin 1) (col t j) := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 32000 + 1 * j.val = t.val * 32000 + j.val; omega

variable (m : (ℓ : Loc nD τ sig) → Buf (Elt Ideal) ℓ)

/-- An input block read at `(k, j)` is its array, as the pipeline finds it, at `(k, t·32000 + j)`. -/
theorem iblk0_apply (c : Dev nD) (t : Fin cfg0.N) (k : Fin 3) (j : Fin 32000) :
    iblk m c 0 t (ix2 k j) = V m c (Pipeline.arrRef spec0 0) (ix2 k (col t j)) := by
  show V m c (Pipeline.arrRef spec0 0) (((cfg0.win 0).blk t).view.emb (ix2 k j)) = _
  rw [emb0]
theorem iblk1_apply (c : Dev nD) (t : Fin cfg0.N) (k : Fin 3) (j : Fin 32000) :
    iblk m c 1 t (ix2 k j) = V m c (Pipeline.arrRef spec0 1) (ix2 k (col t j)) := by
  show V m c (Pipeline.arrRef spec0 1) (((cfg0.win 1).blk t).view.emb (ix2 k j)) = _
  rw [emb1]
theorem iblk4_apply (c : Dev nD) (t : Fin cfg0.N) (k : Fin 3) (j : Fin 32000) :
    iblk m c 4 t (ix2 k j) = V m c (Pipeline.arrRef spec0 4) (ix2 k (col t j)) := by
  show V m c (Pipeline.arrRef spec0 4) (((cfg0.win 4).blk t).view.emb (ix2 k j)) = _
  rw [emb4]
theorem iblk5_apply (c : Dev nD) (t : Fin cfg0.N) (k : Fin 3) (j : Fin 32000) :
    iblk m c 5 t (ix2 k j) = V m c (Pipeline.arrRef spec0 5) (ix2 k (col t j)) := by
  show V m c (Pipeline.arrRef spec0 5) (((cfg0.win 5).blk t).view.emb (ix2 k j)) = _
  rw [emb5]
theorem iblk2_apply (c : Dev nD) (t : Fin cfg0.N) (j : Fin 32000) :
    iblk m c 2 t (ix2 (0 : Fin 1) j) = V m c (Pipeline.arrRef spec0 2) (ix2 (0 : Fin 1) (col t j)) := by
  show V m c (Pipeline.arrRef spec0 2) (((cfg0.win 2).blk t).view.emb (ix2 (0 : Fin 1) j)) = _
  rw [emb2]
theorem iblk3_apply (c : Dev nD) (t : Fin cfg0.N) (j : Fin 32000) :
    iblk m c 3 t (ix2 (0 : Fin 1) j) = V m c (Pipeline.arrRef spec0 3) (ix2 (0 : Fin 1) (col t j)) := by
  show V m c (Pipeline.arrRef spec0 3) (((cfg0.win 3).blk t).view.emb (ix2 (0 : Fin 1) j)) = _
  rw [emb3]
theorem iblk6_apply (c : Dev nD) (t : Fin cfg0.N) (j : Fin 32000) :
    iblk m c 6 t (ix2 (0 : Fin 1) j) = V m c (Pipeline.arrRef spec0 6) (ix2 (0 : Fin 1) (col t j)) := by
  show V m c (Pipeline.arrRef spec0 6) (((cfg0.win 6).blk t).view.emb (ix2 (0 : Fin 1) j)) = _
  rw [emb6]
theorem iblk7_apply (c : Dev nD) (t : Fin cfg0.N) (j : Fin 32000) :
    iblk m c 7 t (ix2 (0 : Fin 1) j) = V m c (Pipeline.arrRef spec0 7) (ix2 (0 : Fin 1) (col t j)) := by
  show V m c (Pipeline.arrRef spec0 7) (((cfg0.win 7).blk t).view.emb (ix2 (0 : Fin 1) j)) = _
  rw [emb7]

/-! ## The whole-array functions -/

/-- The mass flux formula of column `e` of six gathered arrays (positions and velocities `[3, E]`, densities `[1, E]`). -/
def fmAt (a0 a1 : S3x3200000.Idx → Elt Ideal .f32) (a2 a3 : S1x3200000.Idx → Elt Ideal .f32) (a4 a5 : S3x3200000.Idx → Elt Ideal .f32)
    (e : Fin 3200000) : EReal :=
  fmOf (fun k => a0 (ix2 k e)) (fun k => a1 (ix2 k e)) (a2 (ix2 (0 : Fin 1) e)) (a3 (ix2 (0 : Fin 1) e))
    (fun k => a4 (ix2 k e)) (fun k => a5 (ix2 k e))

/-- The momentum flux formula of column `e` of the eight gathered arrays, component `k`. -/
def tfAt (a0 a1 : S3x3200000.Idx → Elt Ideal .f32) (a2 a3 : S1x3200000.Idx → Elt Ideal .f32) (a4 a5 : S3x3200000.Idx → Elt Ideal .f32)
    (a6 a7 : S1x3200000.Idx → Elt Ideal .f32) (e : Fin 3200000) (k : Fin 3) : EReal :=
  tfOf (fun k => a0 (ix2 k e)) (fun k => a1 (ix2 k e)) (a2 (ix2 (0 : Fin 1) e)) (a3 (ix2 (0 : Fin 1) e))
    (fun k => a4 (ix2 k e)) (fun k => a5 (ix2 k e)) (a6 (ix2 (0 : Fin 1) e)) (a7 (ix2 (0 : Fin 1) e)) k

/-- What the mass-flux array ends holding, index by index. -/
abbrev G8 (a0 a1 : S3x3200000.Idx → Elt Ideal .f32) (a2 a3 : S1x3200000.Idx → Elt Ideal .f32) (a4 a5 : S3x3200000.Idx → Elt Ideal .f32) :
    S1x3200000.Idx → Elt Ideal .f32 :=
  fun i => fmAt a0 a1 a2 a3 a4 a5 ⟨(i 1).val, (i 1).isLt⟩

/-- What the momentum-flux array ends holding, index by index. -/
abbrev G9 (a0 a1 : S3x3200000.Idx → Elt Ideal .f32) (a2 a3 : S1x3200000.Idx → Elt Ideal .f32) (a4 a5 : S3x3200000.Idx → Elt Ideal .f32)
    (a6 a7 : S1x3200000.Idx → Elt Ideal .f32) : S3x3200000.Idx → Elt Ideal .f32 :=
  fun i => tfAt a0 a1 a2 a3 a4 a5 a6 a7 ⟨(i 1).val, (i 1).isLt⟩ ⟨(i 0).val, (i 0).isLt⟩

/-! ## The momentum-flux block, from its three stored rows -/

theorem hz : (![0, 0] : Fin 2 → Nat) = fun _ => 0 := funext fun a => by fin_cases a <;> rfl

/-- Row `r` of a three-row block: its local index `(0, j)` is the block's `(r, j)`. -/
theorem row0_emb (j : Fin 32000) : row0.emb (ix2 (0 : Fin 1) j) = ix2 (0 : Fin 3) j := by
  funext b; apply Fin.ext
  match b with
  | ⟨0, _⟩ => rfl
  | ⟨1, _⟩ => show 0 + 1 * j.val = j.val; omega
theorem row1_emb (j : Fin 32000) : row1.emb (ix2 (0 : Fin 1) j) = ix2 (1 : Fin 3) j := by
  funext b; apply Fin.ext
  match b with
  | ⟨0, _⟩ => rfl
  | ⟨1, _⟩ => show 0 + 1 * j.val = j.val; omega
theorem row2_emb (j : Fin 32000) : row2.emb (ix2 (0 : Fin 1) j) = ix2 (2 : Fin 3) j := by
  funext b; apply Fin.ext
  match b with
  | ⟨0, _⟩ => rfl
  | ⟨1, _⟩ => show 0 + 1 * j.val = j.val; omega

section
variable (x0 x1 : Vec Ideal S3x32000 .f32) (x2 x3 : Vec Ideal S1x32000 .f32) (x4 x5 : Vec Ideal S3x32000 .f32)
  (x6 x7 : Vec Ideal S1x32000 .f32)

/-- The block's contents as one function of its index: component `y 0` of the momentum flux of column `y 1`. -/
def blk9 : S3x32000.Idx → Elt Ideal .f32 := fun y =>
  tfOf (fun k => x0 (ix2 k ⟨(y 1).val, (y 1).isLt⟩)) (fun k => x1 (ix2 k ⟨(y 1).val, (y 1).isLt⟩))
    (x2 (ix2 (0 : Fin 1) ⟨(y 1).val, (y 1).isLt⟩)) (x3 (ix2 (0 : Fin 1) ⟨(y 1).val, (y 1).isLt⟩))
    (fun k => x4 (ix2 k ⟨(y 1).val, (y 1).isLt⟩)) (fun k => x5 (ix2 k ⟨(y 1).val, (y 1).isLt⟩))
    (x6 (ix2 (0 : Fin 1) ⟨(y 1).val, (y 1).isLt⟩)) (x7 (ix2 (0 : Fin 1) ⟨(y 1).val, (y 1).isLt⟩)) ⟨(y 0).val, (y 0).isLt⟩

/-- The three row stores leave that function: each stored row is it on its row, and the rows tile the block. -/
theorem out9_eq : out0_9 x0 x1 x2 x3 x4 x5 x6 x7 = blk9 x0 x1 x2 x3 x4 x5 x6 x7 := by
  funext y
  unfold out0_9
  refine View.canon_apply_of_pieces (blk9 x0 x1 x2 x3 x4 x5 x6 x7) _ ?_ y
    (View.cover_of_tiled ([⟨row2, fluxRow2 x0 x1 x2 x3 x4 x5 x6 x7⟩, ⟨row1, fluxRow1 x0 x1 x2 x3 x4 x5 x6 x7⟩,
        ⟨row0, fluxRow0 x0 x1 x2 x3 x4 x5 x6 x7⟩] : List (View.Piece (Elt Ideal) S3x32000 .f32)) S1x32000.size (by rfl) y)
  intro p hp x
  simp only [List.mem_cons, List.mem_nil_iff, or_false] at hp
  rcases hp with rfl | rfl | rfl
  · obtain ⟨a, j, rfl⟩ : ∃ (a : Fin 1) (j : Fin 32000), x = ix2 a j := ⟨x 0, x 1, eq_ix2 x⟩
    obtain rfl : a = 0 := Subsingleton.elim _ _
    show fluxRow2 x0 x1 x2 x3 x4 x5 x6 x7 (ix2 (0 : Fin 1) j) = blk9 x0 x1 x2 x3 x4 x5 x6 x7 (row2.emb (ix2 (0 : Fin 1) j))
    rw [row2_emb]
    exact KerPayload.tf2_apply x0 x1 x2 x3 x4 x5 x6 x7 j
  · obtain ⟨a, j, rfl⟩ : ∃ (a : Fin 1) (j : Fin 32000), x = ix2 a j := ⟨x 0, x 1, eq_ix2 x⟩
    obtain rfl : a = 0 := Subsingleton.elim _ _
    show fluxRow1 x0 x1 x2 x3 x4 x5 x6 x7 (ix2 (0 : Fin 1) j) = blk9 x0 x1 x2 x3 x4 x5 x6 x7 (row1.emb (ix2 (0 : Fin 1) j))
    rw [row1_emb]
    exact KerPayload.tf1_apply x0 x1 x2 x3 x4 x5 x6 x7 j
  · obtain ⟨a, j, rfl⟩ : ∃ (a : Fin 1) (j : Fin 32000), x = ix2 a j := ⟨x 0, x 1, eq_ix2 x⟩
    obtain rfl : a = 0 := Subsingleton.elim _ _
    show fluxRow0 x0 x1 x2 x3 x4 x5 x6 x7 (ix2 (0 : Fin 1) j) = blk9 x0 x1 x2 x3 x4 x5 x6 x7 (row0.emb (ix2 (0 : Fin 1) j))
    rw [row0_emb]
    exact KerPayload.tf0_apply x0 x1 x2 x3 x4 x5 x6 x7 j

end

/-! ## What each point writes back -/

/-- Point `t` writes back block `t` of `G8` of the gathered arrays. -/
theorem flushed8_eq (c : Dev nD) (t : Fin cfg0.N) :
    (dats m 0 c).flushed 8 t = ((cfg0.win 8).blk t).view.read (Elt Ideal)
      (G8 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  show (cfg0.win 8).cut (grid0.coords t) ((dats m 0 c).after 8 t) = _
  rw [after0_8]
  unfold out0_8
  rw [View.canon_unit_zero hz]
  funext (y : S1x32000.Idx)
  obtain ⟨a, j, rfl⟩ : ∃ (a : Fin 1) (j : Fin 32000), y = ix2 a j := ⟨y 0, y 1, eq_ix2 y⟩
  obtain rfl : a = 0 := Subsingleton.elim _ _
  unfold fluxMass
  refine (KerPayload.fm_apply (iblk m c 0 t) (iblk m c 1 t) (iblk m c 2 t) (iblk m c 3 t) (iblk m c 4 t) (iblk m c 5 t) j).trans ?_
  show _ = G8 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (((cfg0.win 8).blk t).view.emb (ix2 (0 : Fin 1) j))
  rw [emb8]
  simp only [iblk0_apply, iblk1_apply, iblk2_apply, iblk3_apply, iblk4_apply, iblk5_apply]
  rfl

/-- Point `t` writes back block `t` of `G9` of the gathered arrays. -/
theorem flushed9_eq (c : Dev nD) (t : Fin cfg0.N) :
    (dats m 0 c).flushed 9 t = ((cfg0.win 9).blk t).view.read (Elt Ideal)
      (G9 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7))) := by
  show (cfg0.win 9).cut (grid0.coords t) ((dats m 0 c).after 9 t) = _
  rw [after0_9, out9_eq]
  funext (y : S3x32000.Idx)
  obtain ⟨k, j, rfl⟩ : ∃ (k : Fin 3) (j : Fin 32000), y = ix2 k j := ⟨y 0, y 1, eq_ix2 y⟩
  show blk9 (iblk m c 0 t) (iblk m c 1 t) (iblk m c 2 t) (iblk m c 3 t) (iblk m c 4 t) (iblk m c 5 t) (iblk m c 6 t) (iblk m c 7 t) (ix2 k j)
    = G9 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) (((cfg0.win 9).blk t).view.emb (ix2 k j))
  rw [emb9]
  show tfOf (fun k' => iblk m c 0 t (ix2 k' j)) (fun k' => iblk m c 1 t (ix2 k' j)) (iblk m c 2 t (ix2 (0 : Fin 1) j)) (iblk m c 3 t (ix2 (0 : Fin 1) j))
      (fun k' => iblk m c 4 t (ix2 k' j)) (fun k' => iblk m c 5 t (ix2 k' j)) (iblk m c 6 t (ix2 (0 : Fin 1) j)) (iblk m c 7 t (ix2 (0 : Fin 1) j)) k = _
  simp only [iblk0_apply, iblk1_apply, iblk2_apply, iblk3_apply, iblk4_apply, iblk5_apply, iblk6_apply, iblk7_apply]
  rfl

/-! ## The blocks tile the arrays -/

theorem mem_blk8 (t : Fin cfg0.N) (i : S1x3200000.Idx) :
    i ∈ ((cfg0.win 8).blk t).view.set ↔ ∀ a : Fin 2, win0_8.index t a * S1x32000.size a ≤ (i a).val ∧ (i a).val < win0_8.index t a * S1x32000.size a + S1x32000.size a := by
  show i ∈ ((View.whole main_v100_0).slice (win0_8.rect t)).set ↔ _
  rw [View.set_slice_whole, Rect.mem_set_unit]
  exact Iff.rfl

theorem mem_blk9 (t : Fin cfg0.N) (i : S3x3200000.Idx) :
    i ∈ ((cfg0.win 9).blk t).view.set ↔ ∀ a : Fin 2, win0_9.index t a * S3x32000.size a ≤ (i a).val ∧ (i a).val < win0_9.index t a * S3x32000.size a + S3x32000.size a := by
  show i ∈ ((View.whole main_v100_1).slice (win0_9.rect t)).set ↔ _
  rw [View.set_slice_whole, Rect.mem_set_unit]
  exact Iff.rfl

/-- Column `e` lies in the block of point `e / 32000`. -/
theorem cover8 (i : S1x3200000.Idx) : ∃ t : Fin cfg0.N, (cfg0.win 8).flush t = true ∧ i ∈ ((cfg0.win 8).blk t).view.set := by
  have h0 : (i 0).val < 1 := (i 0).isLt
  have h1 : (i 1).val < 3200000 := (i 1).isLt
  have hq : (i 1).val / 32000 < cfg0.N := Nat.lt_of_lt_of_eq (by omega) N_0.symm
  obtain ⟨e0, e1⟩ := idx8 ⟨(i 1).val / 32000, hq⟩
  have e1' : win0_8.index ⟨(i 1).val / 32000, hq⟩ (1 : Fin 2) = (i 1).val / 32000 := e1
  refine ⟨⟨(i 1).val / 32000, hq⟩, flush0_8 _, ?_⟩
  rw [mem_blk8]
  intro a
  match a with
  | ⟨0, _⟩ => show win0_8.index ⟨(i 1).val / 32000, hq⟩ (0 : Fin 2) * 1 ≤ (i 0).val ∧ (i 0).val < win0_8.index ⟨(i 1).val / 32000, hq⟩ (0 : Fin 2) * 1 + 1; omega
  | ⟨1, _⟩ => show win0_8.index ⟨(i 1).val / 32000, hq⟩ (1 : Fin 2) * 32000 ≤ (i 1).val ∧ (i 1).val < win0_8.index ⟨(i 1).val / 32000, hq⟩ (1 : Fin 2) * 32000 + 32000; omega

theorem cover9 (i : S3x3200000.Idx) : ∃ t : Fin cfg0.N, (cfg0.win 9).flush t = true ∧ i ∈ ((cfg0.win 9).blk t).view.set := by
  have h0 : (i 0).val < 3 := (i 0).isLt
  have h1 : (i 1).val < 3200000 := (i 1).isLt
  have hq : (i 1).val / 32000 < cfg0.N := Nat.lt_of_lt_of_eq (by omega) N_0.symm
  obtain ⟨e0, e1⟩ := idx9 ⟨(i 1).val / 32000, hq⟩
  have e1' : win0_9.index ⟨(i 1).val / 32000, hq⟩ (1 : Fin 2) = (i 1).val / 32000 := e1
  refine ⟨⟨(i 1).val / 32000, hq⟩, flush0_9 _, ?_⟩
  rw [mem_blk9]
  intro a
  match a with
  | ⟨0, _⟩ => show win0_9.index ⟨(i 1).val / 32000, hq⟩ (0 : Fin 2) * 3 ≤ (i 0).val ∧ (i 0).val < win0_9.index ⟨(i 1).val / 32000, hq⟩ (0 : Fin 2) * 3 + 3; omega
  | ⟨1, _⟩ => show win0_9.index ⟨(i 1).val / 32000, hq⟩ (1 : Fin 2) * 32000 ≤ (i 1).val ∧ (i 1).val < win0_9.index ⟨(i 1).val / 32000, hq⟩ (1 : Fin 2) * 32000 + 32000; omega

/-! ## The arrays after the pipeline -/

/-- THE MASS-FLUX ARRAY after the pipeline is `G8` of the gathered arrays. -/
theorem final8 (c : Dev nD) :
    (dats m 0 c).arrAt 8 cfg0.N = G8 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 8 _ (fun t _ => flushed8_eq m c t) cover8

/-- THE MOMENTUM-FLUX ARRAY after the pipeline is `G9` of the gathered arrays. -/
theorem final9 (c : Dev nD) :
    (dats m 0 c).arrAt 9 cfg0.N = G9 (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
        (V m c (Pipeline.arrRef spec0 6)) (V m c (Pipeline.arrRef spec0 7)) :=
  (dats m 0 c).arrAt_eq_of_cover 9 _ (fun t _ => flushed9_eq m c t) cover9

end Cert.KernelIdeal.HandValue

end
-- ==== Proof.LibColGather.lean ====
/-
  A GENERAL LEMMA: a gather of COLUMNS read at an index, for all extents and element types.

  `colDims R N E` are the dimension numbers of `"stablehlo.gather"` that take, from a table `[R, N]` and a list of `E`
  column numbers (an `[E, 1]` array of words), the array `[R, E]` whose column `e` is the table's column number `e`:
  offset axis 0 (the table's axis 0, whole), the table's axis 1 collapsed and indexed by the start index, index vector
  axis 1, slice sizes `[R, 1]` — what `x[:, idx]` lowers to. `gather_col_apply`: read at `(k, e)` the gather is the table
  at `(k, c)` with `c` the start index `idx[e, 0]` read signed and clamped into `[0, N − 1]`.
-/
import Idealize.ShloMosaic.Lib.ValueIdx
import Idealize.ShloMosaic.Lib.Pipeline.Value

noncomputable section

namespace Cert.ColGather

open Idealize.ShloMosaic Idealize.ShloMosaic.ValueIdx

section Col
variable {α : Type}

/-- The dimension numbers of a gather of columns: the result's axis 0 is the table's axis 0 whole (an offset axis),
    the table's axis 1 is indexed by the start index (collapsed), one number per start index. -/
abbrev colDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(k, e)`: the table at row `k`, column the start index `idx[e, 0]` read signed and
    clamped into `[0, N − 1]`. -/
theorem gather_col_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (k : Fin R) (e : Fin E) :
    Host.gather (colDims R N E wf) x idx (ix2 k e)
      = x (ix2 k ⟨min (idx (ix2 e (0 : Fin 1))).toInt.toNat (N - 1), by omega⟩) := by
  unfold Host.gather
  congr 1
  funext a
  refine Fin.ext ?_
  show (colDims R N E wf).start (ix2 k e) idx a + (colDims R N E wf).batchCoord (ix2 k e) a
      + (colDims R N E wf).offCoord (ix2 k e) a = _
  rw [GatherDims.batchCoord_eq_zero _ _ _ List.not_mem_nil, Nat.add_zero]
  match a with
  | ⟨0, _⟩ =>
    have hs : (colDims R N E wf).start (ix2 k e) idx (⟨0, by decide⟩ : Fin 2) = 0 := by
      unfold GatherDims.start
      rw [dif_neg (fun h => absurd (congrArg Fin.val (List.mem_singleton.mp h)) (by decide : (0 : ℕ) ≠ 1))]
    have ho : (colDims R N E wf).offCoord (ix2 k e) (⟨0, by decide⟩ : Fin 2) = k.val := by
      unfold GatherDims.offCoord
      rw [dif_pos ((GatherDims.mem_sKept _ _).mpr
        ⟨fun h => absurd (congrArg Fin.val (List.mem_singleton.mp h)) (by decide : (0 : ℕ) ≠ 1), List.not_mem_nil⟩)]
      rfl
    rw [hs, ho, Nat.zero_add]
  | ⟨1, _⟩ =>
    have ho : (colDims R N E wf).offCoord (ix2 k e) (⟨1, by decide⟩ : Fin 2) = 0 :=
      GatherDims.offCoord_eq_zero _ _ _ (fun h => ((GatherDims.mem_sKept _ _).mp h).1 (List.mem_singleton.mpr rfl))
    rw [ho, Nat.add_zero]
    unfold GatherDims.start
    rw [dif_pos (show (⟨1, by decide⟩ : Fin 2) ∈ (colDims R N E wf).startIndexMap from List.mem_singleton.mpr rfl)]
    have hsi : (colDims R N E wf).siIdx (ix2 k e) ⟨List.idxOf (⟨1, by decide⟩ : Fin 2) (colDims R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Col

end Cert.ColGather

end
-- ==== Proof.ColGather.lean ====
/-
  The arrays the kernel program gathers before its pipeline, read at an index. A list of node numbers is prepared for
  a gather by moving each negative number up by 100000 and setting the list as one column; read signed and clamped
  into the table, entry `e` is then the row `EdgeSpec.node` of number `e`. So the columns gathered from a transposed
  `[100000, 3]` node table, read at `(k, e)`, are the table's row `node` of number `e`, column `k`; likewise from a
  `[100000]` vector set as one row. The numbers are a row of the edge list, set as a vector.
-/
import proofs.«131631_j10934986735710_1_alg».proof.Proof.EdgeSpec
import proofs.«131631_j10934986735710_1_alg».proof.Proof.LibColGather
import Idealize.ShloMosaic.Lib.ValueIdx
import Idealize.ShloMosaic.Lib.Pipeline.Value

noncomputable section

namespace Cert.ColGather

open Idealize.ShloMosaic Idealize.ShloMosaic.ValueIdx

/-! ## Node numbers, wrapped and clamped -/

section Node
open Cert.EdgeSpec

/-- The list of node numbers as the programs prepare it for a gather — each number below zero moved up by 100000,
    the list set as a one-column array — read at `(e, 0)`, signed and clamped into `[0, 99999]`, is the row
    `EdgeSpec.node` of number `e`. -/
theorem node_of_prepared (v : IVec ⟨1, ![3200000]⟩ 32)
    (hb0 : (⟨0, ![]⟩ : Shape).BroadcastsInDim ⟨1, ![3200000]⟩ ![])
    (hb1 : (⟨1, ![3200000]⟩ : Shape).BroadcastsInDim ⟨2, ![3200000, 1]⟩ ![0]) (e : Fin 3200000) :
    (⟨min ((broadcastInDim ⟨2, ![3200000, 1]⟩ ![0] hb1
        (select (cmpi .slt v (broadcastInDim ⟨1, ![3200000]⟩ ![] hb0 (constantI ⟨0, ![]⟩ 32 0#32)))
          (addi v (broadcastInDim ⟨1, ![3200000]⟩ ![] hb0 (constantI ⟨0, ![]⟩ 32 100000#32))) v))
        (ix2 e (0 : Fin 1))).toInt.toNat (100000 - 1), by omega⟩ : Fin 100000) = node (v (ix1 e)) := by
  refine Fin.ext ?_
  show min _ _ = min _ _
  have hidx : broadcastInDim ⟨2, ![3200000, 1]⟩ ![0] hb1
        (select (cmpi .slt v (broadcastInDim ⟨1, ![3200000]⟩ ![] hb0 (constantI ⟨0, ![]⟩ 32 0#32)))
          (addi v (broadcastInDim ⟨1, ![3200000]⟩ ![] hb0 (constantI ⟨0, ![]⟩ 32 100000#32))) v) (ix2 e (0 : Fin 1))
      = wrap (v (ix1 e)) := by
    rw [broadcastInDim_apply ![0] hb1 _ (ix2 e (0 : Fin 1)) (ix1 e) (fun a => match a with | ⟨0, _⟩ => rfl)]
    rfl
  rw [hidx]

end Node

/-! ## The gathered arrays read at an index -/

section Gathered
open Cert.EdgeSpec
variable {α : Type}

/-- Row 0 of the edge list, set as a vector, read at `e`. -/
theorem edgeRow0 (ei : IVec ⟨2, ![2, 3200000]⟩ 32)
    (hS : (⟨2, ![2, 3200000]⟩ : Shape).Slices ![0, 0] ⟨2, ![1, 3200000]⟩)
    (hC : (⟨2, ![1, 3200000]⟩ : Shape).ShapeCasts ⟨1, ![3200000]⟩) (e : Fin 3200000) :
    shapeCast ⟨1, ![3200000]⟩ (extractStridedSlice ⟨2, ![1, 3200000]⟩ ![0, 0] ei hS) hC (ix1 e) = ei (ix2 (0 : Fin 2) e) := by
  rw [shapeCast_apply _ hC (ix1 e) (ix2 (0 : Fin 1) e)
    (by rw [Shape.rowMajor_val_two, Shape.rowMajor_val_one]; show 0 * 3200000 + e.val = e.val; omega)]
  exact extractStridedSlice_apply ![0, 0] ei hS _ _ (fun a => match a with
    | ⟨0, _⟩ => rfl
    | ⟨1, _⟩ => by show e.val = 0 + e.val; omega)

/-- Row 1 likewise. -/
theorem edgeRow1 (ei : IVec ⟨2, ![2, 3200000]⟩ 32)
    (hS : (⟨2, ![2, 3200000]⟩ : Shape).Slices ![1, 0] ⟨2, ![1, 3200000]⟩)
    (hC : (⟨2, ![1, 3200000]⟩ : Shape).ShapeCasts ⟨1, ![3200000]⟩) (e : Fin 3200000) :
    shapeCast ⟨1, ![3200000]⟩ (extractStridedSlice ⟨2, ![1, 3200000]⟩ ![1, 0] ei hS) hC (ix1 e) = ei (ix2 (1 : Fin 2) e) := by
  rw [shapeCast_apply _ hC (ix1 e) (ix2 (0 : Fin 1) e)
    (by rw [Shape.rowMajor_val_two, Shape.rowMajor_val_one]; show 0 * 3200000 + e.val = e.val; omega)]
  exact extractStridedSlice_apply ![1, 0] ei hS _ _ (fun a => match a with
    | ⟨0, _⟩ => rfl
    | ⟨1, _⟩ => by show e.val = 0 + e.val; omega)

/-- Columns gathered from a transposed `[100000, 3]` node table at a prepared list of node numbers: at `(k, e)` the
    table's row `node` of number `e`, column `k`. -/
theorem gathered3_apply (tbl : (⟨2, ![100000, 3]⟩ : Shape).Idx → α) (v : IVec ⟨1, ![3200000]⟩ 32)
    (hT : (⟨2, ![100000, 3]⟩ : Shape).Transposes [1, 0] ⟨2, ![3, 100000]⟩)
    (hb0 : (⟨0, ![]⟩ : Shape).BroadcastsInDim ⟨1, ![3200000]⟩ ![])
    (hb1 : (⟨1, ![3200000]⟩ : Shape).BroadcastsInDim ⟨2, ![3200000, 1]⟩ ![0])
    (wf : GatherDims.WF ⟨2, ![3, 100000]⟩ ⟨2, ![3200000, 1]⟩ ⟨2, ![3, 3200000]⟩ [0] [1] [] [1] [] 1 ![3, 1])
    (k : Fin 3) (e : Fin 3200000) (w : BitVec 32) (hv : v (ix1 e) = w) :
    Host.gather (colDims 3 100000 3200000 wf) (transpose ⟨2, ![3, 100000]⟩ [1, 0] tbl hT)
        (broadcastInDim ⟨2, ![3200000, 1]⟩ ![0] hb1
          (select (cmpi .slt v (broadcastInDim ⟨1, ![3200000]⟩ ![] hb0 (constantI ⟨0, ![]⟩ 32 0#32)))
            (addi v (broadcastInDim ⟨1, ![3200000]⟩ ![] hb0 (constantI ⟨0, ![]⟩ 32 100000#32))) v)) (ix2 k e)
      = tbl (ix2 (node w) k) := by
  rw [gather_col_apply (by decide), node_of_prepared v hb0 hb1 e, hv]
  exact transpose_apply [1, 0] tbl hT _ _ (fun b => match b with | ⟨0, _⟩ => rfl | ⟨1, _⟩ => rfl)

/-- The same from a `[100000]` node vector set as one row `[1, 100000]`: at `(0, e)` the vector's entry `node` of number
    `e`. -/
theorem gathered1_apply (tbl : (⟨1, ![100000]⟩ : Shape).Idx → α) (v : IVec ⟨1, ![3200000]⟩ 32)
    (hR : (⟨1, ![100000]⟩ : Shape).ShapeCasts ⟨2, ![1, 100000]⟩)
    (hb0 : (⟨0, ![]⟩ : Shape).BroadcastsInDim ⟨1, ![3200000]⟩ ![])
    (hb1 : (⟨1, ![3200000]⟩ : Shape).BroadcastsInDim ⟨2, ![3200000, 1]⟩ ![0])
    (wf : GatherDims.WF ⟨2, ![1, 100000]⟩ ⟨2, ![3200000, 1]⟩ ⟨2, ![1, 3200000]⟩ [0] [1] [] [1] [] 1 ![1, 1])
    (e : Fin 3200000) (w : BitVec 32) (hv : v (ix1 e) = w) :
    Host.gather (colDims 1 100000 3200000 wf) (shapeCast ⟨2, ![1, 100000]⟩ tbl hR)
        (broadcastInDim ⟨2, ![3200000, 1]⟩ ![0] hb1
          (select (cmpi .slt v (broadcastInDim ⟨1, ![3200000]⟩ ![] hb0 (constantI ⟨0, ![]⟩ 32 0#32)))
            (addi v (broadcastInDim ⟨1, ![3200000]⟩ ![] hb0 (constantI ⟨0, ![]⟩ 32 100000#32))) v)) (ix2 (0 : Fin 1) e)
      = tbl (ix1 (node w)) := by
  rw [gather_col_apply (by decide), node_of_prepared v hb0 hb1 e, hv]
  exact shapeCast_apply tbl hR _ (ix1 (node w))
    (by rw [Shape.rowMajor_val_one, Shape.rowMajor_val_two]; show (node w).val = 0 * 100000 + (node w).val; omega)

end Gathered

end Cert.ColGather

end
-- ==== Proof.KerGathered.lean ====
/-
  The eight arrays the pipeline reads, as it finds them: each is a node table gathered, before the pipeline, at the
  edges' source or destination node numbers — the positions and the velocities column by column from the transposed
  `[100000, 3]` tables, the densities and the pressures from the `[100000]` vectors set as one row. Read at column `e`
  each is its table's row `EdgeSpec.src` or `EdgeSpec.dst` of edge `e`.
-/
import proofs.«131631_j10934986735710_1_alg».proof.Proof.FrameKIData
import proofs.«131631_j10934986735710_1_alg».proof.Proof.ColGather
import Idealize.ShloMosaic.Lib.StableHlo.Run
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx Idealize.ShloMosaic.StableHlo Cert.EdgeSpec

variable (m : (ℓ : Loc nD τ sig) → Buf (Elt Ideal) ℓ)

set_option maxHeartbeats 4000000 in
/-- Window 0's array at `(k, e)`: argument 10's row `src` of edge `e`, column `k`. -/
theorem gath0 (c : Dev nD) (k : Fin 3) (e : Fin 3200000) :
    V m c main_v50 (ix2 k e)
      = m ((c : Thread nD τ).loc main_arg10) (ix2 (src (m ((c : Thread nD τ).loc main_arg12)) e) k) := by
  dsimp only [V, V0]
  simp only [hostOps0, List.flatten_cons, List.flatten_nil, List.append_nil]
  after_results_simp
  exact ColGather.gathered3_apply _ _ _ _ _ _ k e _ (ColGather.edgeRow0 _ _ _ e)

set_option maxHeartbeats 4000000 in
/-- Window 1's array at `(k, e)`: argument 10's row `dst` of edge `e`, column `k`. -/
theorem gath1 (c : Dev nD) (k : Fin 3) (e : Fin 3200000) :
    V m c main_v57 (ix2 k e)
      = m ((c : Thread nD τ).loc main_arg10) (ix2 (dst (m ((c : Thread nD τ).loc main_arg12)) e) k) := by
  dsimp only [V, V0]
  simp only [hostOps0, List.flatten_cons, List.flatten_nil, List.append_nil]
  after_results_simp
  exact ColGather.gathered3_apply _ _ _ _ _ _ k e _ (ColGather.edgeRow1 _ _ _ e)

set_option maxHeartbeats 4000000 in
/-- Window 4's array at `(k, e)`: argument 3's row `src` of edge `e`, column `k`. -/
theorem gath4 (c : Dev nD) (k : Fin 3) (e : Fin 3200000) :
    V m c main_v64 (ix2 k e)
      = m ((c : Thread nD τ).loc main_arg3) (ix2 (src (m ((c : Thread nD τ).loc main_arg12)) e) k) := by
  dsimp only [V, V0]
  simp only [hostOps0, List.flatten_cons, List.flatten_nil, List.append_nil]
  after_results_simp
  exact ColGather.gathered3_apply _ _ _ _ _ _ k e _ (ColGather.edgeRow0 _ _ _ e)

set_option maxHeartbeats 4000000 in
/-- Window 5's array at `(k, e)`: argument 3's row `dst` of edge `e`, column `k`. -/
theorem gath5 (c : Dev nD) (k : Fin 3) (e : Fin 3200000) :
    V m c main_v71 (ix2 k e)
      = m ((c : Thread nD τ).loc main_arg3) (ix2 (dst (m ((c : Thread nD τ).loc main_arg12)) e) k) := by
  dsimp only [V, V0]
  simp only [hostOps0, List.flatten_cons, List.flatten_nil, List.append_nil]
  after_results_simp
  exact ColGather.gathered3_apply _ _ _ _ _ _ k e _ (ColGather.edgeRow1 _ _ _ e)

set_option maxHeartbeats 4000000 in
/-- Window 2's array at `(0, e)`: argument 4's entry `src` of edge `e`. -/
theorem gath2 (c : Dev nD) (e : Fin 3200000) :
    V m c main_v78 (ix2 (0 : Fin 1) e)
      = m ((c : Thread nD τ).loc main_arg4) (ix1 (src (m ((c : Thread nD τ).loc main_arg12)) e)) := by
  dsimp only [V, V0]
  simp only [hostOps0, List.flatten_cons, List.flatten_nil, List.append_nil]
  after_results_simp
  exact ColGather.gathered1_apply _ _ _ _ _ _ e _ (ColGather.edgeRow0 _ _ _ e)

set_option maxHeartbeats 4000000 in
/-- Window 3's array at `(0, e)`: argument 4's entry `dst` of edge `e`. -/
theorem gath3 (c : Dev nD) (e : Fin 3200000) :
    V m c main_v85 (ix2 (0 : Fin 1) e)
      = m ((c : Thread nD τ).loc main_arg4) (ix1 (dst (m ((c : Thread nD τ).loc main_arg12)) e)) := by
  dsimp only [V, V0]
  simp only [hostOps0, List.flatten_cons, List.flatten_nil, List.append_nil]
  after_results_simp
  exact ColGather.gathered1_apply _ _ _ _ _ _ e _ (ColGather.edgeRow1 _ _ _ e)

set_option maxHeartbeats 4000000 in
/-- Window 6's array at `(0, e)`: argument 0's entry `src` of edge `e`. -/
theorem gath6 (c : Dev nD) (e : Fin 3200000) :
    V m c main_v92 (ix2 (0 : Fin 1) e)
      = m ((c : Thread nD τ).loc main_arg0) (ix1 (src (m ((c : Thread nD τ).loc main_arg12)) e)) := by
  dsimp only [V, V0]
  simp only [hostOps0, List.flatten_cons, List.flatten_nil, List.append_nil]
  after_results_simp
  exact ColGather.gathered1_apply _ _ _ _ _ _ e _ (ColGather.edgeRow0 _ _ _ e)

set_option maxHeartbeats 4000000 in
/-- Window 7's array at `(0, e)`: argument 0's entry `dst` of edge `e`. -/
theorem gath7 (c : Dev nD) (e : Fin 3200000) :
    V m c main_v99 (ix2 (0 : Fin 1) e)
      = m ((c : Thread nD τ).loc main_arg0) (ix1 (dst (m ((c : Thread nD τ).loc main_arg12)) e)) := by
  dsimp only [V, V0]
  simp only [hostOps0, List.flatten_cons, List.flatten_nil, List.append_nil]
  after_results_simp
  exact ColGather.gathered1_apply _ _ _ _ _ _ e _ (ColGather.edgeRow1 _ _ _ e)

end Cert.KernelIdeal.HandValue

end
-- ==== Proof.LibGatherScatter.lean ====
/-
  PICKING ROWS COMMUTES WITH AN ACCUMULATING SCATTER OF INDEX PAIRS.

  A table `table[t, i, j]` is built from weights `w[t, e]` and a list of index pairs `idx[e, ·]` by an accumulating
  scatter into a constant array: `table[t, i, j] = z + ∑ w[t, e]` over the `e` whose pair, read signed and not clamped,
  is `(i, j)` (a pair outside the array contributes nothing). Rows are then picked by slot indices `ii[b]`, read signed
  and clamped into `[0, T − 1]`: `A[b, i, j] = table[pick ii[b], i, j]`. Picking the weight rows first,
  `wg[b, e] = w[pick ii[b], e]`, and scattering per `b` gives the same array: both are
  `z + ∑ w[pick ii[b], e]` over the same set of `e` (`gather_scatterAdd_pairs`).

  On the way: a `stablehlo.gather` of whole rows along axis 0 of a rank-3 or rank-2 operand read at an index
  (`gather_rows3_apply`, `gather_rows2_apply`); when a scatter's result index is a given operand index
  (`resultIdx?_eq_some_iff`); and the accumulating scatter of scalar updates at index pairs, at the ideal instance,
  read at an index as the operand plus a sum over the `e` that land there (`scatterAdd_pairs_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

variable {α : Type}

/-! ## Picking rows: `stablehlo.gather` along axis 0 -/

/-- The dimension numbers of a gather of whole rows `[R, C]` of an operand `[T, R, C]` at start indices `[B, 1]`:
    axis 0 collapsed and indexed, the other two the result's offset axes. -/
abbrev rows3 (T B R C : Nat)
    (wf : GatherDims.WF ⟨3, ![T, R, C]⟩ ⟨2, ![B, 1]⟩ ⟨3, ![B, R, C]⟩ [1, 2] [0] [] [0] [] 1 ![1, R, C]) :
    GatherDims ⟨3, ![T, R, C]⟩ ⟨2, ![B, 1]⟩ ⟨3, ![B, R, C]⟩ :=
  { offsetDims := [1, 2], collapsedSliceDims := [0], operandBatchingDims := [], startIndicesBatchingDims := [],
    startIndexMap := [0], indexVectorDim := 1, sliceSizes := ![1, R, C], wf := wf }

/-- The dimension numbers of a gather of whole rows `[C]` of an operand `[T, C]` at start indices `[B, 1]`. -/
abbrev rows2 (T B C : Nat)
    (wf : GatherDims.WF ⟨2, ![T, C]⟩ ⟨2, ![B, 1]⟩ ⟨2, ![B, C]⟩ [1] [0] [] [0] [] 1 ![1, C]) :
    GatherDims ⟨2, ![T, C]⟩ ⟨2, ![B, 1]⟩ ⟨2, ![B, C]⟩ :=
  { offsetDims := [1], collapsedSliceDims := [0], operandBatchingDims := [], startIndicesBatchingDims := [],
    startIndexMap := [0], indexVectorDim := 1, sliceSizes := ![1, C], wf := wf }

/-- The row a slot index picks: the word read signed and clamped into `[0, T − 1]`. -/
def pick (T : Nat) (hT : 0 < T) {w : Nat} (v : BitVec w) : Fin T := ⟨min v.toInt.toNat (T - 1), by omega⟩

/-- A GATHER OF ROWS OF A RANK-3 OPERAND READ AT `(b, i, j)`: the operand at row `pick idx[b, 0]`, same `(i, j)`. -/
theorem gather_rows3_apply {T B R C w : Nat} (hT : 0 < T)
    (wf : GatherDims.WF ⟨3, ![T, R, C]⟩ ⟨2, ![B, 1]⟩ ⟨3, ![B, R, C]⟩ [1, 2] [0] [] [0] [] 1 ![1, R, C])
    (x : (⟨3, ![T, R, C]⟩ : Shape).Idx → α) (idx : IVec ⟨2, ![B, 1]⟩ w) (b : Fin B) (i : Fin R) (j : Fin C) :
    Host.gather (rows3 T B R C wf) x idx (ix3 b i j) = x (ix3 (pick T hT (idx (ix2 b (0 : Fin 1)))) i j) := by
  unfold Host.gather
  congr 1
  funext a
  refine Fin.ext ?_
  show (rows3 T B R C wf).start (ix3 b i j) idx a + (rows3 T B R C wf).batchCoord (ix3 b i j) a
    + (rows3 T B R C wf).offCoord (ix3 b i j) a = _
  rw [GatherDims.batchCoord_eq_zero _ _ _ List.not_mem_nil, Nat.add_zero]
  match a with
  | ⟨0, _⟩ =>
    show (rows3 T B R C wf).start (ix3 b i j) idx (0 : Fin 3) + (rows3 T B R C wf).offCoord (ix3 b i j) (0 : Fin 3)
      = min (idx (ix2 b (0 : Fin 1))).toInt.toNat (T - 1)
    rw [GatherDims.offCoord_eq_zero _ _ _ (fun h => ((GatherDims.mem_sKept _ _).mp h).1 (List.mem_singleton.mpr rfl)),
      Nat.add_zero]
    unfold GatherDims.start
    rw [dif_pos (show (0 : Fin 3) ∈ (rows3 T B R C wf).startIndexMap from List.mem_singleton.mpr rfl)]
    have hsi : (rows3 T B R C wf).siIdx (ix3 b i j) ⟨List.idxOf (0 : Fin 3) (rows3 T B R C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rows3 T B R C wf).start (ix3 b i j) idx (1 : Fin 3) + (rows3 T B R C wf).offCoord (ix3 b i j) (1 : Fin 3)
      = i.val
    unfold GatherDims.start
    rw [dif_neg (fun h : (1 : Fin 3) ∈ (rows3 T B R C wf).startIndexMap =>
      Nat.one_ne_zero (congrArg Fin.val (List.mem_singleton.mp h))), Nat.zero_add]
    rfl
  | ⟨2, _⟩ =>
    show (rows3 T B R C wf).start (ix3 b i j) idx (2 : Fin 3) + (rows3 T B R C wf).offCoord (ix3 b i j) (2 : Fin 3)
      = j.val
    unfold GatherDims.start
    rw [dif_neg (fun h : (2 : Fin 3) ∈ (rows3 T B R C wf).startIndexMap =>
      (by decide : (2 : Nat) ≠ 0) (congrArg Fin.val (List.mem_singleton.mp h))), Nat.zero_add]
    rfl

/-- A GATHER OF ROWS OF A RANK-2 OPERAND READ AT `(b, j)`: the operand at row `pick idx[b, 0]`, same `j`. -/
theorem gather_rows2_apply {T B C w : Nat} (hT : 0 < T)
    (wf : GatherDims.WF ⟨2, ![T, C]⟩ ⟨2, ![B, 1]⟩ ⟨2, ![B, C]⟩ [1] [0] [] [0] [] 1 ![1, C])
    (x : (⟨2, ![T, C]⟩ : Shape).Idx → α) (idx : IVec ⟨2, ![B, 1]⟩ w) (b : Fin B) (j : Fin C) :
    Host.gather (rows2 T B C wf) x idx (ix2 b j) = x (ix2 (pick T hT (idx (ix2 b (0 : Fin 1)))) j) := by
  unfold Host.gather
  congr 1
  funext a
  refine Fin.ext ?_
  show (rows2 T B C wf).start (ix2 b j) idx a + (rows2 T B C wf).batchCoord (ix2 b j) a
    + (rows2 T B C wf).offCoord (ix2 b j) a = _
  rw [GatherDims.batchCoord_eq_zero _ _ _ List.not_mem_nil, Nat.add_zero]
  match a with
  | ⟨0, _⟩ =>
    show (rows2 T B C wf).start (ix2 b j) idx (0 : Fin 2) + (rows2 T B C wf).offCoord (ix2 b j) (0 : Fin 2)
      = min (idx (ix2 b (0 : Fin 1))).toInt.toNat (T - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rows2 T B C wf).startIndexMap from List.mem_singleton.mpr rfl)]
    have hsi : (rows2 T B C wf).siIdx (ix2 b j) ⟨List.idxOf (0 : Fin 2) (rows2 T B C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rows2 T B C wf).start (ix2 b j) idx (1 : Fin 2) + (rows2 T B C wf).offCoord (ix2 b j) (1 : Fin 2)
      = j.val
    unfold GatherDims.start
    rw [dif_neg (fun h : (1 : Fin 2) ∈ (rows2 T B C wf).startIndexMap =>
      Nat.one_ne_zero (congrArg Fin.val (List.mem_singleton.mp h))), Nat.zero_add]
    rfl

/-! ## The accumulating scatter of scalar updates at index pairs -/

/-- A scatter's result index for update index `u` is the operand index `p` exactly when, on every operand axis, the
    start (read signed, not clamped) plus the window coordinate is `p`'s coordinate. -/
theorem resultIdx?_eq_some_iff {s si u : Shape} (d : ScatterDims s si u) {w : Nat} (j : u.Idx) (idx : IVec si w)
    (p : s.Idx) :
    d.resultIdx? j idx = some p ↔ ∀ a, d.start j idx a + (d.window j a : Int) = ((p a).val : Int) := by
  unfold ScatterDims.resultIdx?
  constructor
  · intro h a
    split at h
    · rename_i hh
      have hp := Option.some.inj h
      subst hp
      exact (Int.toNat_of_nonneg (hh a).1).symm
    · exact absurd h (by simp)
  · intro h
    have hh : ∀ a, 0 ≤ d.start j idx a + (d.window j a : Int) ∧ d.start j idx a + (d.window j a : Int) < s.size a := by
      intro a
      rw [h a]
      exact ⟨Int.natCast_nonneg _, by exact_mod_cast (p a).isLt⟩
    rw [dif_pos hh]
    congr 1
    funext a
    refine Fin.ext ?_
    show (d.start j idx a + (d.window j a : Int)).toNat = (p a).val
    rw [h a, Int.toNat_natCast]

/-- The dimension numbers of a scatter of scalar updates `[T, E]` into an operand `[T, N, N]` at the index pairs
    `[E, 2]`: update axis 0 is the window axis going to operand axis 0, update axis 1 runs over the pairs, whose two
    components are the starts on operand axes 1 and 2. -/
abbrev pairAdd (T N E : Nat) (wf : ScatterDims.WF ⟨3, ![T, N, N]⟩ ⟨2, ![E, 2]⟩ ⟨2, ![T, E]⟩ [0] [1, 2] [1, 2] 1) :
    ScatterDims ⟨3, ![T, N, N]⟩ ⟨2, ![E, 2]⟩ ⟨2, ![T, E]⟩ :=
  { updateWindowDims := [0], insertedWindowDims := [1, 2], scatterDimsToOperandDims := [1, 2], indexVectorDim := 1,
    wf := wf }

/-- Pair `e` lands on `(i, j)`: its two components, read signed, are `i` and `j`. -/
def lands {N E w : Nat} (idx : IVec ⟨2, ![E, 2]⟩ w) (i j : Fin N) (e : Fin E) : Prop :=
  (idx (ix2 e (0 : Fin 2))).toInt = (i.val : Int) ∧ (idx (ix2 e (1 : Fin 2))).toInt = (j.val : Int)

instance {N E w : Nat} (idx : IVec ⟨2, ![E, 2]⟩ w) (i j : Fin N) : DecidablePred (lands idx i j) := fun e => by
  unfold lands; infer_instance

/-- Update `(t', e)` of the pair scatter lands on `(t, i, j)` exactly when `t' = t` and pair `e` lands on `(i, j)`. -/
theorem pairAdd_resultIdx?_iff {T N E w : Nat}
    (wf : ScatterDims.WF ⟨3, ![T, N, N]⟩ ⟨2, ![E, 2]⟩ ⟨2, ![T, E]⟩ [0] [1, 2] [1, 2] 1)
    (idx : IVec ⟨2, ![E, 2]⟩ w) (t' : Fin T) (e : Fin E) (t : Fin T) (i j : Fin N) :
    (pairAdd T N E wf).resultIdx? (ix2 t' e) idx = some (ix3 t i j) ↔ t' = t ∧ lands idx i j e := by
  rw [resultIdx?_eq_some_iff]
  have h0 : (pairAdd T N E wf).start (ix2 t' e) idx 0 + ((pairAdd T N E wf).window (ix2 t' e) 0 : Int) = (t'.val : Int) := by
    unfold ScatterDims.start
    have n0 : ¬ ((0 : Fin 3) ∈ (pairAdd T N E wf).scatterDimsToOperandDims) := (by decide : ¬ ((0 : Fin 3) ∈ [(1 : Fin 3), 2]))
    rw [dif_neg n0, Int.zero_add]
    rfl
  have h1 : (pairAdd T N E wf).start (ix2 t' e) idx 1 + ((pairAdd T N E wf).window (ix2 t' e) 1 : Int)
      = (idx (ix2 e (0 : Fin 2))).toInt := by
    unfold ScatterDims.start
    have m1 : (1 : Fin 3) ∈ (pairAdd T N E wf).scatterDimsToOperandDims := (by decide : (1 : Fin 3) ∈ [(1 : Fin 3), 2])
    rw [dif_pos m1]
    have hw : (pairAdd T N E wf).window (ix2 t' e) 1 = 0 := rfl
    rw [hw, Int.natCast_zero, Int.add_zero]
    congr 2
    funext c; refine Fin.ext ?_
    match c with
    | ⟨0, _⟩ => rfl
    | ⟨1, _⟩ => rfl
  have h2 : (pairAdd T N E wf).start (ix2 t' e) idx 2 + ((pairAdd T N E wf).window (ix2 t' e) 2 : Int)
      = (idx (ix2 e (1 : Fin 2))).toInt := by
    unfold ScatterDims.start
    have m2 : (2 : Fin 3) ∈ (pairAdd T N E wf).scatterDimsToOperandDims := (by decide : (2 : Fin 3) ∈ [(1 : Fin 3), 2])
    rw [dif_pos m2]
    have hw : (pairAdd T N E wf).window (ix2 t' e) 2 = 0 := rfl
    rw [hw, Int.natCast_zero, Int.add_zero]
    congr 2
    funext c; refine Fin.ext ?_
    match c with
    | ⟨0, _⟩ => rfl
    | ⟨1, _⟩ => rfl
  constructor
  · intro h
    have e0 := h 0
    have e1 := h 1
    have e2 := h 2
    rw [h0] at e0
    rw [h1] at e1
    rw [h2] at e2
    refine ⟨Fin.ext (by exact_mod_cast e0), e1, e2⟩
  · rintro ⟨rfl, hl1, hl2⟩ a
    match a with
    | ⟨0, _⟩ => exact h0
    | ⟨1, _⟩ => exact h1.trans hl1
    | ⟨2, _⟩ => exact h2.trans hl2

/-- THE PAIR SCATTER READ AT `(t, i, j)`, at the ideal instance: the operand there plus the sum of the updates
    `upd[t, e]` over the pairs `e` that land on `(i, j)`. -/
theorem scatterAdd_pairs_apply {T N E w : Nat}
    (wf : ScatterDims.WF ⟨3, ![T, N, N]⟩ ⟨2, ![E, 2]⟩ ⟨2, ![T, E]⟩ [0] [1, 2] [1, 2] 1) {φ : FTy}
    (x : FVec Ideal ⟨3, ![T, N, N]⟩ φ) (idx : IVec ⟨2, ![E, 2]⟩ w) (upd : FVec Ideal ⟨2, ![T, E]⟩ φ)
    (t : Fin T) (i j : Fin N) :
    Host.scatterAdd (F := Ideal) (pairAdd T N E wf) x idx upd (ix3 t i j)
      = x (ix3 t i j) + ∑ e ∈ Finset.univ.filter (fun e : Fin E => lands idx i j e), upd (ix2 t e) := by
  unfold Host.scatterAdd
  rw [Ideal.hostScatterAdd_def]
  unfold Ideal.hostScatterAdd
  refine congrArg (x (ix3 t i j) + ·) ?_
  rw [Finset.sum_filter, Finset.sum_filter, sum_idx2, Finset.sum_eq_single t]
  · refine Finset.sum_congr rfl fun e _ => ?_
    by_cases hl : lands idx i j e
    · rw [if_pos hl, if_pos ((pairAdd_resultIdx?_iff wf idx t e t i j).2 ⟨rfl, hl⟩)]
    · rw [if_neg hl, if_neg (fun h => hl ((pairAdd_resultIdx?_iff wf idx t e t i j).1 h).2)]
  · intro t' _ hne
    refine Finset.sum_eq_zero fun e _ => ?_
    rw [if_neg (fun h => hne ((pairAdd_resultIdx?_iff wf idx t' e t i j).1 h).1)]
  · intro h
    exact absurd (Finset.mem_univ t) h

/-! ## The two orders agree -/

/-- PICKING ROWS OF THE SCATTERED TABLE IS SCATTERING THE PICKED WEIGHT ROWS. Scatter the weights `upd[t, e]` at the
    pairs `idx[e, ·]` into an operand that is `z` everywhere and then pick rows by `ii`; or pick the weight rows by
    `ii` first and scatter them, per picked row, at the same pairs into an operand that is `z` everywhere. At the ideal
    instance both give `z + ∑ upd[pick ii[b], e]` over the pairs `e` that land on `(i, j)`. -/
theorem gather_scatterAdd_pairs {T B N E w w' : Nat} (hT : 0 < T)
    (wfg3 : GatherDims.WF ⟨3, ![T, N, N]⟩ ⟨2, ![B, 1]⟩ ⟨3, ![B, N, N]⟩ [1, 2] [0] [] [0] [] 1 ![1, N, N])
    (wfg2 : GatherDims.WF ⟨2, ![T, E]⟩ ⟨2, ![B, 1]⟩ ⟨2, ![B, E]⟩ [1] [0] [] [0] [] 1 ![1, E])
    (wfsT : ScatterDims.WF ⟨3, ![T, N, N]⟩ ⟨2, ![E, 2]⟩ ⟨2, ![T, E]⟩ [0] [1, 2] [1, 2] 1)
    (wfsB : ScatterDims.WF ⟨3, ![B, N, N]⟩ ⟨2, ![E, 2]⟩ ⟨2, ![B, E]⟩ [0] [1, 2] [1, 2] 1) {φ : FTy} (z : EReal)
    (x : FVec Ideal ⟨3, ![T, N, N]⟩ φ) (hx : ∀ p, x p = z) (x' : FVec Ideal ⟨3, ![B, N, N]⟩ φ) (hx' : ∀ p, x' p = z)
    (idx : IVec ⟨2, ![E, 2]⟩ w) (ii : IVec ⟨2, ![B, 1]⟩ w') (upd : FVec Ideal ⟨2, ![T, E]⟩ φ) :
    Host.gather (rows3 T B N N wfg3) (Host.scatterAdd (F := Ideal) (pairAdd T N E wfsT) x idx upd) ii
      = Host.scatterAdd (F := Ideal) (pairAdd B N E wfsB) x' idx (Host.gather (rows2 T B E wfg2) upd ii) := by
  funext p
  obtain ⟨b, i, j, rfl⟩ : ∃ (b : Fin B) (i j : Fin N), p = ix3 b i j := ⟨p 0, p 1, p 2, eq_ix3 p⟩
  refine (gather_rows3_apply hT wfg3 _ ii b i j).trans ?_
  rw [scatterAdd_pairs_apply, scatterAdd_pairs_apply, hx, hx']
  refine congrArg (z + ·) (Finset.sum_congr rfl fun e _ => ?_)
  exact (gather_rows2_apply hT wfg2 upd ii b e).symm

/-- The conditions on the dimension numbers are decided at literal sizes. -/
example {φ : FTy} (z : EReal) (x : FVec Ideal ⟨3, ![24, 207, 207]⟩ φ) (hx : ∀ p, x p = z)
    (x' : FVec Ideal ⟨3, ![64, 207, 207]⟩ φ) (hx' : ∀ p, x' p = z) (idx : IVec ⟨2, ![1722, 2]⟩ 32)
    (ii : IVec ⟨2, ![64, 1]⟩ 32) (upd : FVec Ideal ⟨2, ![24, 1722]⟩ φ) :
    Host.gather (rows3 24 64 207 207 (by decide))
        (Host.scatterAdd (F := Ideal) (pairAdd 24 207 1722 (by decide)) x idx upd) ii
      = Host.scatterAdd (F := Ideal) (pairAdd 64 207 1722 (by decide)) x' idx
          (Host.gather (rows2 24 64 1722 (by decide)) upd ii) :=
  gather_scatterAdd_pairs (by decide) _ _ _ _ z x hx x' hx' idx ii upd

end Idealize.ShloMosaic.GatherScatter

end
-- ==== Proof.RefEdges.lean ====
/-
  The reference program's per-edge values, read at an edge.

  The reference gathers the node tables at the two rows of the edge list and combines the gathered values pointwise,
  with two sums over the three columns. Read at edge `e` (and column `k`), every stage is a function of the table
  entries at the source and destination nodes of `e`:

    * a gather along axis 0 at start indices `idx[e, 0]` reads the table at the row `min (toNat (toInt idx[e, 0])) 99999`
      (a start index is read signed and clamped so that the one-row slice fits);
    * the start indices are the edge list's words with a negative word moved up by 100000, which is `EdgeSpec.wrap`,
      so the row read is `EdgeSpec.node` of the word: `EdgeSpec.src` for row 0 of the edge list, `EdgeSpec.dst` for row 1;
    * a sum over the three columns starting from the zero word is `(a₀ + a₁) + a₂`.

  With these the mass flux and the momentum flux of the reference are `EdgeSpec.FM` and `EdgeSpec.TF`, term for term:
  no rearrangement of sums or products is needed.
-/
import proofs.«131631_j10934986735710_1_alg».proof.Proof.RefRead
import proofs.«131631_j10934986735710_1_alg».proof.Proof.EdgeSpec
import proofs.«131631_j10934986735710_1_alg».proof.Proof.LibGatherScatter
import Idealize.ShloMosaic.Lib.ValueIdx
import Idealize.ShloMosaic.Lib.Pipeline.Value
import Idealize.ShloMosaic.PureOps.Ideal.Laws

noncomputable section

namespace Cert.RefEdge

open Idealize.ShloMosaic Idealize.ShloMosaic.ValueIdx Cert.ReferenceIdeal Cert.ReferenceIdeal.ReadP

/-! ## The two gathers read at an index -/

/-- A gather of whole rows of the `[100000, 3]` table at start indices `[3200000, 1]`, read at `(e, k)`: the table at
    the row `idx[e, 0]` read signed and clamped into `[0, 99999]`, same column. -/
theorem gather_rows {α : Type} (x : (⟨2, ![100000, 3]⟩ : Shape).Idx → α) (idx : IVec ⟨2, ![3200000, 1]⟩ 32)
    (e : Fin 3200000) (k : Fin 3) :
    Host.gather gather_S100000x3_S3200000x1_S3200000x3_1_0_n_n_0_1_13 x idx (ix2 e k)
      = x (ix2 ⟨min (idx (ix2 e (0 : Fin 1))).toInt.toNat 99999, Nat.lt_succ_of_le (Nat.min_le_right _ _)⟩ k) :=
  GatherScatter.gather_rows2_apply (T := 100000) (B := 3200000) (C := 3) (by decide)
    Facts₀.gather_S100000x3_S3200000x1_S3200000x3_1_0_n_n_0_1_13_wf x idx e k

/-- A gather of entries of the `[100000]` table at start indices `[3200000, 1]`, read at `e`: the table at
    `idx[e, 0]` read signed and clamped into `[0, 99999]`. The table's one axis is collapsed and indexed, so its
    coordinate is the clamped start alone: no batching and no offset coordinate. -/
theorem gather_vec {α : Type} (x : (⟨1, ![100000]⟩ : Shape).Idx → α) (idx : IVec ⟨2, ![3200000, 1]⟩ 32) (e : Fin 3200000) :
    Host.gather gather_S100000_S3200000x1_S3200000_n_0_n_n_0_1_1 x idx (ix1 e)
      = x (ix1 ⟨min (idx (ix2 e (0 : Fin 1))).toInt.toNat 99999, Nat.lt_succ_of_le (Nat.min_le_right _ _)⟩) := by
  unfold Host.gather
  congr 1
  funext a
  obtain rfl : a = 0 := Subsingleton.elim _ _
  refine Fin.ext ?_
  show gather_S100000_S3200000x1_S3200000_n_0_n_n_0_1_1.start (ix1 e) idx 0
    + gather_S100000_S3200000x1_S3200000_n_0_n_n_0_1_1.batchCoord (ix1 e) 0
    + gather_S100000_S3200000x1_S3200000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S3200000x1_S3200000_n_0_n_n_0_1_1.startIndexMap from List.mem_singleton.mpr rfl)]
  have hsi : gather_S100000_S3200000x1_S3200000_n_0_n_n_0_1_1.siIdx (ix1 e)
      ⟨List.idxOf (0 : Fin 1) gather_S100000_S3200000x1_S3200000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row gather at start indices whose word at `e` is a wrapped node number `v` reads row `EdgeSpec.node v`. -/
theorem rows_at {α : Type} (x : (⟨2, ![100000, 3]⟩ : Shape).Idx → α) (idx : IVec ⟨2, ![3200000, 1]⟩ 32) (e : Fin 3200000)
    (k : Fin 3) (v : BitVec 32) (h : idx (ix2 e (0 : Fin 1)) = EdgeSpec.wrap v) :
    Host.gather gather_S100000x3_S3200000x1_S3200000x3_1_0_n_n_0_1_13 x idx (ix2 e k) = x (ix2 (EdgeSpec.node v) k) := by
  rw [gather_rows]
  refine congrArg (fun r : Fin 100000 => x (ix2 r k)) (Fin.ext ?_)
  show min (idx (ix2 e (0 : Fin 1))).toInt.toNat 99999 = min (EdgeSpec.wrap v).toInt.toNat 99999
  rw [h]

/-- The entry gather at start indices whose word at `e` is a wrapped node number `v` reads entry `EdgeSpec.node v`. -/
theorem vec_at {α : Type} (x : (⟨1, ![100000]⟩ : Shape).Idx → α) (idx : IVec ⟨2, ![3200000, 1]⟩ 32) (e : Fin 3200000)
    (v : BitVec 32) (h : idx (ix2 e (0 : Fin 1)) = EdgeSpec.wrap v) :
    Host.gather gather_S100000_S3200000x1_S3200000_n_0_n_n_0_1_1 x idx (ix1 e) = x (ix1 (EdgeSpec.node v)) := by
  rw [gather_vec]
  refine congrArg (fun r : Fin 100000 => x (ix1 r)) (Fin.ext ?_)
  show min (idx (ix2 e (0 : Fin 1))).toInt.toNat 99999 = min (EdgeSpec.wrap v).toInt.toNat 99999
  rw [h]

/-! ## The edge list's two rows and the start indices -/

variable (x0 : FVec Ideal ⟨1, ![100000]⟩ .f32) (x3 : FVec Ideal ⟨2, ![100000, 3]⟩ .f32) (x4 : FVec Ideal ⟨1, ![100000]⟩ .f32)
  (x10 : FVec Ideal ⟨2, ![100000, 3]⟩ .f32) (x12 : IVec ⟨2, ![2, 3200000]⟩ 32) (e : Fin 3200000) (k : Fin 3)

/-- Row 0 of the edge list as a flat array, at `e`. -/
theorem v1_at : val_main_v1 (F := Ideal) x12 (ix1 e) = x12 (ix2 (0 : Fin 2) e) := by
  rw [val_main_v1_apply, val_main_v0_apply]
  refine congrArg x12 (funext fun a => Fin.ext ?_)
  match a with
  | ⟨0, _⟩ => rfl
  | ⟨1, _⟩ => show e.val % 3200000 = e.val; exact Nat.mod_eq_of_lt e.isLt

/-- Row 1 of the edge list as a flat array, at `e`. -/
theorem v3_at : val_main_v3 (F := Ideal) x12 (ix1 e) = x12 (ix2 (1 : Fin 2) e) := by
  rw [val_main_v3_apply, val_main_v2_apply]
  refine congrArg x12 (funext fun a => Fin.ext ?_)
  match a with
  | ⟨0, _⟩ => rfl
  | ⟨1, _⟩ => show e.val % 3200000 = e.val; exact Nat.mod_eq_of_lt e.isLt

/-- The start indices of the position gather at the destinations: the wrapped word of row 1 of the edge list. -/
theorem v45_at : val_main_v45 (F := Ideal) x12 (ix2 e (0 : Fin 1)) = EdgeSpec.wrap (x12 (ix2 (1 : Fin 2) e)) := by
  rw [val_main_v45_apply, show idx_main_v45 (ix2 e (0 : Fin 1)) = ix1 e from funext fun a => by match a with | ⟨0, _⟩ => rfl,
    val_main_v44_apply, val_main_v41_apply, val_main_v43_apply, val_main_v40_apply, val_main_v42_apply,
    val_main_c_apply, val_main_c_12_apply, v3_at]
  rfl

/-- The position table's row of the destination of edge `e`, column `k`. -/
theorem v46_at : val_main_v46 (F := Ideal) x10 x12 (ix2 e k) = x10 (ix2 (EdgeSpec.dst x12 e) k) :=
  rows_at x10 (val_main_v45 (F := Ideal) x12) e k _ (v45_at x12 e)

/-- The start indices of the position gather at the sources: the wrapped word of row 0 of the edge list. -/
theorem v52_at : val_main_v52 (F := Ideal) x12 (ix2 e (0 : Fin 1)) = EdgeSpec.wrap (x12 (ix2 (0 : Fin 2) e)) := by
  rw [val_main_v52_apply, show idx_main_v52 (ix2 e (0 : Fin 1)) = ix1 e from funext fun a => by match a with | ⟨0, _⟩ => rfl,
    val_main_v51_apply, val_main_v48_apply, val_main_v50_apply, val_main_v47_apply, val_main_v49_apply,
    val_main_c_13_apply, val_main_c_14_apply, v1_at]
  rfl

/-- The position table's row of the source of edge `e`, column `k`. -/
theorem v53_at : val_main_v53 (F := Ideal) x10 x12 (ix2 e k) = x10 (ix2 (EdgeSpec.src x12 e) k) :=
  rows_at x10 (val_main_v52 (F := Ideal) x12) e k _ (v52_at x12 e)

/-- The start indices of the density gather at the sources: the wrapped word of row 0 of the edge list. -/
theorem v67_at : val_main_v67 (F := Ideal) x12 (ix2 e (0 : Fin 1)) = EdgeSpec.wrap (x12 (ix2 (0 : Fin 2) e)) := by
  rw [val_main_v67_apply, show idx_main_v67 (ix2 e (0 : Fin 1)) = ix1 e from funext fun a => by match a with | ⟨0, _⟩ => rfl,
    val_main_v66_apply, val_main_v63_apply, val_main_v65_apply, val_main_v62_apply, val_main_v64_apply,
    val_main_c_16_apply, val_main_c_17_apply, v1_at]
  rfl

/-- The density of the source of edge `e`. -/
theorem v68_at : val_main_v68 (F := Ideal) x4 x12 (ix1 e) = x4 (ix1 (EdgeSpec.src x12 e)) :=
  vec_at x4 (val_main_v67 (F := Ideal) x12) e _ (v67_at x12 e)

/-- The start indices of the density gather at the destinations: the wrapped word of row 1 of the edge list. -/
theorem v74_at : val_main_v74 (F := Ideal) x12 (ix2 e (0 : Fin 1)) = EdgeSpec.wrap (x12 (ix2 (1 : Fin 2) e)) := by
  rw [val_main_v74_apply, show idx_main_v74 (ix2 e (0 : Fin 1)) = ix1 e from funext fun a => by match a with | ⟨0, _⟩ => rfl,
    val_main_v73_apply, val_main_v70_apply, val_main_v72_apply, val_main_v69_apply, val_main_v71_apply,
    val_main_c_18_apply, val_main_c_19_apply, v3_at]
  rfl

/-- The density of the destination of edge `e`. -/
theorem v75_at : val_main_v75 (F := Ideal) x4 x12 (ix1 e) = x4 (ix1 (EdgeSpec.dst x12 e)) :=
  vec_at x4 (val_main_v74 (F := Ideal) x12) e _ (v74_at x12 e)

/-- The start indices of the velocity gather at the sources: the wrapped word of row 0 of the edge list. -/
theorem v81_at : val_main_v81 (F := Ideal) x12 (ix2 e (0 : Fin 1)) = EdgeSpec.wrap (x12 (ix2 (0 : Fin 2) e)) := by
  rw [val_main_v81_apply, show idx_main_v81 (ix2 e (0 : Fin 1)) = ix1 e from funext fun a => by match a with | ⟨0, _⟩ => rfl,
    val_main_v80_apply, val_main_v77_apply, val_main_v79_apply, val_main_v76_apply, val_main_v78_apply,
    val_main_c_20_apply, val_main_c_21_apply, v1_at]
  rfl

/-- The velocity table's row of the source of edge `e`, column `k`. -/
theorem v82_at : val_main_v82 (F := Ideal) x3 x12 (ix2 e k) = x3 (ix2 (EdgeSpec.src x12 e) k) :=
  rows_at x3 (val_main_v81 (F := Ideal) x12) e k _ (v81_at x12 e)

/-- The start indices of the velocity gather at the destinations: the wrapped word of row 1 of the edge list. -/
theorem v88_at : val_main_v88 (F := Ideal) x12 (ix2 e (0 : Fin 1)) = EdgeSpec.wrap (x12 (ix2 (1 : Fin 2) e)) := by
  rw [val_main_v88_apply, show idx_main_v88 (ix2 e (0 : Fin 1)) = ix1 e from funext fun a => by match a with | ⟨0, _⟩ => rfl,
    val_main_v87_apply, val_main_v84_apply, val_main_v86_apply, val_main_v83_apply, val_main_v85_apply,
    val_main_c_22_apply, val_main_c_23_apply, v3_at]
  rfl

/-- The velocity table's row of the destination of edge `e`, column `k`. -/
theorem v89_at : val_main_v89 (F := Ideal) x3 x12 (ix2 e k) = x3 (ix2 (EdgeSpec.dst x12 e) k) :=
  rows_at x3 (val_main_v88 (F := Ideal) x12) e k _ (v88_at x12 e)

/-- The start indices of the pressure gather at the sources: the wrapped word of row 0 of the edge list. -/
theorem v123_at : val_main_v123 (F := Ideal) x12 (ix2 e (0 : Fin 1)) = EdgeSpec.wrap (x12 (ix2 (0 : Fin 2) e)) := by
  rw [val_main_v123_apply, show idx_main_v123 (ix2 e (0 : Fin 1)) = ix1 e from funext fun a => by match a with | ⟨0, _⟩ => rfl,
    val_main_v122_apply, val_main_v119_apply, val_main_v121_apply, val_main_v118_apply, val_main_v120_apply,
    val_main_c_34_apply, val_main_c_35_apply, v1_at]
  rfl

/-- The pressure of the source of edge `e`. -/
theorem v124_at : val_main_v124 (F := Ideal) x0 x12 (ix1 e) = x0 (ix1 (EdgeSpec.src x12 e)) :=
  vec_at x0 (val_main_v123 (F := Ideal) x12) e _ (v123_at x12 e)

/-- The start indices of the pressure gather at the destinations: the wrapped word of row 1 of the edge list. -/
theorem v130_at : val_main_v130 (F := Ideal) x12 (ix2 e (0 : Fin 1)) = EdgeSpec.wrap (x12 (ix2 (1 : Fin 2) e)) := by
  rw [val_main_v130_apply, show idx_main_v130 (ix2 e (0 : Fin 1)) = ix1 e from funext fun a => by match a with | ⟨0, _⟩ => rfl,
    val_main_v129_apply, val_main_v126_apply, val_main_v128_apply, val_main_v125_apply, val_main_v127_apply,
    val_main_c_36_apply, val_main_c_37_apply, v3_at]
  rfl

/-- The pressure of the destination of edge `e`. -/
theorem v131_at : val_main_v131 (F := Ideal) x0 x12 (ix1 e) = x0 (ix1 (EdgeSpec.dst x12 e)) :=
  vec_at x0 (val_main_v130 (F := Ideal) x12) e _ (v130_at x12 e)

/-! ## The edge vector, its length, the unit vector and the face area -/

/-- The edge vector's component `k`: destination position minus source position. -/
theorem ev_at : val_main_v54 (F := Ideal) x10 x12 (ix2 e k) = EdgeSpec.ev x10 x12 e k := by
  rw [val_main_v54_apply, v46_at, v53_at]
  rfl

/-- The sum of the squares of the edge vector's three components, from the zero word: `(a₀ + a₁) + a₂`. -/
theorem sq_at : val_main_call0_v1 (F := Ideal) x10 x12 (ix1 e)
    = (EdgeSpec.ev x10 x12 e 0 * EdgeSpec.ev x10 x12 e 0 + EdgeSpec.ev x10 x12 e 1 * EdgeSpec.ev x10 x12 e 1)
      + EdgeSpec.ev x10 x12 e 2 * EdgeSpec.ev x10 x12 e 2 := by
  have hk : ∀ k : Fin 3, idx_main_call0_v1 (ix1 e) k = ix2 e k := fun k => funext fun a => by
    match a with
    | ⟨0, _⟩ => rfl
    | ⟨1, _⟩ => rfl
  rw [val_main_call0_v1_apply, val_main_call0_cst_apply, Fin.sum_univ_three, hk 0, hk 1, hk 2,
    val_main_call0_v0_apply, val_main_call0_v0_apply, val_main_call0_v0_apply, ev_at, ev_at, ev_at,
    Ideal.ofBits_def, Ideal.ofBits_zero_f32, zero_add]
  rfl

/-- The edge length: the square root of that sum, plus ε. -/
theorem len_at : val_main_v57 (F := Ideal) x10 x12 (ix2 e (0 : Fin 1)) = EdgeSpec.len x10 x12 e := by
  rw [val_main_v57_apply, val_main_v55_apply, val_main_call0_v2_apply,
    show idx_main_call0_v2 (ix2 e (0 : Fin 1)) = ix1 e from funext fun a => by match a with | ⟨0, _⟩ => rfl,
    sq_at, val_main_v56_apply, val_main_cst_15_apply]
  rfl

/-- The unit vector's component `k`: the edge vector's over the length (the length read along the columns). -/
theorem eu_at : val_main_v59 (F := Ideal) x10 x12 (ix2 e k) = EdgeSpec.eu x10 x12 e k := by
  rw [val_main_v59_apply, ev_at, val_main_v58_apply, show idx_main_v58 (ix2 e k) = ix2 e (0 : Fin 1) from funext fun a => by match a with | ⟨0, _⟩ => rfl | ⟨1, _⟩ => rfl, len_at]
  rfl

/-- The face area: the length squared (the length column read as a flat array). -/
theorem area_at : val_main_v61 (F := Ideal) x10 x12 (ix1 e) = EdgeSpec.area x10 x12 e := by
  have h60 : idx_main_v60 (ix1 e) = ix2 e (0 : Fin 1) := funext fun a => Fin.ext (by
    match a with
    | ⟨0, _⟩ => show e.val / 1 = e.val; exact Nat.div_one e.val
    | ⟨1, _⟩ => rfl)
  rw [val_main_v61_apply, val_main_v60_apply, h60, len_at]
  rfl

/-! ## The face velocity, its normal component, the face density and the mass flux -/

/-- The face velocity's component `k`: half the sum of the two nodes' velocities. -/
theorem uf_at : val_main_v92 (F := Ideal) x3 x12 (ix2 e k) = EdgeSpec.uf x3 x12 e k := by
  rw [val_main_v92_apply, val_main_v90_apply, v82_at, v89_at, val_main_v91_apply, val_main_cst_24_apply]
  rfl

/-- The normal velocity: the sum over the three columns of face velocity times unit vector, `(a₀ + a₁) + a₂`. -/
theorem un_at : val_main_v94 (F := Ideal) x3 x10 x12 (ix1 e) = EdgeSpec.un x3 x10 x12 e := by
  have hk : ∀ k : Fin 3, idx_main_v94 (ix1 e) k = ix2 e k := fun k => funext fun a => by
    match a with
    | ⟨0, _⟩ => rfl
    | ⟨1, _⟩ => rfl
  rw [val_main_v94_apply, val_main_cst_25_apply, Fin.sum_univ_three, hk 0, hk 1, hk 2,
    val_main_v93_apply, val_main_v93_apply, val_main_v93_apply, uf_at, uf_at, uf_at, eu_at, eu_at, eu_at,
    Ideal.ofBits_def, Ideal.ofBits_zero_f32, zero_add]
  rfl

/-- The harmonic face density. -/
theorem rf_at : val_main_v101 (F := Ideal) x4 x12 (ix1 e) = EdgeSpec.rf x4 x12 e := by
  rw [val_main_v101_apply, val_main_v97_apply, val_main_v96_apply, val_main_v100_apply, val_main_v98_apply,
    val_main_v95_apply, val_main_cst_26_apply, val_main_v99_apply, val_main_cst_27_apply, v68_at, v75_at]
  rfl

/-- THE MASS FLUX of the reference at edge `e` is `EdgeSpec.FM`. -/
theorem refFM : val_main_v103 (F := Ideal) x3 x4 x10 x12 (ix1 e) = EdgeSpec.FM x3 x4 x10 x12 e := by
  rw [val_main_v103_apply, val_main_v102_apply, rf_at, un_at, area_at]
  rfl

/-! ## The face pressure and the momentum flux -/

/-- The face pressure: half the sum of the two nodes' pressures. -/
theorem pf_at : val_main_v134 (F := Ideal) x0 x12 (ix1 e) = EdgeSpec.pf x0 x12 e := by
  rw [val_main_v134_apply, val_main_v132_apply, v124_at, v131_at, val_main_v133_apply, val_main_cst_38_apply]
  rfl

/-- THE MOMENTUM FLUX of the reference at edge `e`, component `k`, is `EdgeSpec.TF`: the per-edge scalars (face
    density, normal velocity, face pressure) are read along the columns. -/
theorem refTF : val_main_v144 (F := Ideal) x0 x3 x4 x10 x12 (ix2 e k) = EdgeSpec.TF x0 x3 x4 x10 x12 e k := by
  rw [val_main_v144_apply, val_main_v140_apply, val_main_v137_apply, val_main_v143_apply,
    val_main_v136_apply, show idx_main_v136 (ix2 e k) = ix2 e (0 : Fin 1) from funext fun a => by match a with | ⟨0, _⟩ => rfl | ⟨1, _⟩ => rfl,
    val_main_v135_apply, show idx_main_v135 (ix2 e (0 : Fin 1)) = ix1 e from funext fun a => by match a with | ⟨0, _⟩ => rfl, rf_at, uf_at,
    val_main_v139_apply, show idx_main_v139 (ix2 e k) = ix2 e (0 : Fin 1) from funext fun a => by match a with | ⟨0, _⟩ => rfl | ⟨1, _⟩ => rfl,
    val_main_v138_apply, show idx_main_v138 (ix2 e (0 : Fin 1)) = ix1 e from funext fun a => by match a with | ⟨0, _⟩ => rfl, un_at,
    val_main_v142_apply, show idx_main_v142 (ix2 e k) = ix2 e (0 : Fin 1) from funext fun a => by match a with | ⟨0, _⟩ => rfl | ⟨1, _⟩ => rfl,
    val_main_v141_apply, show idx_main_v141 (ix2 e (0 : Fin 1)) = ix1 e from funext fun a => by match a with | ⟨0, _⟩ => rfl, pf_at, eu_at]
  rfl

end Cert.RefEdge

end
-- ==== Proof.KerFinal.lean ====
/-
  The kernel program's result, at the extended reals, as the reference's own stages of the launch memory.

  After the pipeline the program reshapes the mass-flux array `[1, E]` to `[E]` and transposes the momentum-flux array
  `[3, E]` to `[E, 3]`; those two arrays are, entry by entry, the specification's `FM` and `TF` (the pipeline's blocks
  tile the arrays, each column is the per-edge formula of the gathered columns, and the gathered columns are the node
  tables' rows at the edge's end points) — and so are the reference's two per-edge stages. Every other operation of
  the program — the data loss before the pipeline, the four accumulating scatters, the means, the wall term and the
  weighted sum after it — is, operation for operation, the reference's; so the result is the reference's last stage.
-/
import proofs.«131631_j10934986735710_1_alg».proof.Proof.FrameKI
import proofs.«131631_j10934986735710_1_alg».proof.Proof.KerArrays
import proofs.«131631_j10934986735710_1_alg».proof.Proof.KerGathered
import proofs.«131631_j10934986735710_1_alg».proof.Proof.RefEdges
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx Idealize.ShloMosaic.StableHlo Cert.EdgeSpec Cert.EdgeForm
open Cert.ReferenceIdeal.ReadP (val_main_v103 val_main_v144 val_main_v188)

variable (m : (ℓ : Loc nD τ sig) → Buf (Elt Ideal) ℓ)

/-! ## The two per-edge arrays -/

/-- The mass-flux array, set as a vector, is the reference's mass-flux stage of the launch memory. -/
theorem fm_array (c : Dev nD) (h : S1x3200000.ShapeCasts S3200000) :
    shapeCast S3200000 ((dats m 0 c).arrAt 8 cfg0.N) h
      = val_main_v103 (F := Ideal) (m ((c : Thread nD τ).loc main_arg3)) (m ((c : Thread nD τ).loc main_arg4)) (m ((c : Thread nD τ).loc main_arg10)) (m ((c : Thread nD τ).loc main_arg12)) := by
  funext i
  obtain ⟨e, rfl⟩ : ∃ e : Fin 3200000, i = ix1 e := ⟨i 0, eq_ix1 i⟩
  rw [Cert.RefEdge.refFM, FM_eq]
  rw [shapeCast_apply _ h (ix1 e) (ix2 (0 : Fin 1) e)
    (by rw [Shape.rowMajor_val_two, Shape.rowMajor_val_one]; show 0 * 3200000 + e.val = e.val; omega)]
  rw [final8]
  show fmAt _ _ _ _ _ _ e = _
  unfold fmAt
  have e0 : ∀ k' : Fin 3, V m c (Pipeline.arrRef spec0 0) (ix2 k' e) = (m ((c : Thread nD τ).loc main_arg10)) (ix2 (src (m ((c : Thread nD τ).loc main_arg12)) e) k') := fun k' => gath0 m c k' e
  have e1 : ∀ k' : Fin 3, V m c (Pipeline.arrRef spec0 1) (ix2 k' e) = (m ((c : Thread nD τ).loc main_arg10)) (ix2 (dst (m ((c : Thread nD τ).loc main_arg12)) e) k') := fun k' => gath1 m c k' e
  have e2 : V m c (Pipeline.arrRef spec0 2) (ix2 (0 : Fin 1) e) = (m ((c : Thread nD τ).loc main_arg4)) (ix1 (src (m ((c : Thread nD τ).loc main_arg12)) e)) := gath2 m c e
  have e3 : V m c (Pipeline.arrRef spec0 3) (ix2 (0 : Fin 1) e) = (m ((c : Thread nD τ).loc main_arg4)) (ix1 (dst (m ((c : Thread nD τ).loc main_arg12)) e)) := gath3 m c e
  have e4 : ∀ k' : Fin 3, V m c (Pipeline.arrRef spec0 4) (ix2 k' e) = (m ((c : Thread nD τ).loc main_arg3)) (ix2 (src (m ((c : Thread nD τ).loc main_arg12)) e) k') := fun k' => gath4 m c k' e
  have e5 : ∀ k' : Fin 3, V m c (Pipeline.arrRef spec0 5) (ix2 k' e) = (m ((c : Thread nD τ).loc main_arg3)) (ix2 (dst (m ((c : Thread nD τ).loc main_arg12)) e) k') := fun k' => gath5 m c k' e
  simp only [e0, e1, e2, e3, e4, e5]

/-- The momentum-flux array, transposed, is the reference's momentum-flux stage of the launch memory. -/
theorem tf_array (c : Dev nD) (h : S3x3200000.Transposes [1, 0] S3200000x3) :
    transpose S3200000x3 [1, 0] ((dats m 0 c).arrAt 9 cfg0.N) h
      = val_main_v144 (F := Ideal) (m ((c : Thread nD τ).loc main_arg0)) (m ((c : Thread nD τ).loc main_arg3)) (m ((c : Thread nD τ).loc main_arg4)) (m ((c : Thread nD τ).loc main_arg10)) (m ((c : Thread nD τ).loc main_arg12)) := by
  funext i
  obtain ⟨e, k, rfl⟩ : ∃ (e : Fin 3200000) (k : Fin 3), i = ix2 e k := ⟨i 0, i 1, eq_ix2 i⟩
  rw [Cert.RefEdge.refTF, TF_eq]
  rw [transpose_apply [1, 0] _ h (ix2 e k) (ix2 k e) (fun b => match b with | ⟨0, _⟩ => rfl | ⟨1, _⟩ => rfl)]
  rw [final9]
  show tfAt _ _ _ _ _ _ _ _ e k = _
  unfold tfAt
  have e0 : ∀ k' : Fin 3, V m c (Pipeline.arrRef spec0 0) (ix2 k' e) = (m ((c : Thread nD τ).loc main_arg10)) (ix2 (src (m ((c : Thread nD τ).loc main_arg12)) e) k') := fun k' => gath0 m c k' e
  have e1 : ∀ k' : Fin 3, V m c (Pipeline.arrRef spec0 1) (ix2 k' e) = (m ((c : Thread nD τ).loc main_arg10)) (ix2 (dst (m ((c : Thread nD τ).loc main_arg12)) e) k') := fun k' => gath1 m c k' e
  have e2 : V m c (Pipeline.arrRef spec0 2) (ix2 (0 : Fin 1) e) = (m ((c : Thread nD τ).loc main_arg4)) (ix1 (src (m ((c : Thread nD τ).loc main_arg12)) e)) := gath2 m c e
  have e3 : V m c (Pipeline.arrRef spec0 3) (ix2 (0 : Fin 1) e) = (m ((c : Thread nD τ).loc main_arg4)) (ix1 (dst (m ((c : Thread nD τ).loc main_arg12)) e)) := gath3 m c e
  have e4 : ∀ k' : Fin 3, V m c (Pipeline.arrRef spec0 4) (ix2 k' e) = (m ((c : Thread nD τ).loc main_arg3)) (ix2 (src (m ((c : Thread nD τ).loc main_arg12)) e) k') := fun k' => gath4 m c k' e
  have e5 : ∀ k' : Fin 3, V m c (Pipeline.arrRef spec0 5) (ix2 k' e) = (m ((c : Thread nD τ).loc main_arg3)) (ix2 (dst (m ((c : Thread nD τ).loc main_arg12)) e) k') := fun k' => gath5 m c k' e
  have e6 : V m c (Pipeline.arrRef spec0 6) (ix2 (0 : Fin 1) e) = (m ((c : Thread nD τ).loc main_arg0)) (ix1 (src (m ((c : Thread nD τ).loc main_arg12)) e)) := gath6 m c e
  have e7 : V m c (Pipeline.arrRef spec0 7) (ix2 (0 : Fin 1) e) = (m ((c : Thread nD τ).loc main_arg0)) (ix1 (dst (m ((c : Thread nD τ).loc main_arg12)) e)) := gath7 m c e
  simp only [e0, e1, e2, e3, e4, e5, e6, e7]

/-! ## The result -/

/-- The wall term's selection, as the called function computes it on its own typed copies of the operands, is the plain
    selection of the operands (the copies are the operands: moving between a buffer's contents and its value's is the
    identity). -/
theorem where_plain (cnd : main_v144.ty.Contents (Elt Ideal)) (a : main_v147.ty.Contents (Elt Ideal))
    (b : main_cst_45.ty.Contents (Elt Ideal)) :
    (TRef.of main_v148 : TRef sig ⟨S_, .f32⟩).toBuf
      (select ((TRef.of main_v144 : TRef sig ⟨S_, .i1⟩).ofBuf cnd) ((TRef.of main_v147 : TRef sig ⟨S_, .f32⟩).ofBuf a)
        ((TRef.of main_call0_v0 : TRef sig ⟨S_, .f32⟩).ofBuf ((TRef.of main_call0_v0 : TRef sig ⟨S_, .f32⟩).toBuf
          (id ((TRef.of main_cst_45 : TRef sig ⟨S_, .f32⟩).ofBuf b)))))
      = (select (cnd : (⟨S_, .i1⟩ : BufTy).Contents (Elt Ideal)) (a : (⟨S_, .f32⟩ : BufTy).Contents (Elt Ideal))
          (id (b : (⟨S_, .f32⟩ : BufTy).Contents (Elt Ideal))) : (⟨S_, .f32⟩ : BufTy).Contents (Elt Ideal)) := rfl

set_option maxHeartbeats 16000000 in
/-- THE RESULT BUFFER after the program's last operation is the reference's last stage of the launch memory: the result is
    a sum of six weighted terms — the data loss, the clipped mean squares of the mass and momentum residuals, the wall
    term and two products of constants — and each is, operation for operation, the reference's, over the two per-edge
    arrays above and the argument arrays. -/
theorem kernel_final (c : Dev nD) :
    Pipeline.afterTail₀ cfgs (dats m) 0 (V0 m) [hostOps1, hostOps1_1, hostOps1_2] c main_v160
      = val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after (List.flatten [hostOps1, hostOps1_1, hostOps1_2])
      (Pipeline.withArrays spec0 c (V0 m c) (fun w => (dats m 0 c).arrAt w cfg0.N)) (Proc.devRef .tc main_v160) = _
  have h8 : Pipeline.withArrays spec0 c (V0 m c) (fun w => (dats m 0 c).arrAt w cfg0.N) (Proc.devRef .tc main_v100_0)
      = (dats m 0 c).arrAt 8 cfg0.N := Pipeline.withArrays_arr spec0 launch0.win.arr_inj c _ _ 8
  have h9 : Pipeline.withArrays spec0 c (V0 m c) (fun w => (dats m 0 c).arrAt w cfg0.N) (Proc.devRef .tc main_v100_1)
      = (dats m 0 c).arrAt 9 cfg0.N := Pipeline.withArrays_arr spec0 launch0.win.arr_inj c _ _ 9
  have hv1 := Pipeline.withArrays_of_ne spec0 c (V0 m c) (fun w => (dats m 0 c).arrAt w cfg0.N) main_v1
    (by exact (by decide : ∀ w, Pipeline.arrRef spec0 w ≠ main_v1))
  have hv3 := Pipeline.withArrays_of_ne spec0 c (V0 m c) (fun w => (dats m 0 c).arrAt w cfg0.N) main_v3
    (by exact (by decide : ∀ w, Pipeline.arrRef spec0 w ≠ main_v3))
  have hv39 := Pipeline.withArrays_of_ne spec0 c (V0 m c) (fun w => (dats m 0 c).arrAt w cfg0.N) main_v39
    (by exact (by decide : ∀ w, Pipeline.arrRef spec0 w ≠ main_v39))
  have ha3 := Pipeline.withArrays_of_ne spec0 c (V0 m c) (fun w => (dats m 0 c).arrAt w cfg0.N) main_arg3
    (by exact (by decide : ∀ w, Pipeline.arrRef spec0 w ≠ main_arg3))
  have ha9 := Pipeline.withArrays_of_ne spec0 c (V0 m c) (fun w => (dats m 0 c).arrAt w cfg0.N) main_arg9
    (by exact (by decide : ∀ w, Pipeline.arrRef spec0 w ≠ main_arg9))
  have ha11 := Pipeline.withArrays_of_ne spec0 c (V0 m c) (fun w => (dats m 0 c).arrAt w cfg0.N) main_arg11
    (by exact (by decide : ∀ w, Pipeline.arrRef spec0 w ≠ main_arg11))
  generalize Pipeline.withArrays spec0 c (V0 m c) (fun w => (dats m 0 c).arrAt w cfg0.N) = W at h8 h9 hv1 hv3 hv39 ha3 ha9 ha11 ⊢
  simp only [hostOps1, hostOps1_1, hostOps1_2, List.flatten_cons, List.flatten_nil, List.append_nil, List.cons_append, List.nil_append]
  after_results_simp
  rw [h8, h9, hv1, hv3, hv39, ha3, ha9, ha11]
  rw (config := { transparency := .default }) [fm_array m c, tf_array m c]
  dsimp only [V0]
  simp only [hostOps0, List.flatten_cons, List.flatten_nil, List.append_nil]
  after_results_simp
  unfold Cert.ReferenceIdeal.ReadP.val_main_v188 Cert.ReferenceIdeal.ReadP.val_main_v186 Cert.ReferenceIdeal.ReadP.val_main_v184 Cert.ReferenceIdeal.ReadP.val_main_v182 Cert.ReferenceIdeal.ReadP.val_main_v180
  refine congrArg₂ (addf (F := Ideal)) (congrArg₂ (addf (F := Ideal)) (congrArg₂ (addf (F := Ideal))
    (congrArg₂ (addf (F := Ideal)) (congrArg₂ (addf (F := Ideal)) ?_ ?_) ?_) ?_) ?_) ?_
  · rfl
  · rfl
  · rfl
  · rfl
  · unfold Cert.ReferenceIdeal.ReadP.val_main_v185 Cert.ReferenceIdeal.ReadP.val_main_v177
    refine congrArg₂ (mulf (F := Ideal)) rfl (congrArg₂ (minimumf (F := Ideal)) ?_ rfl)
    refine (where_plain _ _ _).trans ?_
    unfold Cert.ReferenceIdeal.ReadP.val_main_v176
    refine congr (congrArg₂ select ?_ ?_) ?_
    · rfl
    · rfl
    · rfl
  · rfl

/-! ## The run -/

-- the frame run's implicit arguments are found by unifying its conclusion with this one
set_option backward.isDefEq.respectTransparency.types false in
/-- Every weakly fair execution of the program terminates, with the result at the reference's last stage of the launch
    memory and every argument array as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v160) = val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v160 (Pipeline.mem_restRefs_of main_v160 (by decide) (by decide))).trans (kernel_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.HandValue

end
-- ==== Proof.lean ====
/-
  The claims of this certificate, proved.

  The two programs compute a weighted sum of loss terms over a graph of 100000 nodes and 3200000 edges. The one part
  they compute differently is the per-edge fluxes: the kernel program gathers the node tables' columns at the edges'
  end points, runs a pipeline over blocks of 32000 edges that computes the mass flux and the three momentum flux
  components of each edge, and reshapes / transposes the two result arrays; the reference gathers rows and computes
  the same quantities with whole-array operations, the two three-term sums as reductions from zero. On the extended
  reals both are, edge by edge, the same expressions with the same grouping of every sum and product (a reduction
  from zero over three terms is `0 + ((a + b) + c)`), so the two per-edge arrays are equal; every other operation —
  the data loss, the four accumulating scatters, the means, the wall term, the weighted sum — is the same operation in
  both programs, applied to equal operands. No finiteness is used: the precondition is never opened.

  The frames: each kernel program's run is its host operations, the pipeline, and its host operations again, none of
  which writes an argument array; the reference's run is its list of host operations.
-/
import proofs.«131631_j10934986735710_1_alg».proof.Defs
import proofs.«131631_j10934986735710_1_alg».proof.Proof.Gen.Kernel
import proofs.«131631_j10934986735710_1_alg».proof.Proof.Gen.KernelIdeal
import proofs.«131631_j10934986735710_1_alg».proof.Proof.Gen.ReferenceIdeal
import proofs.«131631_j10934986735710_1_alg».proof.Proof.Gen.Pre_finite_inputs
import proofs.«131631_j10934986735710_1_alg».proof.Proof.FrameK
import proofs.«131631_j10934986735710_1_alg».proof.Proof.FrameKI
import proofs.«131631_j10934986735710_1_alg».proof.Proof.KerFinal
import proofs.«131631_j10934986735710_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does the kernel program read at the extended reals. -/
theorem frame_ki : Cert.frame_KernelIdeal := fun m ρ _ => Cert.KernelIdeal.Hand.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the extended reals the kernel program's result is the reference's last stage of its launch memory, the
    reference's result is that stage of its own launch memory, and the two memories agree on the arguments. -/
theorem algebraic : Cert.algebraic_KernelIdeal_ReferenceIdeal := by
  intro m ρ m' ρ' _ hagree
  refine ⟨fun c => Cert.ReferenceIdeal.ReadP.val_main_v188 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)),
    Cert.KernelIdeal.HandValue.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v188_eq]
  obtain ⟨a0, a1, a2, a3, a4, a5, a6, a7, a8, a9, a10, a11, a12⟩ := hagree c
  rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
